-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x128 : Shape := ⟨2, ![256, 128]⟩
abbrev S128x10 : Shape := ⟨2, ![128, 10]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg11 : FVec F S10 .f32) (main_v48 : IVec S_ 1) (main_v49 : FVec F S128x10 .f32) (main_v50 : FVec F S128x10 .f32) : IVec S_ 1 :=
  let main_v51 : IVec S128x10 1 := cmpf .olt main_v49 main_v50
  let main_c_19 : IVec S_ 1 := constantI S_ 1 1#1
  let main_v52 : IVec S_ 1 := (fun x v => Host.reduce IntOp.andi x v reducesTo_S128x10_S_d0_1 h_S_) main_v51 main_c_19
  let main_v53 : IVec S_ 1 := andi main_v48 main_v52
  let main_v54 : FVec F S10 .f32 := Host.absf main_arg11
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg7 : FVec F S128 .f32) (main_arg8 : FVec F S256x128 .f32) (main_arg9 : FVec F S128 .f32) (main_arg10 : FVec F S128x10 .f32) (main_arg11 : FVec F S10 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x10 .f32 := Host.absf main_arg10
  let main_cst_18 : FVec F S_ .f32 := constant S_ .f32 0x7F800000#32
  let main_v50 : FVec F S128x10 .f32 := broadcastInDim S128x10 ![] bcast_S_S128x10 main_cst_18
  fn_part3 (F := F) main_arg11 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S256x128 .f32) (main_arg9 : FVec F S128 .f32) (main_arg10 : FVec F S128x10 .f32) (main_arg11 : FVec F S10 .f32) (main_v13 : IVec S_ 1) (main_v16 : IVec S10000x10000 1) : IVec S_ 1 :=
  let main_c_5 : IVec S_ 1 := constantI S_ 1 1#1
  let main_v17 : IVec S_ 1 := (fun x v => Host.reduce IntOp.andi x v reducesTo_S10000x10000_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x128 .f32) (main_arg1 : FVec F S10000x128 .f32) (main_arg2 : FVec F S10000x10000 .f32) (main_arg3 : FVec F S10000x10000 .f32) (main_arg4 : FVec F S128x128 .f32) (main_arg5 : FVec F S128 .f32) (main_arg6 : FVec F S128x128 .f32) (main_arg7 : FVec F S128 .f32) (main_arg8 : FVec F S256x128 .f32) (main_arg9 : FVec F S128 .f32) (main_arg10 : FVec F S128x10 .f32) (main_arg11 : FVec F S10 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S10000x10000 .f32 := Host.absf main_arg3
  let main_cst_4 : FVec F S_ .f32 := constant S_ .f32 0x7F800000#32
  let main_v15 : FVec F S10000x10000 .f32 := broadcastInDim S10000x10000 ![] bcast_S_S10000x10000 main_cst_4
  let main_v16 : IVec S10000x10000 1 := cmpf .olt main_v14 main_v15
  fn_part1 (F := F) main_arg4 main_arg5 main_arg6 main_arg7 main_arg8 main_arg9 main_arg10 main_arg11 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x128 : Shape := ⟨2, ![256, 128]⟩
abbrev S128x10 : Shape := ⟨2, ![128, 10]⟩
abbrev S10 : Shape := ⟨1, ![10]⟩
abbrev S10000x256 : Shape := ⟨2, ![10000, 256]⟩
abbrev S256 : Shape := ⟨1, ![256]⟩
abbrev S1x256 : Shape := ⟨2, ![1, 256]⟩
abbrev S200x10000 : Shape := ⟨2, ![200, 10000]⟩
abbrev S200x256 : Shape := ⟨2, ![200, 256]⟩
abbrev S200x128 : Shape := ⟨2, ![200, 128]⟩
abbrev S1x128 : Shape := ⟨2, ![1, 128]⟩
abbrev S8x256 : Shape := ⟨2, ![8, 256]⟩
abbrev S25x8x256 : Shape := ⟨3, ![25, 8, 256]⟩
abbrev S1x10 : Shape := ⟨2, ![1, 10]⟩
abbrev S1 : Shape := ⟨1, ![1]⟩
abbrev S1x1 : Shape := ⟨2, ![1, 1]⟩

abbrev nBuf : Space → Nat
  | .hbm => 22
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S10000x10000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x10, .f32⟩
  | .hbm, ⟨11, _⟩ => ⟨S10, .f32⟩
  | .hbm, ⟨12, _⟩ => ⟨S10000x256, .f32⟩
  | .hbm, ⟨13, _⟩ => ⟨S256, .f32⟩
  | .hbm, ⟨14, _⟩ => ⟨S1x256, .f32⟩
  | .hbm, ⟨15, _⟩ => ⟨S256, .f32⟩
  | .hbm, ⟨16, _⟩ => ⟨S1x256, .f32⟩
  | .hbm, ⟨17, _⟩ => ⟨S10000x256, .f32⟩
  | .hbm, ⟨18, _⟩ => ⟨S8x256, .f32⟩
  | .hbm, ⟨19, _⟩ => ⟨S1x128, .f32⟩
  | .hbm, ⟨20, _⟩ => ⟨S1x10, .f32⟩
  | .hbm, ⟨21, _⟩ => ⟨S1x10, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x256, .f32⟩
  | .local _ .vmem, ⟨4, _⟩ => ⟨S200x10000, .f32⟩
  | .local _ .vmem, ⟨5, _⟩ => ⟨S200x10000, .f32⟩
  | .local _ .vmem, ⟨6, _⟩ => ⟨S200x10000, .f32⟩
  | .local _ .vmem, ⟨7, _⟩ => ⟨S200x10000, .f32⟩
  | .local _ .vmem, ⟨8, _⟩ => ⟨S10000x256, .f32⟩
  | .local _ .vmem, ⟨9, _⟩ => ⟨S1x256, .f32⟩
  | .local _ .vmem, ⟨10, _⟩ => ⟨S128x128, .f32⟩
  | .local _ .vmem, ⟨11, _⟩ => ⟨S200x256, .f32⟩
  | .local _ .vmem, ⟨12, _⟩ => ⟨S200x256, .f32⟩
  | .local _ .vmem, ⟨13, _⟩ => ⟨S200x10000, .f32⟩
  | .local _ .vmem, ⟨14, _⟩ => ⟨S200x10000, .f32⟩
  | .local _ .vmem, ⟨15, _⟩ => ⟨S200x10000, .f32⟩
  | .local _ .vmem, ⟨16, _⟩ => ⟨S200x10000, .f32⟩
  | .local _ .vmem, ⟨17, _⟩ => ⟨S10000x256, .f32⟩
  | .local _ .vmem, ⟨18, _⟩ => ⟨S1x256, .f32⟩
  | .local _ .vmem, ⟨19, _⟩ => ⟨S8x256, .f32⟩
  | .local _ .vmem, ⟨20, _⟩ => ⟨S8x256, .f32⟩
  | .local _ .vmem, ⟨21, _⟩ => ⟨S256x128, .f32⟩
  | .local _ .vmem, ⟨22, _⟩ => ⟨S1x128, .f32⟩
  | .local _ .vmem, ⟨23, _⟩ => ⟨S128x10, .f32⟩
  | .local _ .vmem, ⟨24, _⟩ => ⟨S1x10, .f32⟩
  | .local _ .vmem, ⟨25, _⟩ => ⟨S1x10, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc3_stg0_0 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc3_sem0_0 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S200x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def k2_cond1 (i : grid2.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_15 : BitVec 32 := 0#32
  let v39 : BitVec 1 := Scalar.cmpi .ne v38 c0_i32_15
  v39

def k2_cond2 (i : grid2.Coords) : BitVec 1 :=
  let arg0 : BitVec 32 := BitVec.ofNat 32 (i 0).val
  let c0_i32_16 : BitVec 32 := 0#32
  let v40 : BitVec 1 := Scalar.cmpi .ne arg0 c0_i32_16
  let v41 : BitVec 32 := Scalar.extui v40
  let c0_i32_17 : BitVec 32 := 0#32
  let v42 : BitVec 1 := Scalar.cmpi .ne v41 c0_i32_17
  v42

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x10000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := .none

abbrev stage3_0 : Fin 1 → Memref sig .tc .vmem S8x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S128x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S1x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  concatenates_S10000x128_S10000x128_S10000x256_d1 : Shape.Concatenates [S10000x128, S10000x128] S10000x256 1
  inb_S10000x256_S10000x256_0_0 : ∀ a, (![0, 0] : Fin 2 → Nat) a + S10000x256.size a ≤ S10000x256.size a
  h_S10000x256 : 0 < S10000x256.numel
  concatenates_S128_S128_S256_d0 : Shape.Concatenates [S128, S128] S256 0
  shapeCasts_S256_S1x256 : S256.ShapeCasts S1x256
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  shapeCasts_S10000x256_S10000x256 : S10000x256.ShapeCasts S10000x256
  slices_S200x256_o0_0_S200x128 : S200x256.Slices ![0, 0] S200x128
  slices_S200x256_o0_128_S200x128 : S200x256.Slices ![0, 128] S200x128
  inb_S1x256_S1x128_0_0 : ∀ a, (![0, 0] : Fin 2 → Nat) a + S1x128.size a ≤ S1x256.size a
  h_S1x128 : 0 < S1x128.numel
  shapeCasts_S1x128_S128 : S1x128.ShapeCasts S128
  shapeCasts_S128_S1x128 : S128.ShapeCasts S1x128
  broadcasts_S1x128_S200x128 : S1x128.Broadcasts S200x128
  inb_S1x256_S1x128_0_128 : ∀ a, (![0, 128] : Fin 2 → Nat) a + S1x128.size a ≤ S1x256.size a
  concatenates_S200x128_S200x128_S200x256_d1 : Shape.Concatenates [S200x128, S200x128] S200x256 1
  inb_S200x256_S200x256_0_0 : ∀ a, (![0, 0] : Fin 2 → Nat) a + S200x256.size a ≤ S200x256.size a
  h_S200x256 : 0 < S200x256.numel
  shapeCasts_S200x256_S25x8x256 : S200x256.ShapeCasts S25x8x256
  reduces_S25x8x256_S8x256 : S25x8x256.Reduces [0] S8x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  shapeCasts_S10_S1x10 : S10.ShapeCasts S1x10
  reduces_S8x256_S256 : S8x256.Reduces [0] S256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  shapeCasts_S1x128_S1x128 : S1x128.ShapeCasts S1x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  reduces_S1x10_S1 : S1x10.Reduces [1] S1
  shapeCasts_S1_S1x1 : S1.ShapeCasts S1x1
  broadcasts_S1x1_S1x10 : S1x1.Broadcasts S1x10
  dot_S10000x128_S128x128_S10000x128_1_0_0_1_n_n_wf : DotDims.WF S10000x128 S128x128 S10000x128 [1] [0] [0] [1] [] []
  dot_S200x10000_S10000x256_S200x256_1_0_0_1_n_n_wf : DotDims.WF S200x10000 S10000x256 S200x256 [1] [0] [0] [1] [] []
  dot_S200x128_S128x128_S200x128_1_0_0_1_n_n_wf : DotDims.WF S200x128 S128x128 S200x128 [1] [0] [0] [1] [] []
  dot_S1x256_S256x128_S1x128_1_0_0_1_n_n_wf : DotDims.WF S1x256 S256x128 S1x128 [1] [0] [0] [1] [] []
  dot_S1x128_S128x10_S1x10_1_0_0_1_n_n_wf : DotDims.WF S1x128 S128x10 S1x10 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x256.size a ≤ S10000x256.size a
  hwx1_2 : ∀ i : grid1.Coords, EltTy.bits .f32 = 32 ∨ (Rect.block (s := S10000x256) S10000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x256.size a ≤ S10000x256.size a
  hwx1_5 : ∀ i : grid1.Coords, EltTy.bits .f32 = 32 ∨ (Rect.block (s := S10000x256) S200x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S200x10000.size a ≤ S10000x10000.size a
  hwx2_1 : ∀ i : grid2.Coords, EltTy.bits .f32 = 32 ∨ (Rect.block (s := S10000x10000) S200x10000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x256.size a ≤ S10000x256.size a
  hwx2_2 : ∀ i : grid2.Coords, EltTy.bits .f32 = 32 ∨ (Rect.block (s := S10000x256) S10000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S8x256.size a ≤ S8x256.size a
  hwx2_4 : ∀ i : grid2.Coords, EltTy.bits .f32 = 32 ∨ (Rect.block (s := S8x256) S8x256.size (cc2_transform_4 i) (hinb2_4 i)).WholeWords (EltTy.packing .f32)
  hstage3_0 : ∀ j, (stage3_0 j).IsWhole
  hstage3_1 : ∀ j, (stage3_1 j).IsWhole
  hstage3_2 : ∀ j, (stage3_2 j).IsWhole
  hstage3_3 : ∀ j, (stage3_3 j).IsWhole
  hstage3_4 : ∀ j, (stage3_4 j).IsWhole
  hstage3_5 : ∀ j, (stage3_5 j).IsWhole

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S1x128_S128x10_S1x10_1_0_0_1_n_n : DotDims S1x128 S128x10 S1x10 where
  lhsContracting := [1]
  rhsContracting := [0]
  lhsNonContracting := [0]
  rhsNonContracting := [1]
  lhsBatch := []
  rhsBatch := []
  wf := dot_S1x128_S128x10_S1x10_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg4) false false (stage0_2 0) (sem0_2 0) (Memref.isWhole_whole _) (hstage0_2 0)

abbrev win0_3 : Pipeline.Window sig grid0 :=
  Pipeline.Window.whole (Memref.whole main_v0) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S10000x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S200x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg2) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S200x10000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S10000x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S8x256.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond1 i == 1#1) && !(k2_cond2 i == 1#1) | ⟨_ + 5, h⟩ => absurd h (Nat.not_lt.2 (Nat.le_add_left _ _))

abbrev win3_0 : Pipeline.Window sig grid3 :=
  Pipeline.Window.whole (Memref.whole main_v6) false false (stage3_0 0) (sem3_0 0) (Memref.isWhole_whole _) (hstage3_0 0)

abbrev win3_1 : Pipeline.Window sig grid3 :=
  Pipeline.Window.whole (Memref.whole main_arg8) false false (stage3_1 0) (sem3_1 0) (Memref.isWhole_whole _) (hstage3_1 0)

abbrev win3_2 : Pipeline.Window sig grid3 :=
  Pipeline.Window.whole (Memref.whole main_v7) false false (stage3_2 0) (sem3_2 0) (Memref.isWhole_whole _) (hstage3_2 0)

abbrev win3_3 : Pipeline.Window sig grid3 :=
  Pipeline.Window.whole (Memref.whole main_arg10) false false (stage3_3 0) (sem3_3 0) (Memref.isWhole_whole _) (hstage3_3 0)

abbrev win3_4 : Pipeline.Window sig grid3 :=
  Pipeline.Window.whole (Memref.whole main_v8) false false (stage3_4 0) (sem3_4 0) (Memref.isWhole_whole _) (hstage3_4 0)

abbrev win3_5 : Pipeline.Window sig grid3 :=
  Pipeline.Window.whole (Memref.whole main_v9) true false (stage3_5 0) (sem3_5 0) (Memref.isWhole_whole _) (hstage3_5 0)

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x128 : Shape := ⟨2, ![256, 128]⟩
abbrev S128x10 : Shape := ⟨2, ![128, 10]⟩
abbrev S10 : Shape := ⟨1, ![10]⟩
abbrev S1x128 : Shape := ⟨2, ![1, 128]⟩
abbrev S_ : Shape := ⟨0, ![]⟩
abbrev S256 : Shape := ⟨1, ![256]⟩
abbrev S1x256 : Shape := ⟨2, ![1, 256]⟩
abbrev S1x10 : Shape := ⟨2, ![1, 10]⟩
abbrev S1 : Shape := ⟨1, ![1]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S10000x10000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x10, .f32⟩
  | .hbm, ⟨11, _⟩ => ⟨S10, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S1x128, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S1x128, .f32⟩
  | .hbm, ⟨24, _⟩ => ⟨S10000x128, .f32⟩
  | .hbm, ⟨25, _⟩ => ⟨S10000x128, .f32⟩
  | .hbm, ⟨26, _⟩ => ⟨S_, .f32⟩
  | .hbm, ⟨27, _⟩ => ⟨S10000x128, .f32⟩
  | .hbm, ⟨28, _⟩ => ⟨S10000x128, .i1⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S10000x128, .f32⟩
  | .hbm, ⟨39, _⟩ => ⟨S1x128, .f32⟩
  | .hbm, ⟨40, _⟩ => ⟨S10000x128, .f32⟩
  | .hbm, ⟨41, _⟩ => ⟨S10000x128, .f32⟩
  | .hbm, ⟨42, _⟩ => ⟨S10000x128, .f32⟩
  | .hbm, ⟨43, _⟩ => ⟨S1x128, .f32⟩
  | .hbm, ⟨44, _⟩ => ⟨S10000x128, .f32⟩
  | .hbm, ⟨45, _⟩ => ⟨S10000x128, .f32⟩
  | .hbm, ⟨46, _⟩ => ⟨S_, .f32⟩
  | .hbm, ⟨47, _⟩ => ⟨S10000x128, .f32⟩
  | .hbm, ⟨48, _⟩ => ⟨S10000x128, .i1⟩
  | .hbm, ⟨49, _⟩ => ⟨S10000x128, .f32⟩
  | .hbm, ⟨50, _⟩ => ⟨S10000x128, .f32⟩
  | .hbm, ⟨51, _⟩ => ⟨S10000x128, .f32⟩
  | .hbm, ⟨52, _⟩ => ⟨S_, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S256, .f32⟩
  | .hbm, ⟨63, _⟩ => ⟨S1x256, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S_, .f32⟩
  | .hbm, ⟨68, _⟩ => ⟨S1x128, .f32⟩
  | .hbm, ⟨69, _⟩ => ⟨S1x128, .f32⟩
  | .hbm, ⟨70, _⟩ => ⟨S1x10, .f32⟩
  | .hbm, ⟨71, _⟩ => ⟨S1x10, .f32⟩
  | .hbm, ⟨72, _⟩ => ⟨S1x10, .f32⟩
  | .hbm, ⟨73, _⟩ => ⟨S_, .f32⟩
  | .hbm, ⟨74, _⟩ => ⟨S1, .f32⟩
  | .hbm, ⟨75, _⟩ => ⟨S_, .f32⟩
  | .hbm, ⟨76, _⟩ => ⟨S1, .f32⟩
  | .hbm, ⟨77, _⟩ => ⟨S1, .f32⟩
  | .hbm, ⟨78, _⟩ => ⟨S1x1, .f32⟩
  | .hbm, ⟨79, _⟩ => ⟨S1x10, .f32⟩
  | .hbm, ⟨80, _⟩ => ⟨S1x10, .f32⟩
  | .hbm, ⟨81, _⟩ => ⟨S1x10, .f32⟩
  | .hbm, ⟨82, _⟩ => ⟨S_, .f32⟩
  | .hbm, ⟨83, _⟩ => ⟨S1, .f32⟩
  | .hbm, ⟨84, _⟩ => ⟨S1x1, .f32⟩
  | .hbm, ⟨85, _⟩ => ⟨S1x10, .f32⟩
  | .hbm, ⟨86, _⟩ => ⟨S1x10, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_1 : Ref sig .tc := ⟨.hbm, 52, rfl⟩
abbrev main_v38 : Ref sig .tc := ⟨.hbm, 53, rfl⟩
abbrev main_cst_2 : Ref sig .tc := ⟨.hbm, 54, rfl⟩
abbrev main_v39 : Ref sig .tc := ⟨.hbm, 55, rfl⟩
abbrev main_v40 : Ref sig .tc := ⟨.hbm, 56, rfl⟩
abbrev main_cst_3 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call0_cst : Ref sig .tc := ⟨.hbm, 67, rfl⟩
abbrev main_call0_v0 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_5 : Ref sig .tc := ⟨.hbm, 73, rfl⟩
abbrev main_v53 : Ref sig .tc := ⟨.hbm, 74, rfl⟩
abbrev main_cst_6 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_7 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  reducesTo_S10000x128_S128_d0 : S10000x128.ReducesTo [0] S128
  h_S_ : 0 < S_.numel
  bcast_S_S128 : S_.BroadcastsInDim S128 (![] : Fin 0 → Fin S128.rank)
  concatenates_S128_S128_S256_d0 : Shape.Concatenates [S128, S128] S256 0
  bcast_S256_S1x256_1 : S256.BroadcastsInDim S1x256 (![1] : Fin 1 → Fin S1x256.rank)
  bcast_S_S1x128 : S_.BroadcastsInDim S1x128 (![] : Fin 0 → Fin S1x128.rank)
  bcast_S10_S1x10_1 : S10.BroadcastsInDim S1x10 (![1] : Fin 1 → Fin S1x10.rank)
  reducesTo_S1x10_S1_d1 : S1x10.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x10_0_1 : S1x1.BroadcastsInDim S1x10 (![0, 1] : Fin 2 → Fin S1x10.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []
  dot_S1x256_S256x128_S1x128_1_0_0_1_n_n_wf : DotDims.WF S1x256 S256x128 S1x128 [1] [0] [0] [1] [] []
  dot_S1x128_S128x10_S1x10_1_0_0_1_n_n_wf : DotDims.WF S1x128 S128x10 S1x10 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S1x128_S128x10_S1x10_1_0_0_1_n_n : DotDims S1x128 S128x10 S1x10 where
  lhsContracting := [1]
  rhsContracting := [0]
  lhsNonContracting := [0]
  rhsNonContracting := [1]
  lhsBatch := []
  rhsBatch := []
  wf := dot_S1x128_S128x10_S1x10_1_0_0_1_n_n_wf

class Facts : Prop extends Facts₀ where

variable [Facts]
-- ==== Proof.Region0.lean ====
/- Region 0 of @main (the gridless call of `cc0__pre_body`): the region's half of the frame, at any float
   instance and at a parameter `V`, the TensorCore's buffer contents when the region is entered. Each window's
   block is its whole array; the body reads the three inputs (the weight twice), reads the output buffer's old
   contents without using them, and stores ONE value over the whole output buffer: the two products side by side. -/
import proofs.«163911_g13984413516055_cont_sun_m_56_12_alg».proof.Proof.Gen.KernelIdeal.Launch
import proofs.«163911_g13984413516055_cont_sun_m_56_12_alg».proof.Proof.Gen.KernelIdeal.Skeleton
import proofs.«163911_g13984413516055_cont_sun_m_56_12_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_x : Rect S10000x128 := Rect.unit (s := S10000x128) ![0, 0] S10000x128.size inb_S10000x128_S10000x128_0_0
abbrev r0_w : Rect S128x128 := Rect.unit (s := S128x128) ![0, 0] S128x128.size inb_S128x128_S128x128_0_0
abbrev r0_o : Rect S10000x256 := Rect.unit (s := S10000x256) ![0, 0] S10000x256.size inb_S10000x256_S10000x256_0_0

/-! ## What the body leaves in the output window's buffer -/

/-- Window 3's staging buffer after the body, from the input windows' blocks: its one store as a piece (the payload
    is the skeleton's: the real-part product and the imaginary-part product, side by side). -/
def out0_3 (x0 : Vec F S10000x128 .f32) (x1 : Vec F S10000x128 .f32) (x2 : Vec F S128x128 .f32) : Vec F S10000x256 .f32 :=
  View.canon [⟨r0_o, k0_pay1 (View.ld x0 r0_x) (View.ld x2 r0_w) (View.ld x1 r0_x) (View.ld x2 r0_w)⟩]

/-- The one store is of the whole buffer, so it covers it. -/
theorem cover0_3 (p0 : Vec F S10000x256 .f32) (y : S10000x256.Idx) :
    ∃ pc ∈ ([⟨r0_o, p0⟩] : List (View.Piece (Elt F) S10000x256 .f32)), y ∈ pc.1.set :=
  ⟨⟨r0_o, p0⟩, List.mem_singleton_self _, View.mem_set_unit_zero (by funext a; fin_cases a <;> rfl) inb_S10000x256_S10000x256_0_0 y⟩

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (arg0 : Memref sig .tc .vmem S10000x128 .f32) (harg0 : arg0.IsWhole)
    (arg1 : Memref sig .tc .vmem S10000x128 .f32) (harg1 : arg1.IsWhole)
    (arg2 : Memref sig .tc .vmem S128x128 .f32) (harg2 : arg2.IsWhole)
    (arg3 : Memref sig .tc .vmem S10000x256 .f32) (harg3 : arg3.IsWhole)
    (x0 : Vec F S10000x128 .f32) (x1 : Vec F S10000x128 .f32) (x2 : Vec F S128x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__pre_body arg0 harg0 arg1 harg1 arg2 harg2 arg3 harg3) K := by
  simp only [cc0__pre_body_eq_skeleton]; unfold cc0__pre_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body each
    input's buffer at its block and the output's at `out0_3` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/- Region 1 of @main (the middle layer of the graph convolution, pipeline 1, a grid of 50 row blocks), at the
   contents `V` the TensorCore's buffers hold when the region is entered: each window's block at a point, what the
   body leaves in the output window's staging buffer as a pure function of the input blocks, the body's triple, the
   pipeline's proof data and its body obligation at every point. Generic in the float instance. -/
import proofs.«163911_g13984413516055_cont_sun_m_56_12_alg».proof.Proof.Gen.KernelIdeal.Launch
import proofs.«163911_g13984413516055_cont_sun_m_56_12_alg».proof.Proof.Gen.KernelIdeal.Skeleton
import proofs.«163911_g13984413516055_cont_sun_m_56_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axes' extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the pipeline fetched
    it there, for any proof data whose array is `V`'s (`hA`) and whose body leaves the block in place (`hafter`):
    where it is not fetched its block index has not moved, so the block left at the point before is this point's.
    The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether or not the pipeline fetched
    it there, for any proof data whose array is `V`'s (`hA`) and whose body leaves the block in place (`hafter`):
    where it is not fetched its block index has not moved, so the block left at the point before is this point's.
    The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether or not the pipeline fetched
    it there, for any proof data whose array is `V`'s (`hA`) and whose body leaves the block in place (`hafter`):
    where it is not fetched its block index has not moved, so the block left at the point before is this point's.
    The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether or not the pipeline fetched
    it there, for any proof data whose array is `V`'s (`hA`) and whose body leaves the block in place (`hafter`):
    where it is not fetched its block index has not moved, so the block left at the point before is this point's.
    The window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether or not the pipeline fetched
    it there, for any proof data whose array is `V`'s (`hA`) and whose body leaves the block in place (`hafter`):
    where it is not fetched its block index has not moved, so the block left at the point before is this point's.
    The window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S200x10000 := Rect.unit (s := S200x10000) ![0, 0] S200x10000.size inb_S200x10000_S200x10000_0_0
abbrev r1_1 : Rect S10000x256 := Rect.unit (s := S10000x256) ![0, 0] S10000x256.size inb_S10000x256_S10000x256_0_0
abbrev r1_2 : Rect S1x256 := Rect.unit (s := S1x256) ![0, 0] S1x128.size inb_S1x256_S1x128_0_0
abbrev r1_3 : Rect S1x256 := Rect.unit (s := S1x256) ![0, 128] S1x128.size inb_S1x256_S1x128_0_128
abbrev r1_4 : Rect S128x128 := Rect.unit (s := S128x128) ![0, 0] S128x128.size inb_S128x128_S128x128_0_0
abbrev r1_5 : Rect S200x256 := Rect.unit (s := S200x256) ![0, 0] S200x256.size inb_S200x256_S200x256_0_0

/-! ## What the body leaves in the output window's buffer -/

/-- Window 5's staging buffer after the body, from the input windows' blocks: its one store, of the whole block.
    `x0`, `x1` are the two adjacency row blocks, `x2` the concatenated features, `x3` the concatenated bias row
    (read at its two halves), `x4` the second layer's weights. -/
def out1_5 (x0 : Vec F S200x10000 .f32) (x1 : Vec F S200x10000 .f32) (x2 : Vec F S10000x256 .f32) (x3 : Vec F S1x256 .f32) (x4 : Vec F S128x128 .f32) : Vec F S200x256 .f32 :=
  View.canon [⟨r1_5, k1_pay1
    (k1_pay6 (View.ld x0 r1_0) (View.ld x2 r1_1) (View.ld x1 r1_0) (View.ld x2 r1_1) (View.ld x3 r1_2) (View.ld x3 r1_3))
    (k1_pay7 (View.ld x0 r1_0) (View.ld x2 r1_1) (View.ld x1 r1_0) (View.ld x2 r1_1) (View.ld x3 r1_2) (View.ld x4 r1_4))
    (View.ld x4 r1_4)⟩]

/-- The one store is of the whole block, so it covers it. -/
theorem cover1_5 (p0 : Vec F S200x256 .f32) (y : S200x256.Idx) :
    ∃ pc ∈ ([⟨r1_5, p0⟩] : List (View.Piece (Elt F) S200x256 .f32)), y ∈ pc.1.set :=
  View.cover_of_tiled [⟨r1_5, p0⟩] S200x256.size (by rfl) y

/-! ## The body's triple -/

set_option maxHeartbeats 1000000 in
/-- The kernel body on whole staging memrefs, the inputs' at read contents `xW` and the output's at anything, runs to
    the continuation holding the inputs' as they were and the output's at `out1_5` of the inputs'. The printed
    functions are their skeletons; the loads and the store are run symbolically, through the part call. -/
theorem sound_kernel1 (c : Dev nD) (E : Set ℕ) (i : grid1.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S1x256 .f32) (harg4 : arg4.IsWhole) (arg5 : Memref sig .tc .vmem S128x128 .f32) (harg5 : arg5.IsWhole) (arg6 : Memref sig .tc .vmem S200x256 .f32) (harg6 : arg6.IsWhole)
    (x0 : Vec F S200x10000 .f32) (x1 : Vec F S200x10000 .f32) (x2 : Vec F S10000x256 .f32) (x3 : Vec F S1x256 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__layer_mid_body i arg1 harg1 arg2 harg2 arg3 harg3 arg4 harg4 arg5 harg5 arg6 harg6) K := by
  simp only [cc1__layer_mid_body_eq_skeleton]; unfold cc1__layer_mid_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

/-! ## The pipeline's proof data -/

/-- The proof data of pipeline 1 on core `c`: the arrays as the region finds them (`V`); after the body at point
    `t` each input's buffer at its block and the output's at `out1_5` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Region2.lean ====
import proofs.«163911_g13984413516055_cont_sun_m_56_12_alg».proof.Proof.Gen.KernelIdeal.Launch
import proofs.«163911_g13984413516055_cont_sun_m_56_12_alg».proof.Proof.Gen.KernelIdeal.Skeleton
import proofs.«163911_g13984413516055_cont_sun_m_56_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 2 of @main (the last graph-convolution layer, grid 50): its half of the frame

The body propagates one 200-row block of the two adjacency operands through the layer, masks it,
and reduces it to an 8 × 256 block of partial column sums. The single output block is the same at
every grid point: the first point stores its partial sums there, every later point adds its own to
what the buffer holds. So what the output's staging buffer holds after point `t` is the running sum
of the partial sums of points `0 … t`, defined by recursion on the point (`acc2`). -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region2

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form -/

/-- The first conditional's condition as a function of the grid coordinate's value, -/
def cond2N_1 (n : ℕ) : BitVec 1 := Scalar.cmpi .ne (Scalar.extui (Scalar.cmpi .eq (BitVec.ofNat 32 n) 0#32) : BitVec 32) 0#32
/-- and the second's. -/
def cond2N_2 (n : ℕ) : BitVec 1 := Scalar.cmpi .ne (Scalar.extui (Scalar.cmpi .ne (BitVec.ofNat 32 n) 0#32) : BitVec 32) 0#32

theorem k2_cond1_eq (i : grid2.Coords) : k2_cond1 i = cond2N_1 (i 0).val := rfl
theorem k2_cond2_eq (i : grid2.Coords) : k2_cond2 i = cond2N_2 (i 0).val := rfl

/-- Below 50 exactly one of the two holds: the first at 0 only, the second everywhere else. -/
theorem cond2N_1_iff : ∀ n : Fin 50, cond2N_1 n.val = 1#1 ↔ n.val = 0 := by decide +kernel
theorem cond2N_2_iff : ∀ n : Fin 50, cond2N_2 n.val = 1#1 ↔ n.val ≠ 0 := by decide +kernel
theorem cond2N_live : ∀ n : Fin 50, (!(cond2N_1 n.val == 1#1) && !(cond2N_2 n.val == 1#1)) = false := by decide +kernel

/-- The first conditional (store the partial sums) is taken at the first point only, -/
theorem hcond2_1 : ∀ t : Fin cfg2.N, k2_cond1 (grid2.coords t) = 1#1 ↔ t.val = 0 :=
  (by decide +kernel : ∀ t : Fin grid2.N, k2_cond1 (grid2.coords t) = 1#1 ↔ t.val = 0)
/-- the second (add the partial sums to the buffer) at every later point. -/
theorem hcond2_2 : ∀ t : Fin cfg2.N, k2_cond2 (grid2.coords t) = 1#1 ↔ t.val ≠ 0 :=
  (by decide +kernel : ∀ t : Fin grid2.N, k2_cond2 (grid2.coords t) = 1#1 ↔ t.val ≠ 0)

/-- So the output window is idle at no coordinates: one of the two stores happens. -/
theorem live2_4 (i : grid2.Coords) : cfg2.idle 4 i = false :=
  cond2N_live ⟨(i 0).val, (i 0).isLt⟩

theorem liveAt2_4 (t : Fin cfg2.N) : cfg2.idle 4 (grid2.coords t) = false := live2_4 _

/-! ## The body's accesses -/

abbrev r2_0 : Rect S200x10000 := Rect.unit (s := S200x10000) ![0, 0] S200x10000.size inb_S200x10000_S200x10000_0_0
abbrev r2_1 : Rect S10000x256 := Rect.unit (s := S10000x256) ![0, 0] S10000x256.size inb_S10000x256_S10000x256_0_0
abbrev r2_2 : Rect S1x256 := Rect.unit (s := S1x256) ![0, 0] S1x128.size inb_S1x256_S1x128_0_0
abbrev r2_3 : Rect S1x256 := Rect.unit (s := S1x256) ![0, 128] S1x128.size inb_S1x256_S1x128_0_128
abbrev r2_4 : Rect S8x256 := Rect.unit (s := S8x256) ![0, 0] S8x256.size inb_S8x256_S8x256_0_0

/-! ## What the body leaves in the output window's buffer -/

/-- The block's partial column sums, from the input windows' blocks: the skeleton's payload over what the
    body's loads read. -/
def part2f (x0 x1 : Vec F S200x10000 .f32) (x2 : Vec F S10000x256 .f32) (x3 : Vec F S1x256 .f32) : Vec F S8x256 .f32 :=
  k2_pay2 (View.ld x0 r2_0) (View.ld x2 r2_1) (View.ld x1 r2_0) (View.ld x2 r2_1) (View.ld x3 r2_2) (View.ld x3 r2_3)

/-- The output's staging buffer after the body at the FIRST point: its one store, of the partial sums. -/
def out2_4_A (x0 x1 : Vec F S200x10000 .f32) (x2 : Vec F S10000x256 .f32) (x3 : Vec F S1x256 .f32) : Vec F S8x256 .f32 :=
  View.canon [⟨r2_4, part2f x0 x1 x2 x3⟩]

/-- The output's staging buffer after the body at a LATER point, over what the buffer held (`xo`): its one store,
    of the partial sums added to what it loaded. -/
def out2_4_B (x0 x1 : Vec F S200x10000 .f32) (x2 : Vec F S10000x256 .f32) (x3 : Vec F S1x256 .f32) (xo : Vec F S8x256 .f32) : Vec F S8x256 .f32 :=
  View.canon [⟨r2_4, k2_pay1 (part2f x0 x1 x2 x3) (View.ld xo r2_4)⟩]

/-- The one store covers the buffer. -/
theorem cover2_4 (p0 : Vec F S8x256 .f32) (y : S8x256.Idx) :
    ∃ pc ∈ ([⟨r2_4, p0⟩] : List (View.Piece (Elt F) S8x256 .f32)), y ∈ pc.1.set :=
  View.cover_of_tiled [⟨r2_4, p0⟩] S8x256.size (by rfl) y

/-! ## The body's triple, case by case -/

set_option maxHeartbeats 1000000 in
/-- The body at coordinates where the first condition holds and the second does not, on whole staging memrefs, the
    inputs' at contents `xW` and the output's at anything: runs to the continuation holding the inputs' as they were
    and the output's at `out2_4_A` of the inputs'. -/
theorem sound_kernel2_A (c : Dev nD) (E : Set ℕ) (i : grid2.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S1x256 .f32) (harg4 : arg4.IsWhole) (arg5 : Memref sig .tc .vmem S8x256 .f32) (harg5 : arg5.IsWhole)
    (h1 : k2_cond1 i = 1#1) (h2 : ¬k2_cond2 i = 1#1)
    (x0 x1 : Vec F S200x10000 .f32) (x2 : Vec F S10000x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4_A x0 x1 x2 x3)) -∗ K ⟨⟩))
      ⊢ wp frame (wpE (defs₀ (F := F)) Variants.none c none) E (cc2__layer_last_body i arg1 harg1 arg2 harg2 arg3 harg3 arg4 harg4 arg5 harg5) K := by
  simp only [cc2__layer_last_body_eq_skeleton]; unfold cc2__layer_last_body_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

set_option maxHeartbeats 1000000 in
/-- The body at coordinates where the second condition holds and the first does not, the output's memref at
    contents `xo`: runs to the continuation holding the inputs' as they were and the output's at `out2_4_B` of the
    inputs' and `xo`. -/
theorem sound_kernel2_B (c : Dev nD) (E : Set ℕ) (i : grid2.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S1x256 .f32) (harg4 : arg4.IsWhole) (arg5 : Memref sig .tc .vmem S8x256 .f32) (harg5 : arg5.IsWhole)
    (h1 : ¬k2_cond1 i = 1#1) (h2 : k2_cond2 i = 1#1)
    (x0 x1 : Vec F S200x10000 .f32) (x2 : Vec F S10000x256 .f32) (x3 : Vec F S1x256 .f32) (xo : Vec F S8x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4_B x0 x1 x2 x3 xo)) -∗ K ⟨⟩))
      ⊢ wp frame (wpE (defs₀ (F := F)) Variants.none c none) E (cc2__layer_last_body i arg1 harg1 arg2 harg2 arg3 harg3 arg4 harg4 arg5 harg5) K := by
  simp only [cc2__layer_last_body_eq_skeleton]; unfold cc2__layer_last_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The running sum, point by point -/

/-- The partial column sums of the block at point `t`: `part2f` of the input windows' blocks there. -/
def part2 (c : Dev nD) (t : Fin cfg2.N) : Vec F S8x256 .f32 :=
  part2f (iblk2 V c 0 t) (iblk2 V c 1 t) (iblk2 V c 2 t) (iblk2 V c 3 t)

/-- What the output's staging buffer holds after the body at position `n`: at the first point what the first case
    leaves; later what the second case leaves over what the point before left (the buffer is not written back
    between). -/
def acc2n (c : Dev nD) : (n : ℕ) → n < cfg2.N → Vec F S8x256 .f32
  | 0, hn => out2_4_A (iblk2 V c 0 ⟨0, hn⟩) (iblk2 V c 1 ⟨0, hn⟩) (iblk2 V c 2 ⟨0, hn⟩) (iblk2 V c 3 ⟨0, hn⟩)
  | n + 1, hn => out2_4_B (iblk2 V c 0 ⟨n + 1, hn⟩) (iblk2 V c 1 ⟨n + 1, hn⟩) (iblk2 V c 2 ⟨n + 1, hn⟩) (iblk2 V c 3 ⟨n + 1, hn⟩)
      (acc2n c n (Nat.lt_of_succ_lt hn))

/-- The same at a point of the grid. -/
def acc2 (c : Dev nD) (t : Fin cfg2.N) : Vec F S8x256 .f32 := acc2n V c t.val t.isLt

/-- At the first point: the first case's contents. -/
theorem acc2_first (c : Dev nD) (t : Fin cfg2.N) (h0 : t.val = 0) :
    acc2 V c t = out2_4_A (iblk2 V c 0 t) (iblk2 V c 1 t) (iblk2 V c 2 t) (iblk2 V c 3 t) := by
  obtain ⟨n, hn⟩ := t
  cases n with
  | zero => rfl
  | succ n => exact absurd h0 (Nat.succ_ne_zero n)

/-- At a later point: the second case's contents, over what the point before left. -/
theorem acc2_later (c : Dev nD) (t : Fin cfg2.N) (h0 : ¬t.val = 0) :
    acc2 V c t = out2_4_B (iblk2 V c 0 t) (iblk2 V c 1 t) (iblk2 V c 2 t) (iblk2 V c 3 t)
      (acc2 V c ⟨t.val - 1, Nat.lt_of_le_of_lt (Nat.sub_le _ _) t.isLt⟩) := by
  obtain ⟨n, hn⟩ := t
  cases n with
  | zero => exact absurd rfl h0
  | succ n => rfl

/-- The whole-buffer rectangle's offsets are zero. -/
theorem off2_zero : (![0, 0] : Fin S8x256.rank → Nat) = fun _ => 0 := by
  funext a; fin_cases a <;> rfl

/-- The running sum starts at the first block's partial sums, -/
theorem acc2_zero (c : Dev nD) (h : 0 < cfg2.N) : acc2 V c ⟨0, h⟩ = part2 V c ⟨0, h⟩ :=
  View.canon_unit_zero off2_zero _ _

/-- and each later point adds its block's partial sums to it. -/
theorem acc2_succ (c : Dev nD) (n : ℕ) (h : n + 1 < cfg2.N) :
    acc2 V c ⟨n + 1, h⟩ = k2_pay1 (part2 V c ⟨n + 1, h⟩) (acc2 V c ⟨n, Nat.lt_of_succ_lt h⟩) := by
  show out2_4_B _ _ _ _ _ = _
  unfold out2_4_B
  rw [View.canon_unit_zero off2_zero, View.ld_unit_zero off2_zero]
  rfl

/-! ## The pipeline's proof data -/

/-- The proof data of pipeline 2 on core `c`: the arrays as the region finds them (`V`); after the body at point `t`
    each input's buffer at its block and the output's at the running sum `acc2`; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => acc2 V c t
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = acc2 V c t := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- At a later point the output's staging buffer holds what the body left at the point before: the buffer was not
    written back between (only the last point writes back), and the window is live and uncut. -/
theorem before2_4_later (c : Dev nD) (t : Fin cfg2.N) (h0 : ¬t.val = 0) (d) :
    (dat2 V c).before 4 t d = acc2 V c ⟨t.val - 1, Nat.lt_of_le_of_lt (Nat.sub_le _ _) t.isLt⟩ := by
  have hN : t.val < 50 := lt_of_lt_of_eq t.isLt (show cfg2.N = 50 from N_2)
  rw [Dat.before_out_kept _ 4 rfl t h0 (Bool.eq_false_iff.mpr fun h => by have := (flush2_4 _).mp h; dsimp only at this; omega)
    live2_4 (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

/-- No window is idle at any point, so each current buffer is left at the proof data's `after`. -/
theorem leaves2_0 (c : Dev nD) (t : Fin cfg2.N) :
    (dat2 V c).leavesExact 0 t = owns (c : Thread nD τ) (st2_0 t) fullShare ((dat2 V c).after 0 t) := rfl
theorem leaves2_1 (c : Dev nD) (t : Fin cfg2.N) :
    (dat2 V c).leavesExact 1 t = owns (c : Thread nD τ) (st2_1 t) fullShare ((dat2 V c).after 1 t) := rfl
theorem leaves2_2 (c : Dev nD) (t : Fin cfg2.N) :
    (dat2 V c).leavesExact 2 t = owns (c : Thread nD τ) (st2_2 t) fullShare ((dat2 V c).after 2 t) := rfl
theorem leaves2_3 (c : Dev nD) (t : Fin cfg2.N) :
    (dat2 V c).leavesExact 3 t = owns (c : Thread nD τ) (st2_3 t) fullShare ((dat2 V c).after 3 t) := rfl
theorem leaves2_4 (c : Dev nD) (t : Fin cfg2.N) :
    (dat2 V c).leavesExact 4 t = owns (c : Thread nD τ) (st2_4 t) fullShare ((dat2 V c).after 4 t) := by
  unfold Dat.leavesExact; rw [liveAt2_4 t]

set_option maxHeartbeats 1600000 in
/-- The body at any point: the inputs' memrefs hold their blocks; the closed forms of the two conditions say which
    case the point is in; at a later point the output's buffer holds what the point before left; so the case's triple
    applies; the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    leaves2_0, leaves2_1, leaves2_2, leaves2_3, leaves2_4,
    after2_0, after2_1, after2_2, after2_3, after2_4]
  by_cases h0 : t.val = 0
  · rw [acc2_first V c t h0]
    iintro ⟨HΦ, Ho, ⟨%d0, H0⟩, ⟨%d1, H1⟩, ⟨%d2, H2⟩, ⟨%d3, H3⟩, ⟨%d4, H4⟩⟩
    iapply (sound_kernel2_A c Set.univ (grid2.coords t) _ _ _ _ _ _ _ _ _ _ ((hcond2_1 t).mpr h0) (fun h => (hcond2_2 t).mp h h0)
      (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc2_later V c t h0]
    simp only [before2_4_later V c t h0]
    iintro ⟨HΦ, Ho, ⟨%d0, H0⟩, ⟨%d1, H1⟩, ⟨%d2, H2⟩, ⟨%d3, H3⟩, ⟨%d4, H4⟩⟩
    iapply (sound_kernel2_B c Set.univ (grid2.coords t) _ _ _ _ _ _ _ _ _ _ (fun h => h0 ((hcond2_1 t).mp h)) ((hcond2_2 t).mpr h0)
      (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.Region3.lean ====
/- Region 3 of @main (the gridless call of `cc3__head_body`): the region's half of the frame, at any float
   instance and at a parameter `V`, the TensorCore's buffer contents when the region is entered. Each window's
   block is its whole array; the body reads the five inputs once each, reads the output buffer's old contents
   without using them, and stores ONE value over the whole output buffer: the head (column mean, the two dense
   layers, the softmax) of the inputs. -/
import proofs.«163911_g13984413516055_cont_sun_m_56_12_alg».proof.Proof.Gen.KernelIdeal.Launch
import proofs.«163911_g13984413516055_cont_sun_m_56_12_alg».proof.Proof.Gen.KernelIdeal.Skeleton
import proofs.«163911_g13984413516055_cont_sun_m_56_12_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole of its buffer -/

abbrev r3_0 : Rect S8x256 := Rect.unit (s := S8x256) ![0, 0] S8x256.size inb_S8x256_S8x256_0_0
abbrev r3_1 : Rect S256x128 := Rect.unit (s := S256x128) ![0, 0] S256x128.size inb_S256x128_S256x128_0_0
abbrev r3_2 : Rect S1x128 := Rect.unit (s := S1x128) ![0, 0] S1x128.size inb_S1x128_S1x128_0_0
abbrev r3_3 : Rect S128x10 := Rect.unit (s := S128x10) ![0, 0] S128x10.size inb_S128x10_S128x10_0_0
abbrev r3_4 : Rect S1x10 := Rect.unit (s := S1x10) ![0, 0] S1x10.size inb_S1x10_S1x10_0_0
abbrev r3_5 : Rect S1x10 := Rect.unit (s := S1x10) ![0, 0] S1x10.size inb_S1x10_S1x10_0_0

/-! ## What the body leaves in the output window's buffer -/

/-- Window 5's staging buffer after the body, from the input windows' blocks: its one store as a piece (the payload
    is the skeleton's: the whole head). -/
def out3_5 (x0 : Vec F S8x256 .f32) (x1 : Vec F S256x128 .f32) (x2 : Vec F S1x128 .f32) (x3 : Vec F S128x10 .f32) (x4 : Vec F S1x10 .f32) : Vec F S1x10 .f32 :=
  View.canon [⟨r3_5, k3_pay1 (View.ld x0 r3_0) (View.ld x1 r3_1) (View.ld x2 r3_2) (View.ld x3 r3_3) (View.ld x4 r3_4)⟩]

/-- The one store is of the whole buffer, so it covers it. -/
theorem cover3_5 (p0 : Vec F S1x10 .f32) (y : S1x10.Idx) :
    ∃ pc ∈ ([⟨r3_5, p0⟩] : List (View.Piece (Elt F) S1x10 .f32)), y ∈ pc.1.set :=
  ⟨⟨r3_5, p0⟩, List.mem_singleton_self _, View.mem_set_unit_zero (by funext a; fin_cases a <;> rfl) inb_S1x10_S1x10_0_0 y⟩

/-! ## The body's triple -/

set_option maxHeartbeats 1000000 in
/-- The kernel body on whole staging memrefs, the inputs' at read contents `xW` and the output's at anything, runs to
    the continuation holding the inputs' as they were and the output's at `out3_5` of the inputs'. -/
theorem sound_kernel3 (c : Dev nD) (E : Set ℕ)
    (arg0 : Memref sig .tc .vmem S8x256 .f32) (harg0 : arg0.IsWhole)
    (arg1 : Memref sig .tc .vmem S256x128 .f32) (harg1 : arg1.IsWhole)
    (arg2 : Memref sig .tc .vmem S1x128 .f32) (harg2 : arg2.IsWhole)
    (arg3 : Memref sig .tc .vmem S128x10 .f32) (harg3 : arg3.IsWhole)
    (arg4 : Memref sig .tc .vmem S1x10 .f32) (harg4 : arg4.IsWhole)
    (arg5 : Memref sig .tc .vmem S1x10 .f32) (harg5 : arg5.IsWhole)
    (x0 : Vec F S8x256 .f32) (x1 : Vec F S256x128 .f32) (x2 : Vec F S1x128 .f32) (x3 : Vec F S128x10 .f32) (x4 : Vec F S1x10 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out3_5 x0 x1 x2 x3 x4)) -∗ K ⟨⟩))
      ⊢ wp frame (wpE (defs₀ (F := F)) Variants.none c none) E (cc3__head_body arg0 harg0 arg1 harg1 arg2 harg2 arg3 harg3 arg4 harg4 arg5 harg5) K := by
  simp only [cc3__head_body_eq_skeleton]; unfold cc3__head_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body each
    input's buffer at its block and the output's at `out3_5` of the input blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Run.lean ====
/- The run of the whole program: @main as its six items in order — region 0, the host operations that double the
   two layer biases, regions 1 and 2, the host operations that lay the head's biases out as rows, region 3 —, each
   region entered from the buffer contents the item before it left. The contents between items are a fold from the
   launch memory: a host stretch applies its operations; a region replaces its output array by what its pipeline's
   write-backs leave and keeps everything else. The run ends with every unscoped buffer at the fold's last
   contents, from which one reads both that every argument array is as launched and what the result buffer holds.
   Generic in the float instance. -/
import proofs.«163911_g13984413516055_cont_sun_m_56_12_alg».proof.Proof.Gen.KernelIdeal.Launch
import proofs.«163911_g13984413516055_cont_sun_m_56_12_alg».proof.Proof.Gen.KernelIdeal.Skeleton
import proofs.«163911_g13984413516055_cont_sun_m_56_12_alg».proof.Proof.Gen.KernelIdeal.Points
import proofs.«163911_g13984413516055_cont_sun_m_56_12_alg».proof.Proof.Gen.KernelIdeal.Regions
import proofs.«163911_g13984413516055_cont_sun_m_56_12_alg».proof.Proof.Region0
import proofs.«163911_g13984413516055_cont_sun_m_56_12_alg».proof.Proof.Region1
import proofs.«163911_g13984413516055_cont_sun_m_56_12_alg».proof.Proof.Region2
import proofs.«163911_g13984413516055_cont_sun_m_56_12_alg».proof.Proof.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents between the items of @main: a fold from the launch memory -/

/-- Core `c`'s buffers at launch (region 0 is entered from them). -/
abbrev Wh0 : Dev nD → Valuation τ sig (Elt F) := fun c b => (s₀ m ρ).mem ((c : Dev nD), b)
abbrev Vh0 : (c : Dev nD) → (b : Ref sig .tc) → Buf (Elt F) ((c : Thread nD τ).loc b) := fun c b => Wh0 m ρ c b

/-- After region 0: its arrays at what the pipeline's write-backs leave, every other buffer as before. -/
def Wh1 (c : Dev nD) : Valuation τ sig (Elt F) :=
  Pipeline.withArrays spec0 c (Wh0 m ρ c) fun w => (dat0 (Vh0 m ρ) c).arrAt w cfg0.N
theorem Wh1_arr (c : Dev nD) (w : Fin cfg0.W) :
    Wh1 m ρ c (Proc.devRef .tc (Pipeline.arrRef spec0 w)) = (dat0 (Vh0 m ρ) c).arrAt w cfg0.N := by
  unfold Wh1; exact Pipeline.withArrays_arr spec0 launch0.win.arr_inj c _ _ w
theorem Wh1_of_ne (c : Dev nD) (b : Ref sig .tc) (hb : ∀ w, Pipeline.arrRef spec0 w ≠ b) :
    Wh1 m ρ c (Proc.devRef .tc b) = Wh0 m ρ c (Proc.devRef .tc b) := by
  unfold Wh1; exact Pipeline.withArrays_of_ne spec0 c _ _ b hb
abbrev Vh1 : (c : Dev nD) → (b : Ref sig .tc) → Buf (Elt F) ((c : Thread nD τ).loc b) := fun c b => Wh1 m ρ c b
theorem hF0 (c : Dev nD) (w : Fin cfg0.W) : (dat0 (Vh0 m ρ) c).arrAt w cfg0.N = Vh1 m ρ c (Pipeline.arrRef spec0 w) :=
  (Wh1_arr m ρ c w).symm
theorem hrest0 (c : Dev nD) : ∀ b, b ∉ Finset.univ.image (Pipeline.arrRef spec0) → Vh1 m ρ c b = Vh0 m ρ c b :=
  fun b hb => Wh1_of_ne m ρ c b fun w e => hb (Finset.mem_image.mpr ⟨w, Finset.mem_univ _, e⟩)

/-- After the host operations between regions 0 and 1 (the two doubled biases as rows). -/
abbrev Wh2 : Dev nD → Valuation τ sig (Elt F) := fun c => StableHlo.after hostOps1 (Wh1 m ρ c)
abbrev Vh2 : (c : Dev nD) → (b : Ref sig .tc) → Buf (Elt F) ((c : Thread nD τ).loc b) := fun c b => Wh2 m ρ c b

/-- After region 1: its arrays at what the pipeline's write-backs leave, every other buffer as before. -/
def Wh3 (c : Dev nD) : Valuation τ sig (Elt F) :=
  Pipeline.withArrays spec1 c (Wh2 m ρ c) fun w => (dat1 (Vh2 m ρ) c).arrAt w cfg1.N
theorem Wh3_arr (c : Dev nD) (w : Fin cfg1.W) :
    Wh3 m ρ c (Proc.devRef .tc (Pipeline.arrRef spec1 w)) = (dat1 (Vh2 m ρ) c).arrAt w cfg1.N := by
  unfold Wh3; exact Pipeline.withArrays_arr spec1 launch1.win.arr_inj c _ _ w
theorem Wh3_of_ne (c : Dev nD) (b : Ref sig .tc) (hb : ∀ w, Pipeline.arrRef spec1 w ≠ b) :
    Wh3 m ρ c (Proc.devRef .tc b) = Wh2 m ρ c (Proc.devRef .tc b) := by
  unfold Wh3; exact Pipeline.withArrays_of_ne spec1 c _ _ b hb
abbrev Vh3 : (c : Dev nD) → (b : Ref sig .tc) → Buf (Elt F) ((c : Thread nD τ).loc b) := fun c b => Wh3 m ρ c b
theorem hF1 (c : Dev nD) (w : Fin cfg1.W) : (dat1 (Vh2 m ρ) c).arrAt w cfg1.N = Vh3 m ρ c (Pipeline.arrRef spec1 w) :=
  (Wh3_arr m ρ c w).symm
theorem hrest1 (c : Dev nD) : ∀ b, b ∉ Finset.univ.image (Pipeline.arrRef spec1) → Vh3 m ρ c b = Vh2 m ρ c b :=
  fun b hb => Wh3_of_ne m ρ c b fun w e => hb (Finset.mem_image.mpr ⟨w, Finset.mem_univ _, e⟩)

/-- After region 2: its arrays at what the pipeline's write-backs leave, every other buffer as before. -/
def Wh4 (c : Dev nD) : Valuation τ sig (Elt F) :=
  Pipeline.withArrays spec2 c (Wh3 m ρ c) fun w => (dat2 (Vh3 m ρ) c).arrAt w cfg2.N
theorem Wh4_arr (c : Dev nD) (w : Fin cfg2.W) :
    Wh4 m ρ c (Proc.devRef .tc (Pipeline.arrRef spec2 w)) = (dat2 (Vh3 m ρ) c).arrAt w cfg2.N := by
  unfold Wh4; exact Pipeline.withArrays_arr spec2 launch2.win.arr_inj c _ _ w
theorem Wh4_of_ne (c : Dev nD) (b : Ref sig .tc) (hb : ∀ w, Pipeline.arrRef spec2 w ≠ b) :
    Wh4 m ρ c (Proc.devRef .tc b) = Wh3 m ρ c (Proc.devRef .tc b) := by
  unfold Wh4; exact Pipeline.withArrays_of_ne spec2 c _ _ b hb
abbrev Vh4 : (c : Dev nD) → (b : Ref sig .tc) → Buf (Elt F) ((c : Thread nD τ).loc b) := fun c b => Wh4 m ρ c b
theorem hF2 (c : Dev nD) (w : Fin cfg2.W) : (dat2 (Vh3 m ρ) c).arrAt w cfg2.N = Vh4 m ρ c (Pipeline.arrRef spec2 w) :=
  (Wh4_arr m ρ c w).symm
theorem hrest2 (c : Dev nD) : ∀ b, b ∉ Finset.univ.image (Pipeline.arrRef spec2) → Vh4 m ρ c b = Vh3 m ρ c b :=
  fun b hb => Wh4_of_ne m ρ c b fun w e => hb (Finset.mem_image.mpr ⟨w, Finset.mem_univ _, e⟩)

/-- After the host operations between regions 2 and 3 (the head's two biases as rows). -/
abbrev Wh5 : Dev nD → Valuation τ sig (Elt F) := fun c => StableHlo.after hostOps3 (Wh4 m ρ c)
abbrev Vh5 : (c : Dev nD) → (b : Ref sig .tc) → Buf (Elt F) ((c : Thread nD τ).loc b) := fun c b => Wh5 m ρ c b

/-- After region 3: its arrays at what the pipeline's write-backs leave, every other buffer as before. -/
def Wh6 (c : Dev nD) : Valuation τ sig (Elt F) :=
  Pipeline.withArrays spec3 c (Wh5 m ρ c) fun w => (dat3 (Vh5 m ρ) c).arrAt w cfg3.N
theorem Wh6_arr (c : Dev nD) (w : Fin cfg3.W) :
    Wh6 m ρ c (Proc.devRef .tc (Pipeline.arrRef spec3 w)) = (dat3 (Vh5 m ρ) c).arrAt w cfg3.N := by
  unfold Wh6; exact Pipeline.withArrays_arr spec3 launch3.win.arr_inj c _ _ w
theorem Wh6_of_ne (c : Dev nD) (b : Ref sig .tc) (hb : ∀ w, Pipeline.arrRef spec3 w ≠ b) :
    Wh6 m ρ c (Proc.devRef .tc b) = Wh5 m ρ c (Proc.devRef .tc b) := by
  unfold Wh6; exact Pipeline.withArrays_of_ne spec3 c _ _ b hb
abbrev Vh6 : (c : Dev nD) → (b : Ref sig .tc) → Buf (Elt F) ((c : Thread nD τ).loc b) := fun c b => Wh6 m ρ c b
theorem hF3 (c : Dev nD) (w : Fin cfg3.W) : (dat3 (Vh5 m ρ) c).arrAt w cfg3.N = Vh6 m ρ c (Pipeline.arrRef spec3 w) :=
  (Wh6_arr m ρ c w).symm
theorem hrest3 (c : Dev nD) : ∀ b, b ∉ Finset.univ.image (Pipeline.arrRef spec3) → Vh6 m ρ c b = Vh5 m ρ c b :=
  fun b hb => Wh6_of_ne m ρ c b fun w e => hb (Finset.mem_image.mpr ⟨w, Finset.mem_univ _, e⟩)

/-! ## The proof data family and the thread state -/

abbrev hadm : (p : Fin 4) → (pcfgs (F := F) p).Adm := fun p => (cfgs p).toPCfg_adm
/-- Every pipeline's proof data, each at its region's entry contents. -/
def hpdats : (p : Fin 4) → (c : Dev nD) → Dat τ (Elt F) Unit ℕ (UR sig nD τ) ℕ (Pipeline.pin (pcfgs (F := F)) hadm p) c
  | ⟨0, _⟩ => fun c => dat0 (Vh0 m ρ) c
  | ⟨1, _⟩ => fun c => dat1 (Vh2 m ρ) c
  | ⟨2, _⟩ => fun c => dat2 (Vh3 m ρ) c
  | ⟨3, _⟩ => fun c => dat3 (Vh5 m ρ) c
abbrev h𝒱 : Variants := Variants.none
abbrev hL : GSem nD τ sig → Finset Unit := fun _ => ∅
abbrev hlv : GSem nD τ sig → Unit → ℕ := fun _ _ => 0
/-- What rides beside the buffers through every item: the generator register at some state, nothing owed. -/
abbrev hR (c : Dev nD) : sProp 𝕄 := iprop((∃ r, prngReg c r) ∗ ∃ W, owes (c : Thread nD τ) (0 : CellTallies nD τ sig Unit) W)
abbrev hhseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ h𝒱 hL hlv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W hR
theorem hmem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev hTn (c : Dev nD) : sProp 𝕄 := iprop(StableHlo.held (c : Thread nD τ) (Pipeline.ucRefs τ sig) (Wh6 m ρ c) ∗ ∃ r, prngReg c r)

/-! ## The regions as segments -/

set_option backward.isDefEq.respectTransparency.types false in
/-- Region 0 as a segment of @main over the thread state: entered with every unscoped buffer at the contents
    before it, left with them at the contents after it; its arrays are split out of the unscoped buffers at entry
    and put back, at what the write-backs leave, at exit; the generator register goes into the region's invariant
    and comes back; nothing is owed and the kernel has no semaphore of its own. -/
def hreg0 : Pipeline.RegionSeg (pcfgs (F := F)) hadm (hpdats m ρ) () defs₀ h𝒱 hL hlv 0 where
  win := launch0.win.to₀
  block_pos := launch0.block_pos
  stage_whole := launch0.stage_whole
  K := PEmpty
  osem k := k.elim
  ho := Pipeline.OwnSemFacts.none _
  hbody c := (body_obligation0 (Vh0 m ρ) c).loose
  hwaits := Pipeline.hwaits_of_owed_zero _ _ _ _ hL hlv 0 fun _ _ => rfl
  pre c := iprop(StableHlo.held (c : Thread nD τ) (Pipeline.ucRefs τ sig) (Wh0 m ρ c) ∗ hR c)
  post c := iprop(StableHlo.held (c : Thread nD τ) (Pipeline.ucRefs τ sig) (Wh1 m ρ c) ∗ hR c)
  X c := iprop(∃ r, prngReg c r)
  Y c := iprop(∃ r, prngReg c r)
  Z c := Pipeline.unscopedRest (Ix := Unit) (Name := ℕ) (U := UR sig nD τ) (Lvl := ℕ) spec0 c (Vh0 m ρ c)
  hentry c := by
    rw [Pipeline.ownSems0_none]
    have hsplit := Pipeline.arrays_of_unscopedBufs (p := 0) (pcfgs (F := F)) hadm (hpdats m ρ) launch0.win launch0.arr_whole c
      ((hpdats m ρ 0 c).share_full fun _ => rfl) (Vh0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (hpdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (hpdats m ρ) ((hpdats m ρ 0 c).share_full fun _ => rfl)
      (Vh0 m ρ c) (Vh1 m ρ c) ((hpdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main over the thread state: entered with every unscoped buffer at the contents
    before it, left with them at the contents after it; its arrays are split out of the unscoped buffers at entry
    and put back, at what the write-backs leave, at exit; the generator register goes into the region's invariant
    and comes back; nothing is owed and the kernel has no semaphore of its own. -/
def hreg1 : Pipeline.RegionSeg (pcfgs (F := F)) hadm (hpdats m ρ) () defs₀ h𝒱 hL hlv 1 where
  win := launch1.win.to₀
  block_pos := launch1.block_pos
  stage_whole := launch1.stage_whole
  K := PEmpty
  osem k := k.elim
  ho := Pipeline.OwnSemFacts.none _
  hbody c := (body_obligation1 (Vh2 m ρ) c).loose
  hwaits := Pipeline.hwaits_of_owed_zero _ _ _ _ hL hlv 1 fun _ _ => rfl
  pre c := iprop(StableHlo.held (c : Thread nD τ) (Pipeline.ucRefs τ sig) (Wh2 m ρ c) ∗ hR c)
  post c := iprop(StableHlo.held (c : Thread nD τ) (Pipeline.ucRefs τ sig) (Wh3 m ρ c) ∗ hR c)
  X c := iprop(∃ r, prngReg c r)
  Y c := iprop(∃ r, prngReg c r)
  Z c := Pipeline.unscopedRest (Ix := Unit) (Name := ℕ) (U := UR sig nD τ) (Lvl := ℕ) spec1 c (Vh2 m ρ c)
  hentry c := by
    rw [Pipeline.ownSems0_none]
    have hsplit := Pipeline.arrays_of_unscopedBufs (p := 1) (pcfgs (F := F)) hadm (hpdats m ρ) launch1.win launch1.arr_whole c
      ((hpdats m ρ 1 c).share_full fun _ => rfl) (Vh2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (hpdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (hpdats m ρ) ((hpdats m ρ 1 c).share_full fun _ => rfl)
      (Vh2 m ρ c) (Vh3 m ρ c) ((hpdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of @main over the thread state: entered with every unscoped buffer at the contents
    before it, left with them at the contents after it; its arrays are split out of the unscoped buffers at entry
    and put back, at what the write-backs leave, at exit; the generator register goes into the region's invariant
    and comes back; nothing is owed and the kernel has no semaphore of its own. -/
def hreg2 : Pipeline.RegionSeg (pcfgs (F := F)) hadm (hpdats m ρ) () defs₀ h𝒱 hL hlv 2 where
  win := launch2.win.to₀
  block_pos := launch2.block_pos
  stage_whole := launch2.stage_whole
  K := PEmpty
  osem k := k.elim
  ho := Pipeline.OwnSemFacts.none _
  hbody c := (body_obligation2 (Vh3 m ρ) c).loose
  hwaits := Pipeline.hwaits_of_owed_zero _ _ _ _ hL hlv 2 fun _ _ => rfl
  pre c := iprop(StableHlo.held (c : Thread nD τ) (Pipeline.ucRefs τ sig) (Wh3 m ρ c) ∗ hR c)
  post c := iprop(StableHlo.held (c : Thread nD τ) (Pipeline.ucRefs τ sig) (Wh4 m ρ c) ∗ hR c)
  X c := iprop(∃ r, prngReg c r)
  Y c := iprop(∃ r, prngReg c r)
  Z c := Pipeline.unscopedRest (Ix := Unit) (Name := ℕ) (U := UR sig nD τ) (Lvl := ℕ) spec2 c (Vh3 m ρ c)
  hentry c := by
    rw [Pipeline.ownSems0_none]
    have hsplit := Pipeline.arrays_of_unscopedBufs (p := 2) (pcfgs (F := F)) hadm (hpdats m ρ) launch2.win launch2.arr_whole c
      ((hpdats m ρ 2 c).share_full fun _ => rfl) (Vh3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (hpdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (hpdats m ρ) ((hpdats m ρ 2 c).share_full fun _ => rfl)
      (Vh3 m ρ c) (Vh4 m ρ c) ((hpdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment of @main over the thread state: entered with every unscoped buffer at the contents
    before it, left with them at the contents after it; its arrays are split out of the unscoped buffers at entry
    and put back, at what the write-backs leave, at exit; the generator register goes into the region's invariant
    and comes back; nothing is owed and the kernel has no semaphore of its own. -/
def hreg3 : Pipeline.RegionSeg (pcfgs (F := F)) hadm (hpdats m ρ) () defs₀ h𝒱 hL hlv 3 where
  win := launch3.win.to₀
  block_pos := launch3.block_pos
  stage_whole := launch3.stage_whole
  K := PEmpty
  osem k := k.elim
  ho := Pipeline.OwnSemFacts.none _
  hbody c := (body_obligation3 (Vh5 m ρ) c).loose
  hwaits := Pipeline.hwaits_of_owed_zero _ _ _ _ hL hlv 3 fun _ _ => rfl
  pre c := iprop(StableHlo.held (c : Thread nD τ) (Pipeline.ucRefs τ sig) (Wh5 m ρ c) ∗ hR c)
  post c := iprop(hTn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (Vh5 m ρ c)
  hentry c := by
    rw [Pipeline.ownSems0_none]
    have hsplit := Pipeline.arrays_of_unscopedBufs (p := 3) (pcfgs (F := F)) hadm (hpdats m ρ) launch3.win launch3.arr_whole c
      ((hpdats m ρ 3 c).share_full fun _ => rfl) (Vh5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (hpdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) hadm (Ix := Unit) (Name := ℕ) (U := UR sig nD τ) (Lvl := ℕ)
      launch3.win launch3.arr_whole c (hpdats m ρ) ((hpdats m ρ 3 c).share_full fun _ => rfl)
      (Vh5 m ρ c) (Vh6 m ρ c) ((hpdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev hsegs : List (Pipeline.Seg (pcfgs (F := F)) hadm (hpdats m ρ) () defs₀ h𝒱 hL hlv) :=
  [ .region (hreg0 m ρ),
    .host (hhseg hostOps1 hostOps1_sub hostOps1_fresh (Wh1 m ρ)),
    .region (hreg1 m ρ),
    .region (hreg2 m ρ),
    .host (hhseg hostOps3 hostOps3_sub hostOps3_fresh (Wh4 m ρ)),
    .region (hreg3 m ρ) ]
theorem hmain_run (c : Dev nD) : main (F := F) c = Pipeline.Seg.run (hsegs m ρ) := (main_chain c).trans (by chain_rfl)

set_option backward.isDefEq.respectTransparency.types false in
/-- THE RUN: from any memory with zero counters every weakly fair execution of @main terminates, nothing faulting,
    and in every final state each unscoped buffer of every core holds the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wh6 m ρ c b) :=
  Pipeline.θ_run_regions_kit (pcfgs (F := F)) hadm (hpdats m ρ) () cellOf_inj emb₁ defs₀ h𝒱 hL hlv m ρ main (hsegs m ρ)
    (fun c Q => by rw [hmain_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wh0 m ρ c) ∗ hR c)) (Tₙ := hTn m ρ)
    (hch := ⟨fun _ => .rfl, fun _ => .rfl, fun _ => .rfl, fun _ => .rfl, fun _ => .rfl, fun _ => .rfl, fun _ => .rfl⟩)
    (hinit := by
      refine Pipeline.initEach hL hlv fun c => ?_
      rw [show unscopedBufs c (fun b => m ((c : Thread nD τ).loc b)) = StableHlo.held (c : Thread nD τ) (Pipeline.ucRefs τ sig) (Wh0 m ρ c)
        from Pipeline.unscopedBufs_held c (Wh0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wh6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wh6 m ρ c) s')
      isplitl [Hh] <;> iassumption)
    (hQ := fun s h c => h c)

/-! ## What the fold leaves alone -/

/-- Region 0 leaves every buffer but its output array `main_v0` as it found it: an input window's array is
    never written, and a buffer no window stages is not the region's to touch. -/
theorem Wh1_keep (c : Dev nD) (b : Ref sig .tc) (hb : b ≠ main_v0) :
    Wh1 m ρ c (Proc.devRef .tc b) = Wh0 m ρ c (Proc.devRef .tc b) := by
  by_cases h : ∃ w, Pipeline.arrRef spec0 w = b
  · obtain ⟨w, rfl⟩ := h
    have hin : (cfg0.win w).isOut = false := by
      match w, hb with
      | ⟨0, _⟩, _ => rfl
      | ⟨1, _⟩, _ => rfl
      | ⟨2, _⟩, _ => rfl
      | ⟨3, _⟩, hb => exact absurd rfl hb
    rw [Wh1_arr]
    exact ((dat0 (Vh0 m ρ) c).arrAt_in w hin _).trans (A_eq0 (Vh0 m ρ) c w)
  · exact Wh1_of_ne m ρ c b fun w e => h ⟨w, e⟩

theorem Wh2_keep (c : Dev nD) (b : Ref sig .tc) (hb : b ∉ hostOps1_W) :
    Wh2 m ρ c (Proc.devRef .tc b) = Wh1 m ρ c (Proc.devRef .tc b) :=
  StableHlo.after_of_writes_sub hostOps1 _ hostOps1_writes hb

/-- Region 1 leaves every buffer but its output array `main_v5` as it found it: an input window's array is
    never written, and a buffer no window stages is not the region's to touch. -/
theorem Wh3_keep (c : Dev nD) (b : Ref sig .tc) (hb : b ≠ main_v5) :
    Wh3 m ρ c (Proc.devRef .tc b) = Wh2 m ρ c (Proc.devRef .tc b) := by
  by_cases h : ∃ w, Pipeline.arrRef spec1 w = b
  · obtain ⟨w, rfl⟩ := h
    have hin : (cfg1.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, hb => exact absurd rfl hb
    rw [Wh3_arr]
    exact ((dat1 (Vh2 m ρ) c).arrAt_in w hin _).trans (A_eq1 (Vh2 m ρ) c w)
  · exact Wh3_of_ne m ρ c b fun w e => h ⟨w, e⟩

/-- Region 2 leaves every buffer but its output array `main_v6` as it found it: an input window's array is
    never written, and a buffer no window stages is not the region's to touch. -/
theorem Wh4_keep (c : Dev nD) (b : Ref sig .tc) (hb : b ≠ main_v6) :
    Wh4 m ρ c (Proc.devRef .tc b) = Wh3 m ρ c (Proc.devRef .tc b) := by
  by_cases h : ∃ w, Pipeline.arrRef spec2 w = b
  · obtain ⟨w, rfl⟩ := h
    have hin : (cfg2.win w).isOut = false := by
      match w, hb with
      | ⟨0, _⟩, _ => rfl
      | ⟨1, _⟩, _ => rfl
      | ⟨2, _⟩, _ => rfl
      | ⟨3, _⟩, _ => rfl
      | ⟨4, _⟩, hb => exact absurd rfl hb
    rw [Wh4_arr]
    exact ((dat2 (Vh3 m ρ) c).arrAt_in w hin _).trans (A_eq2 (Vh3 m ρ) c w)
  · exact Wh4_of_ne m ρ c b fun w e => h ⟨w, e⟩

theorem Wh5_keep (c : Dev nD) (b : Ref sig .tc) (hb : b ∉ hostOps3_W) :
    Wh5 m ρ c (Proc.devRef .tc b) = Wh4 m ρ c (Proc.devRef .tc b) :=
  StableHlo.after_of_writes_sub hostOps3 _ hostOps3_writes hb

/-- Region 3 leaves every buffer but its output array `main_v9` as it found it: an input window's array is
    never written, and a buffer no window stages is not the region's to touch. -/
theorem Wh6_keep (c : Dev nD) (b : Ref sig .tc) (hb : b ≠ main_v9) :
    Wh6 m ρ c (Proc.devRef .tc b) = Wh5 m ρ c (Proc.devRef .tc b) := by
  by_cases h : ∃ w, Pipeline.arrRef spec3 w = b
  · obtain ⟨w, rfl⟩ := h
    have hin : (cfg3.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, hb => exact absurd rfl hb
    rw [Wh6_arr]
    exact ((dat3 (Vh5 m ρ) c).arrAt_in w hin _).trans (A_eq3 (Vh5 m ρ) c w)
  · exact Wh6_of_ne m ρ c b fun w e => h ⟨w, e⟩

/-- A buffer that no host operation writes and no region puts out ends as launched: every argument array is one. -/
theorem Wh6_launch (c : Dev nD) (b : Ref sig .tc)
    (hb : b ∉ ([main_v0, main_v1, main_v2, main_v3, main_v4, main_v5, main_v6, main_v7, main_v8, main_v9] : List (Ref sig .tc))) :
    Wh6 m ρ c (Proc.devRef .tc b) = m ((c : Thread nD τ).loc b) := by
  simp only [List.mem_cons, List.not_mem_nil, or_false, not_or] at hb
  obtain ⟨h0, h1, h2, h3, h4, h5, h6, h7, h8, h9⟩ := hb
  calc Wh6 m ρ c (Proc.devRef .tc b)
    _ = Wh5 m ρ c (Proc.devRef .tc b) := Wh6_keep m ρ c b h9
    _ = Wh4 m ρ c (Proc.devRef .tc b) := Wh5_keep m ρ c b (by simp only [hostOps3_W, List.mem_cons, List.not_mem_nil, or_false, not_or]; exact ⟨h7, h8⟩)
    _ = Wh3 m ρ c (Proc.devRef .tc b) := Wh4_keep m ρ c b h6
    _ = Wh2 m ρ c (Proc.devRef .tc b) := Wh3_keep m ρ c b h5
    _ = Wh1 m ρ c (Proc.devRef .tc b) := Wh2_keep m ρ c b (by simp only [hostOps1_W, List.mem_cons, List.not_mem_nil, or_false, not_or]; exact ⟨h1, h2, h3, h4⟩)
    _ = Wh0 m ρ c (Proc.devRef .tc b) := Wh1_keep m ρ c b h0
    _ = m ((c : Thread nD τ).loc b) := rfl

/-- The result buffer ends at what region 3's write-back leaves in its output array. -/
theorem Wh6_result (c : Dev nD) : Wh6 m ρ c (Proc.devRef .tc main_v9) = (dat3 (Vh5 m ρ) c).arrAt 5 cfg3.N :=
  Wh6_arr m ρ c 5

end Cert.KernelIdeal.Hand

end
-- ==== Proof.Word.Region0.lean ====
/- Region 0 of @main (the gridless call of `cc0__pre_body`): the region's half of the frame, at any float
   instance and at a parameter `V`, the TensorCore's buffer contents when the region is entered. Each window's
   block is its whole array; the body reads the three inputs (the weight twice), reads the output buffer's old
   contents without using them, and stores ONE value over the whole output buffer: the two products side by side. -/
import proofs.«163911_g13984413516055_cont_sun_m_56_12_alg».proof.Proof.Gen.Kernel.Launch
import proofs.«163911_g13984413516055_cont_sun_m_56_12_alg».proof.Proof.Gen.Kernel.Skeleton
import proofs.«163911_g13984413516055_cont_sun_m_56_12_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_x : Rect S10000x128 := Rect.unit (s := S10000x128) ![0, 0] S10000x128.size inb_S10000x128_S10000x128_0_0
abbrev r0_w : Rect S128x128 := Rect.unit (s := S128x128) ![0, 0] S128x128.size inb_S128x128_S128x128_0_0
abbrev r0_o : Rect S10000x256 := Rect.unit (s := S10000x256) ![0, 0] S10000x256.size inb_S10000x256_S10000x256_0_0

/-! ## What the body leaves in the output window's buffer -/

/-- Window 3's staging buffer after the body, from the input windows' blocks: its one store as a piece (the payload
    is the skeleton's: the real-part product and the imaginary-part product, side by side). -/
def out0_3 (x0 : Vec F S10000x128 .f32) (x1 : Vec F S10000x128 .f32) (x2 : Vec F S128x128 .f32) : Vec F S10000x256 .f32 :=
  View.canon [⟨r0_o, k0_pay1 (View.ld x0 r0_x) (View.ld x2 r0_w) (View.ld x1 r0_x) (View.ld x2 r0_w)⟩]

/-- The one store is of the whole buffer, so it covers it. -/
theorem cover0_3 (p0 : Vec F S10000x256 .f32) (y : S10000x256.Idx) :
    ∃ pc ∈ ([⟨r0_o, p0⟩] : List (View.Piece (Elt F) S10000x256 .f32)), y ∈ pc.1.set :=
  ⟨⟨r0_o, p0⟩, List.mem_singleton_self _, View.mem_set_unit_zero (by funext a; fin_cases a <;> rfl) inb_S10000x256_S10000x256_0_0 y⟩

/-! ## The body's triple -/

set_option maxHeartbeats 1000000 in
/-- The kernel body on whole staging memrefs, the inputs' at read contents `xW` and the output's at anything, runs to
    the continuation holding the inputs' as they were and the output's at `out0_3` of the inputs'. -/
theorem sound_kernel0 (c : Dev nD) (E : Set ℕ) (arg0 : Memref sig .tc .vmem S10000x128 .f32) (harg0 : arg0.IsWhole)
    (arg1 : Memref sig .tc .vmem S10000x128 .f32) (harg1 : arg1.IsWhole)
    (arg2 : Memref sig .tc .vmem S128x128 .f32) (harg2 : arg2.IsWhole)
    (arg3 : Memref sig .tc .vmem S10000x256 .f32) (harg3 : arg3.IsWhole)
    (x0 : Vec F S10000x128 .f32) (x1 : Vec F S10000x128 .f32) (x2 : Vec F S128x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__pre_body arg0 harg0 arg1 harg1 arg2 harg2 arg3 harg3) K := by
  simp only [cc0__pre_body_eq_skeleton]; unfold cc0__pre_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body each
    input's buffer at its block and the output's at `out0_3` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Word.Region1.lean ====
/- Region 1 of @main (the middle layer of the graph convolution, pipeline 1, a grid of 50 row blocks), at the
   contents `V` the TensorCore's buffers hold when the region is entered: each window's block at a point, what the
   body leaves in the output window's staging buffer as a pure function of the input blocks, the body's triple, the
   pipeline's proof data and its body obligation at every point. Generic in the float instance. -/
import proofs.«163911_g13984413516055_cont_sun_m_56_12_alg».proof.Proof.Gen.Kernel.Launch
import proofs.«163911_g13984413516055_cont_sun_m_56_12_alg».proof.Proof.Gen.Kernel.Skeleton
import proofs.«163911_g13984413516055_cont_sun_m_56_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axes' extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the pipeline fetched
    it there, for any proof data whose array is `V`'s (`hA`) and whose body leaves the block in place (`hafter`):
    where it is not fetched its block index has not moved, so the block left at the point before is this point's.
    The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether or not the pipeline fetched
    it there, for any proof data whose array is `V`'s (`hA`) and whose body leaves the block in place (`hafter`):
    where it is not fetched its block index has not moved, so the block left at the point before is this point's.
    The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether or not the pipeline fetched
    it there, for any proof data whose array is `V`'s (`hA`) and whose body leaves the block in place (`hafter`):
    where it is not fetched its block index has not moved, so the block left at the point before is this point's.
    The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether or not the pipeline fetched
    it there, for any proof data whose array is `V`'s (`hA`) and whose body leaves the block in place (`hafter`):
    where it is not fetched its block index has not moved, so the block left at the point before is this point's.
    The window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether or not the pipeline fetched
    it there, for any proof data whose array is `V`'s (`hA`) and whose body leaves the block in place (`hafter`):
    where it is not fetched its block index has not moved, so the block left at the point before is this point's.
    The window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S200x10000 := Rect.unit (s := S200x10000) ![0, 0] S200x10000.size inb_S200x10000_S200x10000_0_0
abbrev r1_1 : Rect S10000x256 := Rect.unit (s := S10000x256) ![0, 0] S10000x256.size inb_S10000x256_S10000x256_0_0
abbrev r1_2 : Rect S1x256 := Rect.unit (s := S1x256) ![0, 0] S1x128.size inb_S1x256_S1x128_0_0
abbrev r1_3 : Rect S1x256 := Rect.unit (s := S1x256) ![0, 128] S1x128.size inb_S1x256_S1x128_0_128
abbrev r1_4 : Rect S128x128 := Rect.unit (s := S128x128) ![0, 0] S128x128.size inb_S128x128_S128x128_0_0
abbrev r1_5 : Rect S200x256 := Rect.unit (s := S200x256) ![0, 0] S200x256.size inb_S200x256_S200x256_0_0

/-! ## What the body leaves in the output window's buffer -/

/-- Window 5's staging buffer after the body, from the input windows' blocks: its one store, of the whole block.
    `x0`, `x1` are the two adjacency row blocks, `x2` the concatenated features, `x3` the concatenated bias row
    (read at its two halves), `x4` the second layer's weights. -/
def out1_5 (x0 : Vec F S200x10000 .f32) (x1 : Vec F S200x10000 .f32) (x2 : Vec F S10000x256 .f32) (x3 : Vec F S1x256 .f32) (x4 : Vec F S128x128 .f32) : Vec F S200x256 .f32 :=
  View.canon [⟨r1_5, k1_pay1
    (k1_pay6 (View.ld x0 r1_0) (View.ld x2 r1_1) (View.ld x1 r1_0) (View.ld x2 r1_1) (View.ld x3 r1_2) (View.ld x3 r1_3))
    (k1_pay7 (View.ld x0 r1_0) (View.ld x2 r1_1) (View.ld x1 r1_0) (View.ld x2 r1_1) (View.ld x3 r1_2) (View.ld x4 r1_4))
    (View.ld x4 r1_4)⟩]

/-- The one store is of the whole block, so it covers it. -/
theorem cover1_5 (p0 : Vec F S200x256 .f32) (y : S200x256.Idx) :
    ∃ pc ∈ ([⟨r1_5, p0⟩] : List (View.Piece (Elt F) S200x256 .f32)), y ∈ pc.1.set :=
  View.cover_of_tiled [⟨r1_5, p0⟩] S200x256.size (by rfl) y

/-! ## The body's triple -/

set_option maxHeartbeats 1000000 in
/-- The kernel body on whole staging memrefs, the inputs' at read contents `xW` and the output's at anything, runs to
    the continuation holding the inputs' as they were and the output's at `out1_5` of the inputs'. The printed
    functions are their skeletons; the loads and the store are run symbolically, through the part call. -/
theorem sound_kernel1 (c : Dev nD) (E : Set ℕ) (i : grid1.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S1x256 .f32) (harg4 : arg4.IsWhole) (arg5 : Memref sig .tc .vmem S128x128 .f32) (harg5 : arg5.IsWhole) (arg6 : Memref sig .tc .vmem S200x256 .f32) (harg6 : arg6.IsWhole)
    (x0 : Vec F S200x10000 .f32) (x1 : Vec F S200x10000 .f32) (x2 : Vec F S10000x256 .f32) (x3 : Vec F S1x256 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__layer_mid_body i arg1 harg1 arg2 harg2 arg3 harg3 arg4 harg4 arg5 harg5 arg6 harg6) K := by
  simp only [cc1__layer_mid_body_eq_skeleton]; unfold cc1__layer_mid_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

/-! ## The pipeline's proof data -/

/-- The proof data of pipeline 1 on core `c`: the arrays as the region finds them (`V`); after the body at point
    `t` each input's buffer at its block and the output's at `out1_5` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Word.Region2.lean ====
import proofs.«163911_g13984413516055_cont_sun_m_56_12_alg».proof.Proof.Gen.Kernel.Launch
import proofs.«163911_g13984413516055_cont_sun_m_56_12_alg».proof.Proof.Gen.Kernel.Skeleton
import proofs.«163911_g13984413516055_cont_sun_m_56_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 2 of @main (the last graph-convolution layer, grid 50): its half of the frame

The body propagates one 200-row block of the two adjacency operands through the layer, masks it,
and reduces it to an 8 × 256 block of partial column sums. The single output block is the same at
every grid point: the first point stores its partial sums there, every later point adds its own to
what the buffer holds. So what the output's staging buffer holds after point `t` is the running sum
of the partial sums of points `0 … t`, defined by recursion on the point (`acc2`). -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form -/

/-- The first conditional's condition as a function of the grid coordinate's value, -/
def cond2N_1 (n : ℕ) : BitVec 1 := Scalar.cmpi .ne (Scalar.extui (Scalar.cmpi .eq (BitVec.ofNat 32 n) 0#32) : BitVec 32) 0#32
/-- and the second's. -/
def cond2N_2 (n : ℕ) : BitVec 1 := Scalar.cmpi .ne (Scalar.extui (Scalar.cmpi .ne (BitVec.ofNat 32 n) 0#32) : BitVec 32) 0#32

theorem k2_cond1_eq (i : grid2.Coords) : k2_cond1 i = cond2N_1 (i 0).val := rfl
theorem k2_cond2_eq (i : grid2.Coords) : k2_cond2 i = cond2N_2 (i 0).val := rfl

/-- Below 50 exactly one of the two holds: the first at 0 only, the second everywhere else. -/
theorem cond2N_1_iff : ∀ n : Fin 50, cond2N_1 n.val = 1#1 ↔ n.val = 0 := by decide +kernel
theorem cond2N_2_iff : ∀ n : Fin 50, cond2N_2 n.val = 1#1 ↔ n.val ≠ 0 := by decide +kernel
theorem cond2N_live : ∀ n : Fin 50, (!(cond2N_1 n.val == 1#1) && !(cond2N_2 n.val == 1#1)) = false := by decide +kernel

/-- The first conditional (store the partial sums) is taken at the first point only, -/
theorem hcond2_1 : ∀ t : Fin cfg2.N, k2_cond1 (grid2.coords t) = 1#1 ↔ t.val = 0 :=
  (by decide +kernel : ∀ t : Fin grid2.N, k2_cond1 (grid2.coords t) = 1#1 ↔ t.val = 0)
/-- the second (add the partial sums to the buffer) at every later point. -/
theorem hcond2_2 : ∀ t : Fin cfg2.N, k2_cond2 (grid2.coords t) = 1#1 ↔ t.val ≠ 0 :=
  (by decide +kernel : ∀ t : Fin grid2.N, k2_cond2 (grid2.coords t) = 1#1 ↔ t.val ≠ 0)

/-- So the output window is idle at no coordinates: one of the two stores happens. -/
theorem live2_4 (i : grid2.Coords) : cfg2.idle 4 i = false :=
  cond2N_live ⟨(i 0).val, (i 0).isLt⟩

theorem liveAt2_4 (t : Fin cfg2.N) : cfg2.idle 4 (grid2.coords t) = false := live2_4 _

/-! ## The body's accesses -/

abbrev r2_0 : Rect S200x10000 := Rect.unit (s := S200x10000) ![0, 0] S200x10000.size inb_S200x10000_S200x10000_0_0
abbrev r2_1 : Rect S10000x256 := Rect.unit (s := S10000x256) ![0, 0] S10000x256.size inb_S10000x256_S10000x256_0_0
abbrev r2_2 : Rect S1x256 := Rect.unit (s := S1x256) ![0, 0] S1x128.size inb_S1x256_S1x128_0_0
abbrev r2_3 : Rect S1x256 := Rect.unit (s := S1x256) ![0, 128] S1x128.size inb_S1x256_S1x128_0_128
abbrev r2_4 : Rect S8x256 := Rect.unit (s := S8x256) ![0, 0] S8x256.size inb_S8x256_S8x256_0_0

/-! ## What the body leaves in the output window's buffer -/

/-- The block's partial column sums, from the input windows' blocks: the skeleton's payload over what the
    body's loads read. -/
def part2f (x0 x1 : Vec F S200x10000 .f32) (x2 : Vec F S10000x256 .f32) (x3 : Vec F S1x256 .f32) : Vec F S8x256 .f32 :=
  k2_pay2 (View.ld x0 r2_0) (View.ld x2 r2_1) (View.ld x1 r2_0) (View.ld x2 r2_1) (View.ld x3 r2_2) (View.ld x3 r2_3)

/-- The output's staging buffer after the body at the FIRST point: its one store, of the partial sums. -/
def out2_4_A (x0 x1 : Vec F S200x10000 .f32) (x2 : Vec F S10000x256 .f32) (x3 : Vec F S1x256 .f32) : Vec F S8x256 .f32 :=
  View.canon [⟨r2_4, part2f x0 x1 x2 x3⟩]

/-- The output's staging buffer after the body at a LATER point, over what the buffer held (`xo`): its one store,
    of the partial sums added to what it loaded. -/
def out2_4_B (x0 x1 : Vec F S200x10000 .f32) (x2 : Vec F S10000x256 .f32) (x3 : Vec F S1x256 .f32) (xo : Vec F S8x256 .f32) : Vec F S8x256 .f32 :=
  View.canon [⟨r2_4, k2_pay1 (part2f x0 x1 x2 x3) (View.ld xo r2_4)⟩]

/-- The one store covers the buffer. -/
theorem cover2_4 (p0 : Vec F S8x256 .f32) (y : S8x256.Idx) :
    ∃ pc ∈ ([⟨r2_4, p0⟩] : List (View.Piece (Elt F) S8x256 .f32)), y ∈ pc.1.set :=
  View.cover_of_tiled [⟨r2_4, p0⟩] S8x256.size (by rfl) y

/-! ## The body's triple, case by case -/

set_option maxHeartbeats 1000000 in
/-- The body at coordinates where the first condition holds and the second does not, on whole staging memrefs, the
    inputs' at contents `xW` and the output's at anything: runs to the continuation holding the inputs' as they were
    and the output's at `out2_4_A` of the inputs'. -/
theorem sound_kernel2_A (c : Dev nD) (E : Set ℕ) (i : grid2.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S1x256 .f32) (harg4 : arg4.IsWhole) (arg5 : Memref sig .tc .vmem S8x256 .f32) (harg5 : arg5.IsWhole)
    (h1 : k2_cond1 i = 1#1) (h2 : ¬k2_cond2 i = 1#1)
    (x0 x1 : Vec F S200x10000 .f32) (x2 : Vec F S10000x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4_A x0 x1 x2 x3)) -∗ K ⟨⟩))
      ⊢ wp frame (wpE (defs₀ (F := F)) Variants.none c none) E (cc2__layer_last_body i arg1 harg1 arg2 harg2 arg3 harg3 arg4 harg4 arg5 harg5) K := by
  simp only [cc2__layer_last_body_eq_skeleton]; unfold cc2__layer_last_body_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

set_option maxHeartbeats 1000000 in
/-- The body at coordinates where the second condition holds and the first does not, the output's memref at
    contents `xo`: runs to the continuation holding the inputs' as they were and the output's at `out2_4_B` of the
    inputs' and `xo`. -/
theorem sound_kernel2_B (c : Dev nD) (E : Set ℕ) (i : grid2.Coords) (arg1 : Memref sig .tc .vmem S200x10000 .f32) (harg1 : arg1.IsWhole) (arg2 : Memref sig .tc .vmem S200x10000 .f32) (harg2 : arg2.IsWhole) (arg3 : Memref sig .tc .vmem S10000x256 .f32) (harg3 : arg3.IsWhole) (arg4 : Memref sig .tc .vmem S1x256 .f32) (harg4 : arg4.IsWhole) (arg5 : Memref sig .tc .vmem S8x256 .f32) (harg5 : arg5.IsWhole)
    (h1 : ¬k2_cond1 i = 1#1) (h2 : k2_cond2 i = 1#1)
    (x0 x1 : Vec F S200x10000 .f32) (x2 : Vec F S10000x256 .f32) (x3 : Vec F S1x256 .f32) (xo : Vec F S8x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4_B x0 x1 x2 x3 xo)) -∗ K ⟨⟩))
      ⊢ wp frame (wpE (defs₀ (F := F)) Variants.none c none) E (cc2__layer_last_body i arg1 harg1 arg2 harg2 arg3 harg3 arg4 harg4 arg5 harg5) K := by
  simp only [cc2__layer_last_body_eq_skeleton]; unfold cc2__layer_last_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The running sum, point by point -/

/-- The partial column sums of the block at point `t`: `part2f` of the input windows' blocks there. -/
def part2 (c : Dev nD) (t : Fin cfg2.N) : Vec F S8x256 .f32 :=
  part2f (iblk2 V c 0 t) (iblk2 V c 1 t) (iblk2 V c 2 t) (iblk2 V c 3 t)

/-- What the output's staging buffer holds after the body at position `n`: at the first point what the first case
    leaves; later what the second case leaves over what the point before left (the buffer is not written back
    between). -/
def acc2n (c : Dev nD) : (n : ℕ) → n < cfg2.N → Vec F S8x256 .f32
  | 0, hn => out2_4_A (iblk2 V c 0 ⟨0, hn⟩) (iblk2 V c 1 ⟨0, hn⟩) (iblk2 V c 2 ⟨0, hn⟩) (iblk2 V c 3 ⟨0, hn⟩)
  | n + 1, hn => out2_4_B (iblk2 V c 0 ⟨n + 1, hn⟩) (iblk2 V c 1 ⟨n + 1, hn⟩) (iblk2 V c 2 ⟨n + 1, hn⟩) (iblk2 V c 3 ⟨n + 1, hn⟩)
      (acc2n c n (Nat.lt_of_succ_lt hn))

/-- The same at a point of the grid. -/
def acc2 (c : Dev nD) (t : Fin cfg2.N) : Vec F S8x256 .f32 := acc2n V c t.val t.isLt

/-- At the first point: the first case's contents. -/
theorem acc2_first (c : Dev nD) (t : Fin cfg2.N) (h0 : t.val = 0) :
    acc2 V c t = out2_4_A (iblk2 V c 0 t) (iblk2 V c 1 t) (iblk2 V c 2 t) (iblk2 V c 3 t) := by
  obtain ⟨n, hn⟩ := t
  cases n with
  | zero => rfl
  | succ n => exact absurd h0 (Nat.succ_ne_zero n)

/-- At a later point: the second case's contents, over what the point before left. -/
theorem acc2_later (c : Dev nD) (t : Fin cfg2.N) (h0 : ¬t.val = 0) :
    acc2 V c t = out2_4_B (iblk2 V c 0 t) (iblk2 V c 1 t) (iblk2 V c 2 t) (iblk2 V c 3 t)
      (acc2 V c ⟨t.val - 1, Nat.lt_of_le_of_lt (Nat.sub_le _ _) t.isLt⟩) := by
  obtain ⟨n, hn⟩ := t
  cases n with
  | zero => exact absurd rfl h0
  | succ n => rfl

/-- The whole-buffer rectangle's offsets are zero. -/
theorem off2_zero : (![0, 0] : Fin S8x256.rank → Nat) = fun _ => 0 := by
  funext a; fin_cases a <;> rfl

/-- The running sum starts at the first block's partial sums, -/
theorem acc2_zero (c : Dev nD) (h : 0 < cfg2.N) : acc2 V c ⟨0, h⟩ = part2 V c ⟨0, h⟩ :=
  View.canon_unit_zero off2_zero _ _

/-- and each later point adds its block's partial sums to it. -/
theorem acc2_succ (c : Dev nD) (n : ℕ) (h : n + 1 < cfg2.N) :
    acc2 V c ⟨n + 1, h⟩ = k2_pay1 (part2 V c ⟨n + 1, h⟩) (acc2 V c ⟨n, Nat.lt_of_succ_lt h⟩) := by
  show out2_4_B _ _ _ _ _ = _
  unfold out2_4_B
  rw [View.canon_unit_zero off2_zero, View.ld_unit_zero off2_zero]
  rfl

/-! ## The pipeline's proof data -/

/-- The proof data of pipeline 2 on core `c`: the arrays as the region finds them (`V`); after the body at point `t`
    each input's buffer at its block and the output's at the running sum `acc2`; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => acc2 V c t
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = acc2 V c t := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- At a later point the output's staging buffer holds what the body left at the point before: the buffer was not
    written back between (only the last point writes back), and the window is live and uncut. -/
theorem before2_4_later (c : Dev nD) (t : Fin cfg2.N) (h0 : ¬t.val = 0) (d) :
    (dat2 V c).before 4 t d = acc2 V c ⟨t.val - 1, Nat.lt_of_le_of_lt (Nat.sub_le _ _) t.isLt⟩ := by
  have hN : t.val < 50 := lt_of_lt_of_eq t.isLt (show cfg2.N = 50 from N_2)
  rw [Dat.before_out_kept _ 4 rfl t h0 (Bool.eq_false_iff.mpr fun h => by have := (flush2_4 _).mp h; dsimp only at this; omega)
    live2_4 (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

/-- No window is idle at any point, so each current buffer is left at the proof data's `after`. -/
theorem leaves2_0 (c : Dev nD) (t : Fin cfg2.N) :
    (dat2 V c).leavesExact 0 t = owns (c : Thread nD τ) (st2_0 t) fullShare ((dat2 V c).after 0 t) := rfl
theorem leaves2_1 (c : Dev nD) (t : Fin cfg2.N) :
    (dat2 V c).leavesExact 1 t = owns (c : Thread nD τ) (st2_1 t) fullShare ((dat2 V c).after 1 t) := rfl
theorem leaves2_2 (c : Dev nD) (t : Fin cfg2.N) :
    (dat2 V c).leavesExact 2 t = owns (c : Thread nD τ) (st2_2 t) fullShare ((dat2 V c).after 2 t) := rfl
theorem leaves2_3 (c : Dev nD) (t : Fin cfg2.N) :
    (dat2 V c).leavesExact 3 t = owns (c : Thread nD τ) (st2_3 t) fullShare ((dat2 V c).after 3 t) := rfl
theorem leaves2_4 (c : Dev nD) (t : Fin cfg2.N) :
    (dat2 V c).leavesExact 4 t = owns (c : Thread nD τ) (st2_4 t) fullShare ((dat2 V c).after 4 t) := by
  unfold Dat.leavesExact; rw [liveAt2_4 t]

set_option maxHeartbeats 1600000 in
/-- The body at any point: the inputs' memrefs hold their blocks; the closed forms of the two conditions say which
    case the point is in; at a later point the output's buffer holds what the point before left; so the case's triple
    applies; the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    leaves2_0, leaves2_1, leaves2_2, leaves2_3, leaves2_4,
    after2_0, after2_1, after2_2, after2_3, after2_4]
  by_cases h0 : t.val = 0
  · rw [acc2_first V c t h0]
    iintro ⟨HΦ, Ho, ⟨%d0, H0⟩, ⟨%d1, H1⟩, ⟨%d2, H2⟩, ⟨%d3, H3⟩, ⟨%d4, H4⟩⟩
    iapply (sound_kernel2_A c Set.univ (grid2.coords t) _ _ _ _ _ _ _ _ _ _ ((hcond2_1 t).mpr h0) (fun h => (hcond2_2 t).mp h h0)
      (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc2_later V c t h0]
    simp only [before2_4_later V c t h0]
    iintro ⟨HΦ, Ho, ⟨%d0, H0⟩, ⟨%d1, H1⟩, ⟨%d2, H2⟩, ⟨%d3, H3⟩, ⟨%d4, H4⟩⟩
    iapply (sound_kernel2_B c Set.univ (grid2.coords t) _ _ _ _ _ _ _ _ _ _ (fun h => h0 ((hcond2_1 t).mp h)) ((hcond2_2 t).mpr h0)
      (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.Word.Region3.lean ====
/- Region 3 of @main (the gridless call of `cc3__head_body`): the region's half of the frame, at any float
   instance and at a parameter `V`, the TensorCore's buffer contents when the region is entered. Each window's
   block is its whole array; the body reads the five inputs once each, reads the output buffer's old contents
   without using them, and stores ONE value over the whole output buffer: the head (column mean, the two dense
   layers, the softmax) of the inputs. -/
import proofs.«163911_g13984413516055_cont_sun_m_56_12_alg».proof.Proof.Gen.Kernel.Launch
import proofs.«163911_g13984413516055_cont_sun_m_56_12_alg».proof.Proof.Gen.Kernel.Skeleton
import proofs.«163911_g13984413516055_cont_sun_m_56_12_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole of its buffer -/

abbrev r3_0 : Rect S8x256 := Rect.unit (s := S8x256) ![0, 0] S8x256.size inb_S8x256_S8x256_0_0
abbrev r3_1 : Rect S256x128 := Rect.unit (s := S256x128) ![0, 0] S256x128.size inb_S256x128_S256x128_0_0
abbrev r3_2 : Rect S1x128 := Rect.unit (s := S1x128) ![0, 0] S1x128.size inb_S1x128_S1x128_0_0
abbrev r3_3 : Rect S128x10 := Rect.unit (s := S128x10) ![0, 0] S128x10.size inb_S128x10_S128x10_0_0
abbrev r3_4 : Rect S1x10 := Rect.unit (s := S1x10) ![0, 0] S1x10.size inb_S1x10_S1x10_0_0
abbrev r3_5 : Rect S1x10 := Rect.unit (s := S1x10) ![0, 0] S1x10.size inb_S1x10_S1x10_0_0

/-! ## What the body leaves in the output window's buffer -/

/-- Window 5's staging buffer after the body, from the input windows' blocks: its one store as a piece (the payload
    is the skeleton's: the whole head). -/
def out3_5 (x0 : Vec F S8x256 .f32) (x1 : Vec F S256x128 .f32) (x2 : Vec F S1x128 .f32) (x3 : Vec F S128x10 .f32) (x4 : Vec F S1x10 .f32) : Vec F S1x10 .f32 :=
  View.canon [⟨r3_5, k3_pay1 (View.ld x0 r3_0) (View.ld x1 r3_1) (View.ld x2 r3_2) (View.ld x3 r3_3) (View.ld x4 r3_4)⟩]

/-- The one store is of the whole buffer, so it covers it. -/
theorem cover3_5 (p0 : Vec F S1x10 .f32) (y : S1x10.Idx) :
    ∃ pc ∈ ([⟨r3_5, p0⟩] : List (View.Piece (Elt F) S1x10 .f32)), y ∈ pc.1.set :=
  ⟨⟨r3_5, p0⟩, List.mem_singleton_self _, View.mem_set_unit_zero (by funext a; fin_cases a <;> rfl) inb_S1x10_S1x10_0_0 y⟩

/-! ## The body's triple -/

set_option maxHeartbeats 1000000 in
/-- The kernel body on whole staging memrefs, the inputs' at read contents `xW` and the output's at anything, runs to
    the continuation holding the inputs' as they were and the output's at `out3_5` of the inputs'. -/
theorem sound_kernel3 (c : Dev nD) (E : Set ℕ)
    (arg0 : Memref sig .tc .vmem S8x256 .f32) (harg0 : arg0.IsWhole)
    (arg1 : Memref sig .tc .vmem S256x128 .f32) (harg1 : arg1.IsWhole)
    (arg2 : Memref sig .tc .vmem S1x128 .f32) (harg2 : arg2.IsWhole)
    (arg3 : Memref sig .tc .vmem S128x10 .f32) (harg3 : arg3.IsWhole)
    (arg4 : Memref sig .tc .vmem S1x10 .f32) (harg4 : arg4.IsWhole)
    (arg5 : Memref sig .tc .vmem S1x10 .f32) (harg5 : arg5.IsWhole)
    (x0 : Vec F S8x256 .f32) (x1 : Vec F S256x128 .f32) (x2 : Vec F S1x128 .f32) (x3 : Vec F S128x10 .f32) (x4 : Vec F S1x10 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out3_5 x0 x1 x2 x3 x4)) -∗ K ⟨⟩))
      ⊢ wp frame (wpE (defs₀ (F := F)) Variants.none c none) E (cc3__head_body arg0 harg0 arg1 harg1 arg2 harg2 arg3 harg3 arg4 harg4 arg5 harg5) K := by
  simp only [cc3__head_body_eq_skeleton]; unfold cc3__head_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body each
    input's buffer at its block and the output's at `out3_5` of the input blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.Word.Run.lean ====
/- The run of the whole program: @main as its six items in order — region 0, the host operations that double the
   two layer biases, regions 1 and 2, the host operations that lay the head's biases out as rows, region 3 —, each
   region entered from the buffer contents the item before it left. The contents between items are a fold from the
   launch memory: a host stretch applies its operations; a region replaces its output array by what its pipeline's
   write-backs leave and keeps everything else. The run ends with every unscoped buffer at the fold's last
   contents, from which one reads both that every argument array is as launched and what the result buffer holds.
   Generic in the float instance. -/
import proofs.«163911_g13984413516055_cont_sun_m_56_12_alg».proof.Proof.Gen.Kernel.Launch
import proofs.«163911_g13984413516055_cont_sun_m_56_12_alg».proof.Proof.Gen.Kernel.Skeleton
import proofs.«163911_g13984413516055_cont_sun_m_56_12_alg».proof.Proof.Gen.Kernel.Points
import proofs.«163911_g13984413516055_cont_sun_m_56_12_alg».proof.Proof.Gen.Kernel.Regions
import proofs.«163911_g13984413516055_cont_sun_m_56_12_alg».proof.Proof.Word.Region0
import proofs.«163911_g13984413516055_cont_sun_m_56_12_alg».proof.Proof.Word.Region1
import proofs.«163911_g13984413516055_cont_sun_m_56_12_alg».proof.Proof.Word.Region2
import proofs.«163911_g13984413516055_cont_sun_m_56_12_alg».proof.Proof.Word.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main: a fold from the launch memory -/

/-- Core `c`'s buffers at launch (region 0 is entered from them). -/
abbrev Wh0 : Dev nD → Valuation τ sig (Elt F) := fun c b => (s₀ m ρ).mem ((c : Dev nD), b)
abbrev Vh0 : (c : Dev nD) → (b : Ref sig .tc) → Buf (Elt F) ((c : Thread nD τ).loc b) := fun c b => Wh0 m ρ c b

/-- After region 0: its arrays at what the pipeline's write-backs leave, every other buffer as before. -/
def Wh1 (c : Dev nD) : Valuation τ sig (Elt F) :=
  Pipeline.withArrays spec0 c (Wh0 m ρ c) fun w => (dat0 (Vh0 m ρ) c).arrAt w cfg0.N
theorem Wh1_arr (c : Dev nD) (w : Fin cfg0.W) :
    Wh1 m ρ c (Proc.devRef .tc (Pipeline.arrRef spec0 w)) = (dat0 (Vh0 m ρ) c).arrAt w cfg0.N := by
  unfold Wh1; exact Pipeline.withArrays_arr spec0 launch0.win.arr_inj c _ _ w
theorem Wh1_of_ne (c : Dev nD) (b : Ref sig .tc) (hb : ∀ w, Pipeline.arrRef spec0 w ≠ b) :
    Wh1 m ρ c (Proc.devRef .tc b) = Wh0 m ρ c (Proc.devRef .tc b) := by
  unfold Wh1; exact Pipeline.withArrays_of_ne spec0 c _ _ b hb
abbrev Vh1 : (c : Dev nD) → (b : Ref sig .tc) → Buf (Elt F) ((c : Thread nD τ).loc b) := fun c b => Wh1 m ρ c b
theorem hF0 (c : Dev nD) (w : Fin cfg0.W) : (dat0 (Vh0 m ρ) c).arrAt w cfg0.N = Vh1 m ρ c (Pipeline.arrRef spec0 w) :=
  (Wh1_arr m ρ c w).symm
theorem hrest0 (c : Dev nD) : ∀ b, b ∉ Finset.univ.image (Pipeline.arrRef spec0) → Vh1 m ρ c b = Vh0 m ρ c b :=
  fun b hb => Wh1_of_ne m ρ c b fun w e => hb (Finset.mem_image.mpr ⟨w, Finset.mem_univ _, e⟩)

/-- After the host operations between regions 0 and 1 (the two doubled biases as rows). -/
abbrev Wh2 : Dev nD → Valuation τ sig (Elt F) := fun c => StableHlo.after hostOps1 (Wh1 m ρ c)
abbrev Vh2 : (c : Dev nD) → (b : Ref sig .tc) → Buf (Elt F) ((c : Thread nD τ).loc b) := fun c b => Wh2 m ρ c b

/-- After region 1: its arrays at what the pipeline's write-backs leave, every other buffer as before. -/
def Wh3 (c : Dev nD) : Valuation τ sig (Elt F) :=
  Pipeline.withArrays spec1 c (Wh2 m ρ c) fun w => (dat1 (Vh2 m ρ) c).arrAt w cfg1.N
theorem Wh3_arr (c : Dev nD) (w : Fin cfg1.W) :
    Wh3 m ρ c (Proc.devRef .tc (Pipeline.arrRef spec1 w)) = (dat1 (Vh2 m ρ) c).arrAt w cfg1.N := by
  unfold Wh3; exact Pipeline.withArrays_arr spec1 launch1.win.arr_inj c _ _ w
theorem Wh3_of_ne (c : Dev nD) (b : Ref sig .tc) (hb : ∀ w, Pipeline.arrRef spec1 w ≠ b) :
    Wh3 m ρ c (Proc.devRef .tc b) = Wh2 m ρ c (Proc.devRef .tc b) := by
  unfold Wh3; exact Pipeline.withArrays_of_ne spec1 c _ _ b hb
abbrev Vh3 : (c : Dev nD) → (b : Ref sig .tc) → Buf (Elt F) ((c : Thread nD τ).loc b) := fun c b => Wh3 m ρ c b
theorem hF1 (c : Dev nD) (w : Fin cfg1.W) : (dat1 (Vh2 m ρ) c).arrAt w cfg1.N = Vh3 m ρ c (Pipeline.arrRef spec1 w) :=
  (Wh3_arr m ρ c w).symm
theorem hrest1 (c : Dev nD) : ∀ b, b ∉ Finset.univ.image (Pipeline.arrRef spec1) → Vh3 m ρ c b = Vh2 m ρ c b :=
  fun b hb => Wh3_of_ne m ρ c b fun w e => hb (Finset.mem_image.mpr ⟨w, Finset.mem_univ _, e⟩)

/-- After region 2: its arrays at what the pipeline's write-backs leave, every other buffer as before. -/
def Wh4 (c : Dev nD) : Valuation τ sig (Elt F) :=
  Pipeline.withArrays spec2 c (Wh3 m ρ c) fun w => (dat2 (Vh3 m ρ) c).arrAt w cfg2.N
theorem Wh4_arr (c : Dev nD) (w : Fin cfg2.W) :
    Wh4 m ρ c (Proc.devRef .tc (Pipeline.arrRef spec2 w)) = (dat2 (Vh3 m ρ) c).arrAt w cfg2.N := by
  unfold Wh4; exact Pipeline.withArrays_arr spec2 launch2.win.arr_inj c _ _ w
theorem Wh4_of_ne (c : Dev nD) (b : Ref sig .tc) (hb : ∀ w, Pipeline.arrRef spec2 w ≠ b) :
    Wh4 m ρ c (Proc.devRef .tc b) = Wh3 m ρ c (Proc.devRef .tc b) := by
  unfold Wh4; exact Pipeline.withArrays_of_ne spec2 c _ _ b hb
abbrev Vh4 : (c : Dev nD) → (b : Ref sig .tc) → Buf (Elt F) ((c : Thread nD τ).loc b) := fun c b => Wh4 m ρ c b
theorem hF2 (c : Dev nD) (w : Fin cfg2.W) : (dat2 (Vh3 m ρ) c).arrAt w cfg2.N = Vh4 m ρ c (Pipeline.arrRef spec2 w) :=
  (Wh4_arr m ρ c w).symm
theorem hrest2 (c : Dev nD) : ∀ b, b ∉ Finset.univ.image (Pipeline.arrRef spec2) → Vh4 m ρ c b = Vh3 m ρ c b :=
  fun b hb => Wh4_of_ne m ρ c b fun w e => hb (Finset.mem_image.mpr ⟨w, Finset.mem_univ _, e⟩)

/-- After the host operations between regions 2 and 3 (the head's two biases as rows). -/
abbrev Wh5 : Dev nD → Valuation τ sig (Elt F) := fun c => StableHlo.after hostOps3 (Wh4 m ρ c)
abbrev Vh5 : (c : Dev nD) → (b : Ref sig .tc) → Buf (Elt F) ((c : Thread nD τ).loc b) := fun c b => Wh5 m ρ c b

/-- After region 3: its arrays at what the pipeline's write-backs leave, every other buffer as before. -/
def Wh6 (c : Dev nD) : Valuation τ sig (Elt F) :=
  Pipeline.withArrays spec3 c (Wh5 m ρ c) fun w => (dat3 (Vh5 m ρ) c).arrAt w cfg3.N
theorem Wh6_arr (c : Dev nD) (w : Fin cfg3.W) :
    Wh6 m ρ c (Proc.devRef .tc (Pipeline.arrRef spec3 w)) = (dat3 (Vh5 m ρ) c).arrAt w cfg3.N := by
  unfold Wh6; exact Pipeline.withArrays_arr spec3 launch3.win.arr_inj c _ _ w
theorem Wh6_of_ne (c : Dev nD) (b : Ref sig .tc) (hb : ∀ w, Pipeline.arrRef spec3 w ≠ b) :
    Wh6 m ρ c (Proc.devRef .tc b) = Wh5 m ρ c (Proc.devRef .tc b) := by
  unfold Wh6; exact Pipeline.withArrays_of_ne spec3 c _ _ b hb
abbrev Vh6 : (c : Dev nD) → (b : Ref sig .tc) → Buf (Elt F) ((c : Thread nD τ).loc b) := fun c b => Wh6 m ρ c b
theorem hF3 (c : Dev nD) (w : Fin cfg3.W) : (dat3 (Vh5 m ρ) c).arrAt w cfg3.N = Vh6 m ρ c (Pipeline.arrRef spec3 w) :=
  (Wh6_arr m ρ c w).symm
theorem hrest3 (c : Dev nD) : ∀ b, b ∉ Finset.univ.image (Pipeline.arrRef spec3) → Vh6 m ρ c b = Vh5 m ρ c b :=
  fun b hb => Wh6_of_ne m ρ c b fun w e => hb (Finset.mem_image.mpr ⟨w, Finset.mem_univ _, e⟩)

/-! ## The proof data family and the thread state -/

abbrev hadm : (p : Fin 4) → (pcfgs (F := F) p).Adm := fun p => (cfgs p).toPCfg_adm
/-- Every pipeline's proof data, each at its region's entry contents. -/
def hpdats : (p : Fin 4) → (c : Dev nD) → Dat τ (Elt F) Unit ℕ (UR sig nD τ) ℕ (Pipeline.pin (pcfgs (F := F)) hadm p) c
  | ⟨0, _⟩ => fun c => dat0 (Vh0 m ρ) c
  | ⟨1, _⟩ => fun c => dat1 (Vh2 m ρ) c
  | ⟨2, _⟩ => fun c => dat2 (Vh3 m ρ) c
  | ⟨3, _⟩ => fun c => dat3 (Vh5 m ρ) c
abbrev h𝒱 : Variants := Variants.none
abbrev hL : GSem nD τ sig → Finset Unit := fun _ => ∅
abbrev hlv : GSem nD τ sig → Unit → ℕ := fun _ _ => 0
/-- What rides beside the buffers through every item: the generator register at some state, nothing owed. -/
abbrev hR (c : Dev nD) : sProp 𝕄 := iprop((∃ r, prngReg c r) ∗ ∃ W, owes (c : Thread nD τ) (0 : CellTallies nD τ sig Unit) W)
abbrev hhseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ h𝒱 hL hlv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W hR
theorem hmem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev hTn (c : Dev nD) : sProp 𝕄 := iprop(StableHlo.held (c : Thread nD τ) (Pipeline.ucRefs τ sig) (Wh6 m ρ c) ∗ ∃ r, prngReg c r)

/-! ## The regions as segments -/

set_option backward.isDefEq.respectTransparency.types false in
/-- Region 0 as a segment of @main over the thread state: entered with every unscoped buffer at the contents
    before it, left with them at the contents after it; its arrays are split out of the unscoped buffers at entry
    and put back, at what the write-backs leave, at exit; the generator register goes into the region's invariant
    and comes back; nothing is owed and the kernel has no semaphore of its own. -/
def hreg0 : Pipeline.RegionSeg (pcfgs (F := F)) hadm (hpdats m ρ) () defs₀ h𝒱 hL hlv 0 where
  win := launch0.win.to₀
  block_pos := launch0.block_pos
  stage_whole := launch0.stage_whole
  K := PEmpty
  osem k := k.elim
  ho := Pipeline.OwnSemFacts.none _
  hbody c := (body_obligation0 (Vh0 m ρ) c).loose
  hwaits := Pipeline.hwaits_of_owed_zero _ _ _ _ hL hlv 0 fun _ _ => rfl
  pre c := iprop(StableHlo.held (c : Thread nD τ) (Pipeline.ucRefs τ sig) (Wh0 m ρ c) ∗ hR c)
  post c := iprop(StableHlo.held (c : Thread nD τ) (Pipeline.ucRefs τ sig) (Wh1 m ρ c) ∗ hR c)
  X c := iprop(∃ r, prngReg c r)
  Y c := iprop(∃ r, prngReg c r)
  Z c := Pipeline.unscopedRest (Ix := Unit) (Name := ℕ) (U := UR sig nD τ) (Lvl := ℕ) spec0 c (Vh0 m ρ c)
  hentry c := by
    rw [Pipeline.ownSems0_none]
    have hsplit := Pipeline.arrays_of_unscopedBufs (p := 0) (pcfgs (F := F)) hadm (hpdats m ρ) launch0.win launch0.arr_whole c
      ((hpdats m ρ 0 c).share_full fun _ => rfl) (Vh0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (hpdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (hpdats m ρ) ((hpdats m ρ 0 c).share_full fun _ => rfl)
      (Vh0 m ρ c) (Vh1 m ρ c) ((hpdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main over the thread state: entered with every unscoped buffer at the contents
    before it, left with them at the contents after it; its arrays are split out of the unscoped buffers at entry
    and put back, at what the write-backs leave, at exit; the generator register goes into the region's invariant
    and comes back; nothing is owed and the kernel has no semaphore of its own. -/
def hreg1 : Pipeline.RegionSeg (pcfgs (F := F)) hadm (hpdats m ρ) () defs₀ h𝒱 hL hlv 1 where
  win := launch1.win.to₀
  block_pos := launch1.block_pos
  stage_whole := launch1.stage_whole
  K := PEmpty
  osem k := k.elim
  ho := Pipeline.OwnSemFacts.none _
  hbody c := (body_obligation1 (Vh2 m ρ) c).loose
  hwaits := Pipeline.hwaits_of_owed_zero _ _ _ _ hL hlv 1 fun _ _ => rfl
  pre c := iprop(StableHlo.held (c : Thread nD τ) (Pipeline.ucRefs τ sig) (Wh2 m ρ c) ∗ hR c)
  post c := iprop(StableHlo.held (c : Thread nD τ) (Pipeline.ucRefs τ sig) (Wh3 m ρ c) ∗ hR c)
  X c := iprop(∃ r, prngReg c r)
  Y c := iprop(∃ r, prngReg c r)
  Z c := Pipeline.unscopedRest (Ix := Unit) (Name := ℕ) (U := UR sig nD τ) (Lvl := ℕ) spec1 c (Vh2 m ρ c)
  hentry c := by
    rw [Pipeline.ownSems0_none]
    have hsplit := Pipeline.arrays_of_unscopedBufs (p := 1) (pcfgs (F := F)) hadm (hpdats m ρ) launch1.win launch1.arr_whole c
      ((hpdats m ρ 1 c).share_full fun _ => rfl) (Vh2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (hpdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (hpdats m ρ) ((hpdats m ρ 1 c).share_full fun _ => rfl)
      (Vh2 m ρ c) (Vh3 m ρ c) ((hpdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of @main over the thread state: entered with every unscoped buffer at the contents
    before it, left with them at the contents after it; its arrays are split out of the unscoped buffers at entry
    and put back, at what the write-backs leave, at exit; the generator register goes into the region's invariant
    and comes back; nothing is owed and the kernel has no semaphore of its own. -/
def hreg2 : Pipeline.RegionSeg (pcfgs (F := F)) hadm (hpdats m ρ) () defs₀ h𝒱 hL hlv 2 where
  win := launch2.win.to₀
  block_pos := launch2.block_pos
  stage_whole := launch2.stage_whole
  K := PEmpty
  osem k := k.elim
  ho := Pipeline.OwnSemFacts.none _
  hbody c := (body_obligation2 (Vh3 m ρ) c).loose
  hwaits := Pipeline.hwaits_of_owed_zero _ _ _ _ hL hlv 2 fun _ _ => rfl
  pre c := iprop(StableHlo.held (c : Thread nD τ) (Pipeline.ucRefs τ sig) (Wh3 m ρ c) ∗ hR c)
  post c := iprop(StableHlo.held (c : Thread nD τ) (Pipeline.ucRefs τ sig) (Wh4 m ρ c) ∗ hR c)
  X c := iprop(∃ r, prngReg c r)
  Y c := iprop(∃ r, prngReg c r)
  Z c := Pipeline.unscopedRest (Ix := Unit) (Name := ℕ) (U := UR sig nD τ) (Lvl := ℕ) spec2 c (Vh3 m ρ c)
  hentry c := by
    rw [Pipeline.ownSems0_none]
    have hsplit := Pipeline.arrays_of_unscopedBufs (p := 2) (pcfgs (F := F)) hadm (hpdats m ρ) launch2.win launch2.arr_whole c
      ((hpdats m ρ 2 c).share_full fun _ => rfl) (Vh3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (hpdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (hpdats m ρ) ((hpdats m ρ 2 c).share_full fun _ => rfl)
      (Vh3 m ρ c) (Vh4 m ρ c) ((hpdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment of @main over the thread state: entered with every unscoped buffer at the contents
    before it, left with them at the contents after it; its arrays are split out of the unscoped buffers at entry
    and put back, at what the write-backs leave, at exit; the generator register goes into the region's invariant
    and comes back; nothing is owed and the kernel has no semaphore of its own. -/
def hreg3 : Pipeline.RegionSeg (pcfgs (F := F)) hadm (hpdats m ρ) () defs₀ h𝒱 hL hlv 3 where
  win := launch3.win.to₀
  block_pos := launch3.block_pos
  stage_whole := launch3.stage_whole
  K := PEmpty
  osem k := k.elim
  ho := Pipeline.OwnSemFacts.none _
  hbody c := (body_obligation3 (Vh5 m ρ) c).loose
  hwaits := Pipeline.hwaits_of_owed_zero _ _ _ _ hL hlv 3 fun _ _ => rfl
  pre c := iprop(StableHlo.held (c : Thread nD τ) (Pipeline.ucRefs τ sig) (Wh5 m ρ c) ∗ hR c)
  post c := iprop(hTn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (Vh5 m ρ c)
  hentry c := by
    rw [Pipeline.ownSems0_none]
    have hsplit := Pipeline.arrays_of_unscopedBufs (p := 3) (pcfgs (F := F)) hadm (hpdats m ρ) launch3.win launch3.arr_whole c
      ((hpdats m ρ 3 c).share_full fun _ => rfl) (Vh5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (hpdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) hadm (Ix := Unit) (Name := ℕ) (U := UR sig nD τ) (Lvl := ℕ)
      launch3.win launch3.arr_whole c (hpdats m ρ) ((hpdats m ρ 3 c).share_full fun _ => rfl)
      (Vh5 m ρ c) (Vh6 m ρ c) ((hpdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev hsegs : List (Pipeline.Seg (pcfgs (F := F)) hadm (hpdats m ρ) () defs₀ h𝒱 hL hlv) :=
  [ .region (hreg0 m ρ),
    .host (hhseg hostOps1 hostOps1_sub hostOps1_fresh (Wh1 m ρ)),
    .region (hreg1 m ρ),
    .region (hreg2 m ρ),
    .host (hhseg hostOps3 hostOps3_sub hostOps3_fresh (Wh4 m ρ)),
    .region (hreg3 m ρ) ]
theorem hmain_run (c : Dev nD) : main (F := F) c = Pipeline.Seg.run (hsegs m ρ) := (main_chain c).trans (by chain_rfl)

set_option backward.isDefEq.respectTransparency.types false in
/-- THE RUN: from any memory with zero counters every weakly fair execution of @main terminates, nothing faulting,
    and in every final state each unscoped buffer of every core holds the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wh6 m ρ c b) :=
  Pipeline.θ_run_regions_kit (pcfgs (F := F)) hadm (hpdats m ρ) () cellOf_inj emb₁ defs₀ h𝒱 hL hlv m ρ main (hsegs m ρ)
    (fun c Q => by rw [hmain_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wh0 m ρ c) ∗ hR c)) (Tₙ := hTn m ρ)
    (hch := ⟨fun _ => .rfl, fun _ => .rfl, fun _ => .rfl, fun _ => .rfl, fun _ => .rfl, fun _ => .rfl, fun _ => .rfl⟩)
    (hinit := by
      refine Pipeline.initEach hL hlv fun c => ?_
      rw [show unscopedBufs c (fun b => m ((c : Thread nD τ).loc b)) = StableHlo.held (c : Thread nD τ) (Pipeline.ucRefs τ sig) (Wh0 m ρ c)
        from Pipeline.unscopedBufs_held c (Wh0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wh6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wh6 m ρ c) s')
      isplitl [Hh] <;> iassumption)
    (hQ := fun s h c => h c)

/-! ## What the fold leaves alone -/

/-- Region 0 leaves every buffer but its output array `main_v0` as it found it: an input window's array is
    never written, and a buffer no window stages is not the region's to touch. -/
theorem Wh1_keep (c : Dev nD) (b : Ref sig .tc) (hb : b ≠ main_v0) :
    Wh1 m ρ c (Proc.devRef .tc b) = Wh0 m ρ c (Proc.devRef .tc b) := by
  by_cases h : ∃ w, Pipeline.arrRef spec0 w = b
  · obtain ⟨w, rfl⟩ := h
    have hin : (cfg0.win w).isOut = false := by
      match w, hb with
      | ⟨0, _⟩, _ => rfl
      | ⟨1, _⟩, _ => rfl
      | ⟨2, _⟩, _ => rfl
      | ⟨3, _⟩, hb => exact absurd rfl hb
    rw [Wh1_arr]
    exact ((dat0 (Vh0 m ρ) c).arrAt_in w hin _).trans (A_eq0 (Vh0 m ρ) c w)
  · exact Wh1_of_ne m ρ c b fun w e => h ⟨w, e⟩

theorem Wh2_keep (c : Dev nD) (b : Ref sig .tc) (hb : b ∉ hostOps1_W) :
    Wh2 m ρ c (Proc.devRef .tc b) = Wh1 m ρ c (Proc.devRef .tc b) :=
  StableHlo.after_of_writes_sub hostOps1 _ hostOps1_writes hb

/-- Region 1 leaves every buffer but its output array `main_v5` as it found it: an input window's array is
    never written, and a buffer no window stages is not the region's to touch. -/
theorem Wh3_keep (c : Dev nD) (b : Ref sig .tc) (hb : b ≠ main_v5) :
    Wh3 m ρ c (Proc.devRef .tc b) = Wh2 m ρ c (Proc.devRef .tc b) := by
  by_cases h : ∃ w, Pipeline.arrRef spec1 w = b
  · obtain ⟨w, rfl⟩ := h
    have hin : (cfg1.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, hb => exact absurd rfl hb
    rw [Wh3_arr]
    exact ((dat1 (Vh2 m ρ) c).arrAt_in w hin _).trans (A_eq1 (Vh2 m ρ) c w)
  · exact Wh3_of_ne m ρ c b fun w e => h ⟨w, e⟩

/-- Region 2 leaves every buffer but its output array `main_v6` as it found it: an input window's array is
    never written, and a buffer no window stages is not the region's to touch. -/
theorem Wh4_keep (c : Dev nD) (b : Ref sig .tc) (hb : b ≠ main_v6) :
    Wh4 m ρ c (Proc.devRef .tc b) = Wh3 m ρ c (Proc.devRef .tc b) := by
  by_cases h : ∃ w, Pipeline.arrRef spec2 w = b
  · obtain ⟨w, rfl⟩ := h
    have hin : (cfg2.win w).isOut = false := by
      match w, hb with
      | ⟨0, _⟩, _ => rfl
      | ⟨1, _⟩, _ => rfl
      | ⟨2, _⟩, _ => rfl
      | ⟨3, _⟩, _ => rfl
      | ⟨4, _⟩, hb => exact absurd rfl hb
    rw [Wh4_arr]
    exact ((dat2 (Vh3 m ρ) c).arrAt_in w hin _).trans (A_eq2 (Vh3 m ρ) c w)
  · exact Wh4_of_ne m ρ c b fun w e => h ⟨w, e⟩

theorem Wh5_keep (c : Dev nD) (b : Ref sig .tc) (hb : b ∉ hostOps3_W) :
    Wh5 m ρ c (Proc.devRef .tc b) = Wh4 m ρ c (Proc.devRef .tc b) :=
  StableHlo.after_of_writes_sub hostOps3 _ hostOps3_writes hb

/-- Region 3 leaves every buffer but its output array `main_v9` as it found it: an input window's array is
    never written, and a buffer no window stages is not the region's to touch. -/
theorem Wh6_keep (c : Dev nD) (b : Ref sig .tc) (hb : b ≠ main_v9) :
    Wh6 m ρ c (Proc.devRef .tc b) = Wh5 m ρ c (Proc.devRef .tc b) := by
  by_cases h : ∃ w, Pipeline.arrRef spec3 w = b
  · obtain ⟨w, rfl⟩ := h
    have hin : (cfg3.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, hb => exact absurd rfl hb
    rw [Wh6_arr]
    exact ((dat3 (Vh5 m ρ) c).arrAt_in w hin _).trans (A_eq3 (Vh5 m ρ) c w)
  · exact Wh6_of_ne m ρ c b fun w e => h ⟨w, e⟩

/-- A buffer that no host operation writes and no region puts out ends as launched: every argument array is one. -/
theorem Wh6_launch (c : Dev nD) (b : Ref sig .tc)
    (hb : b ∉ ([main_v0, main_v1, main_v2, main_v3, main_v4, main_v5, main_v6, main_v7, main_v8, main_v9] : List (Ref sig .tc))) :
    Wh6 m ρ c (Proc.devRef .tc b) = m ((c : Thread nD τ).loc b) := by
  simp only [List.mem_cons, List.not_mem_nil, or_false, not_or] at hb
  obtain ⟨h0, h1, h2, h3, h4, h5, h6, h7, h8, h9⟩ := hb
  calc Wh6 m ρ c (Proc.devRef .tc b)
    _ = Wh5 m ρ c (Proc.devRef .tc b) := Wh6_keep m ρ c b h9
    _ = Wh4 m ρ c (Proc.devRef .tc b) := Wh5_keep m ρ c b (by simp only [hostOps3_W, List.mem_cons, List.not_mem_nil, or_false, not_or]; exact ⟨h7, h8⟩)
    _ = Wh3 m ρ c (Proc.devRef .tc b) := Wh4_keep m ρ c b h6
    _ = Wh2 m ρ c (Proc.devRef .tc b) := Wh3_keep m ρ c b h5
    _ = Wh1 m ρ c (Proc.devRef .tc b) := Wh2_keep m ρ c b (by simp only [hostOps1_W, List.mem_cons, List.not_mem_nil, or_false, not_or]; exact ⟨h1, h2, h3, h4⟩)
    _ = Wh0 m ρ c (Proc.devRef .tc b) := Wh1_keep m ρ c b h0
    _ = m ((c : Thread nD τ).loc b) := rfl

/-- The result buffer ends at what region 3's write-back leaves in its output array. -/
theorem Wh6_result (c : Dev nD) : Wh6 m ρ c (Proc.devRef .tc main_v9) = (dat3 (Vh5 m ρ) c).arrAt 5 cfg3.N :=
  Wh6_arr m ρ c 5

end Cert.Kernel.Hand

end
-- ==== Proof.Claims.lean ====
/- The three frame claims and the idealization's one ledger entry. Each kernel program's frame is read off its
   run: the run ends with every unscoped buffer at the last contents of the fold through @main, and no item of
   @main writes an argument array, so each argument's buffer is as launched. The reference has no kernel: its
   frame is its run with the result forgotten. The ledger's entry says that the named reciprocal of the number of
   nodes denotes the rational 1/10000 at the ideal instance. -/
import proofs.«163911_g13984413516055_cont_sun_m_56_12_alg».proof.Defs
import proofs.«163911_g13984413516055_cont_sun_m_56_12_alg».proof.Proof.Gen.Kernel
import proofs.«163911_g13984413516055_cont_sun_m_56_12_alg».proof.Proof.Gen.KernelIdeal
import proofs.«163911_g13984413516055_cont_sun_m_56_12_alg».proof.Proof.Gen.ReferenceIdeal
import proofs.«163911_g13984413516055_cont_sun_m_56_12_alg».proof.Proof.Gen.Pre_finite_inputs
import proofs.«163911_g13984413516055_cont_sun_m_56_12_alg».proof.Proof.Gen.ReferenceIdeal.Run
import proofs.«163911_g13984413516055_cont_sun_m_56_12_alg».proof.Proof.Run
import proofs.«163911_g13984413516055_cont_sun_m_56_12_alg».proof.Proof.Word.Run

set_option maxRecDepth 16384

noncomputable section

namespace Cert.Proof.Claims

open Idealize.ShloMosaic Idealize.ShloMosaic.TcCoe Idealize.SL.Sem

/-- The word-level program runs to the end, faults nowhere, and leaves every argument array as launched. -/
theorem frame_k : Cert.frame_Kernel := fun m ρ _ =>
  (θ_run (Cert.Kernel.defs (F := Bits)) _ _).mono (fun r h c =>
    ⟨(h c _ (Cert.Kernel.Hand.hmem_uc Cert.Kernel.main_arg0 (by decide))).trans (Cert.Kernel.Hand.Wh6_launch m ρ c Cert.Kernel.main_arg0 (by decide)),
      (h c _ (Cert.Kernel.Hand.hmem_uc Cert.Kernel.main_arg1 (by decide))).trans (Cert.Kernel.Hand.Wh6_launch m ρ c Cert.Kernel.main_arg1 (by decide)),
      (h c _ (Cert.Kernel.Hand.hmem_uc Cert.Kernel.main_arg2 (by decide))).trans (Cert.Kernel.Hand.Wh6_launch m ρ c Cert.Kernel.main_arg2 (by decide)),
      (h c _ (Cert.Kernel.Hand.hmem_uc Cert.Kernel.main_arg3 (by decide))).trans (Cert.Kernel.Hand.Wh6_launch m ρ c Cert.Kernel.main_arg3 (by decide)),
      (h c _ (Cert.Kernel.Hand.hmem_uc Cert.Kernel.main_arg4 (by decide))).trans (Cert.Kernel.Hand.Wh6_launch m ρ c Cert.Kernel.main_arg4 (by decide)),
      (h c _ (Cert.Kernel.Hand.hmem_uc Cert.Kernel.main_arg5 (by decide))).trans (Cert.Kernel.Hand.Wh6_launch m ρ c Cert.Kernel.main_arg5 (by decide)),
      (h c _ (Cert.Kernel.Hand.hmem_uc Cert.Kernel.main_arg6 (by decide))).trans (Cert.Kernel.Hand.Wh6_launch m ρ c Cert.Kernel.main_arg6 (by decide)),
      (h c _ (Cert.Kernel.Hand.hmem_uc Cert.Kernel.main_arg7 (by decide))).trans (Cert.Kernel.Hand.Wh6_launch m ρ c Cert.Kernel.main_arg7 (by decide)),
      (h c _ (Cert.Kernel.Hand.hmem_uc Cert.Kernel.main_arg8 (by decide))).trans (Cert.Kernel.Hand.Wh6_launch m ρ c Cert.Kernel.main_arg8 (by decide)),
      (h c _ (Cert.Kernel.Hand.hmem_uc Cert.Kernel.main_arg9 (by decide))).trans (Cert.Kernel.Hand.Wh6_launch m ρ c Cert.Kernel.main_arg9 (by decide)),
      (h c _ (Cert.Kernel.Hand.hmem_uc Cert.Kernel.main_arg10 (by decide))).trans (Cert.Kernel.Hand.Wh6_launch m ρ c Cert.Kernel.main_arg10 (by decide)),
      (h c _ (Cert.Kernel.Hand.hmem_uc Cert.Kernel.main_arg11 (by decide))).trans (Cert.Kernel.Hand.Wh6_launch m ρ c Cert.Kernel.main_arg11 (by decide))⟩)
    (Cert.Kernel.Hand.run_all (F := Bits) m ρ)

/-- The idealized program runs to the end, faults nowhere, and leaves every argument array as launched. -/
theorem frame_ki : Cert.frame_KernelIdeal := fun m ρ _ =>
  (θ_run (Cert.KernelIdeal.defs (F := Ideal)) _ _).mono (fun r h c =>
    ⟨(h c _ (Cert.KernelIdeal.Hand.hmem_uc Cert.KernelIdeal.main_arg0 (by decide))).trans (Cert.KernelIdeal.Hand.Wh6_launch m ρ c Cert.KernelIdeal.main_arg0 (by decide)),
      (h c _ (Cert.KernelIdeal.Hand.hmem_uc Cert.KernelIdeal.main_arg1 (by decide))).trans (Cert.KernelIdeal.Hand.Wh6_launch m ρ c Cert.KernelIdeal.main_arg1 (by decide)),
      (h c _ (Cert.KernelIdeal.Hand.hmem_uc Cert.KernelIdeal.main_arg2 (by decide))).trans (Cert.KernelIdeal.Hand.Wh6_launch m ρ c Cert.KernelIdeal.main_arg2 (by decide)),
      (h c _ (Cert.KernelIdeal.Hand.hmem_uc Cert.KernelIdeal.main_arg3 (by decide))).trans (Cert.KernelIdeal.Hand.Wh6_launch m ρ c Cert.KernelIdeal.main_arg3 (by decide)),
      (h c _ (Cert.KernelIdeal.Hand.hmem_uc Cert.KernelIdeal.main_arg4 (by decide))).trans (Cert.KernelIdeal.Hand.Wh6_launch m ρ c Cert.KernelIdeal.main_arg4 (by decide)),
      (h c _ (Cert.KernelIdeal.Hand.hmem_uc Cert.KernelIdeal.main_arg5 (by decide))).trans (Cert.KernelIdeal.Hand.Wh6_launch m ρ c Cert.KernelIdeal.main_arg5 (by decide)),
      (h c _ (Cert.KernelIdeal.Hand.hmem_uc Cert.KernelIdeal.main_arg6 (by decide))).trans (Cert.KernelIdeal.Hand.Wh6_launch m ρ c Cert.KernelIdeal.main_arg6 (by decide)),
      (h c _ (Cert.KernelIdeal.Hand.hmem_uc Cert.KernelIdeal.main_arg7 (by decide))).trans (Cert.KernelIdeal.Hand.Wh6_launch m ρ c Cert.KernelIdeal.main_arg7 (by decide)),
      (h c _ (Cert.KernelIdeal.Hand.hmem_uc Cert.KernelIdeal.main_arg8 (by decide))).trans (Cert.KernelIdeal.Hand.Wh6_launch m ρ c Cert.KernelIdeal.main_arg8 (by decide)),
      (h c _ (Cert.KernelIdeal.Hand.hmem_uc Cert.KernelIdeal.main_arg9 (by decide))).trans (Cert.KernelIdeal.Hand.Wh6_launch m ρ c Cert.KernelIdeal.main_arg9 (by decide)),
      (h c _ (Cert.KernelIdeal.Hand.hmem_uc Cert.KernelIdeal.main_arg10 (by decide))).trans (Cert.KernelIdeal.Hand.Wh6_launch m ρ c Cert.KernelIdeal.main_arg10 (by decide)),
      (h c _ (Cert.KernelIdeal.Hand.hmem_uc Cert.KernelIdeal.main_arg11 (by decide))).trans (Cert.KernelIdeal.Hand.Wh6_launch m ρ c Cert.KernelIdeal.main_arg11 (by decide))⟩)
    (Cert.KernelIdeal.Hand.run_all (F := Ideal) m ρ)

/-- The reference runs to the end and leaves every argument array as launched. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the literal 9.99999974·10⁻⁵ is the name of 1/10000. -/
theorem preserves : Cert.preserves_Kernel_KernelIdeal :=
  IdealRules.named_const.statement Cert.KernelIdeal.κ "inv_10000" .f32 0x38D1B717#32 ((1 / 10000 : ℝ) : EReal) rfl

end Cert.Proof.Claims

end
-- ==== Proof.Spec.lean ====
/-
  The mathematics of the claim, with no program in sight: tables of extended reals indexed by plain
  coordinates, the two layers of complex propagation in the two arrangements the claim compares, the
  column means, and the dense head with its softmax.

  One layer takes node features x = x_r + i x_i (N rows, C columns), a complex propagation matrix
  L = L_r + i L_i (N by N), a real weight W (C by C) and a bias b, and forms z = (L x) W + b, that is
    Re z = (L_r x_r - L_i x_i) W + b,      Im z = (L_r x_i + L_i x_r) W + b,
  then keeps both parts of an entry where Re z ≥ 0 and replaces both by 0 elsewhere. The FIRST
  arrangement ('ref…') multiplies by W last and masks by multiplying with the 0/1 indicator; the SECOND
  ('ker…') multiplies x by W first, u = x W, propagates u, Re z = (L_r u_r - L_i u_i) + b, and masks by
  selection. On real entries the two agree, by associativity and distributivity of finite sums.
-/
import Idealize.ShloMosaic.PureOps.Ideal
import Mathlib.Algebra.BigOperators.Fin

noncomputable section

open scoped BigOperators

namespace Cert.Spec

open Idealize.ShloMosaic

/-- An a-by-b table of extended reals. -/
abbrev Tab (a b : Nat) := Fin a → Fin b → EReal
/-- A row of a extended reals. -/
abbrev Row (a : Nat) := Fin a → EReal

/-- The product of two tables: entry (i, j) is the sum over the shared axis of l(i,t) · r(t,j). -/
def mm {a k b : Nat} (l : Tab a k) (r : Tab k b) : Tab a b := fun i j => ∑ t : Fin k, l i t * r t j

/-- The 0/1 indicator of z ≥ 0. -/
def ind (z : EReal) : EReal := if 0 ≤ z then 1 else 0

/-- The reciprocal of the number of nodes, as the real 1/10000. -/
def invN : EReal := ((1 / 10000 : ℝ) : EReal)

/-- The left and the right half of a table of 256 columns, and of a row of 256 entries. -/
def lo {n : Nat} (u : Tab n 256) : Tab n 128 := fun i j => u i ⟨j.val, by omega⟩
def hi {n : Nat} (u : Tab n 256) : Tab n 128 := fun i j => u i ⟨j.val + 128, by omega⟩
def loRow (b : Row 256) : Row 128 := fun j => b ⟨j.val, by omega⟩
def hiRow (b : Row 256) : Row 128 := fun j => b ⟨j.val + 128, by omega⟩

/-- Two tables of 128 columns side by side, and two rows of 128 entries end to end. -/
def cat {n : Nat} (x y : Tab n 128) : Tab n 256 :=
  fun i t => if h : t.val < 128 then x i ⟨t.val, h⟩ else y i ⟨t.val - 128, by omega⟩
def catRow (x y : Row 128) : Row 256 :=
  fun t => if h : t.val < 128 then x ⟨t.val, h⟩ else y ⟨t.val - 128, by omega⟩

/-! ## One layer, weight last, masked by the indicator -/

section Layer
variable {N C : Nat} (Lr Li : Tab N N)

def refRe (xr xi : Tab N C) (W : Tab C C) (b : Row C) : Tab N C :=
  fun i j => mm (fun p q => mm Lr xr p q - mm Li xi p q) W i j + b j
def refIm (xr xi : Tab N C) (W : Tab C C) (b : Row C) : Tab N C :=
  fun i j => mm (fun p q => mm Lr xi p q + mm Li xr p q) W i j + b j
def refOutRe (xr xi : Tab N C) (W : Tab C C) (b : Row C) : Tab N C :=
  fun i j => refRe Lr Li xr xi W b i j * ind (refRe Lr Li xr xi W b i j)
def refOutIm (xr xi : Tab N C) (W : Tab C C) (b : Row C) : Tab N C :=
  fun i j => refIm Lr Li xr xi W b i j * ind (refRe Lr Li xr xi W b i j)

/-! ## One layer, weight first (u = x W given), masked by selection; the two parts may carry two biases -/

def kerRe (ur ui : Tab N C) (br : Row C) : Tab N C :=
  fun i j => (mm Lr ur i j - mm Li ui i j) + br j
def kerIm (ur ui : Tab N C) (bi : Row C) : Tab N C :=
  fun i j => (mm Lr ui i j + mm Li ur i j) + bi j
def kerOutRe (ur ui : Tab N C) (br : Row C) : Tab N C :=
  fun i j => if 0 ≤ kerRe Lr Li ur ui br i j then kerRe Lr Li ur ui br i j else 0
def kerOutIm (ur ui : Tab N C) (br bi : Row C) : Tab N C :=
  fun i j => if 0 ≤ kerRe Lr Li ur ui br i j then kerIm Lr Li ur ui bi i j else 0
end Layer

/-! ## The four stages of the second arrangement, each a function of what the stage before left -/

/-- Stage 0: u = [x_r W | x_i W]. -/
def stage0 (xr xi : Tab 10000 128) (W : Tab 128 128) : Tab 10000 256 := cat (mm xr W) (mm xi W)

/-- Stage 1: from u = [u_r | u_i] and the doubled bias bc = [b | b], the masked layer, then times the
    next weight, side by side. -/
def stage1 (Lr Li : Tab 10000 10000) (u : Tab 10000 256) (bc : Row 256) (W : Tab 128 128) : Tab 10000 256 :=
  cat (mm (kerOutRe Lr Li (lo u) (hi u) (loRow bc)) W)
      (mm (kerOutIm Lr Li (lo u) (hi u) (loRow bc) (hiRow bc)) W)

/-- The masked second layer, real and imaginary parts side by side. -/
def layer2 (Lr Li : Tab 10000 10000) (u : Tab 10000 256) (bc : Row 256) : Tab 10000 256 :=
  cat (kerOutRe Lr Li (lo u) (hi u) (loRow bc)) (kerOutIm Lr Li (lo u) (hi u) (loRow bc) (hiRow bc))

/-- Row 200·p + 8·a + s of 10000, for block p of 50, group a of 25, residue s of 8. -/
def rowOf (p : Fin 50) (a : Fin 25) (s : Fin 8) : Fin 10000 := ⟨200 * p.val + 8 * a.val + s.val, by omega⟩

/-- The partial column sums of block p: for each residue s of 8, the sum over the block's 25 groups. -/
def part (X : Tab 10000 256) (p : Fin 50) : Tab 8 256 := fun s t => ∑ a : Fin 25, X (rowOf p a s) t

/-- Stage 2: the partial sums of the 50 blocks added up, residue by residue. -/
def stage2 (Lr Li : Tab 10000 10000) (u : Tab 10000 256) (bc : Row 256) : Tab 8 256 :=
  fun s t => ∑ p : Fin 50, part (layer2 Lr Li u bc) p s t

/-- The maximum of a row, from the bottom element. -/
def rowMax {n : Nat} (z : Row n) : EReal := (Finset.univ : Finset (Fin n)).fold max ⊥ z

/-- The head: a dense layer clipped at 0 from below, a second dense layer, and the softmax of its row. -/
def head (g : Row 256) (A : Tab 256 128) (a : Row 128) (B : Tab 128 10) (b : Row 10) : Row 10 :=
  let h : Row 128 := fun j => max ((∑ t : Fin 256, g t * A t j) + a j) 0
  let z : Row 10 := fun k => (∑ t : Fin 128, h t * B t k) + b k
  let e : Row 10 := fun k => Ideal.exp (z k - rowMax z)
  fun k => Ideal.div (e k) (∑ t : Fin 10, e t)

/-- Stage 3: the eight residues added, times 1/10000, through the head. -/
def stage3 (G : Tab 8 256) (A : Tab 256 128) (a : Row 128) (B : Tab 128 10) (b : Row 10) : Row 10 :=
  head (fun t => (∑ s : Fin 8, G s t) * invN) A a B b

/-- The second arrangement end to end. -/
def kerResult (xr xi : Tab 10000 128) (Lr Li : Tab 10000 10000) (W0 : Tab 128 128) (b0 : Row 128)
    (W1 : Tab 128 128) (b1 : Row 128) (A : Tab 256 128) (a : Row 128) (B : Tab 128 10) (b : Row 10) : Row 10 :=
  stage3 (stage2 Lr Li (stage1 Lr Li (stage0 xr xi W0) (catRow b0 b0) W1) (catRow b1 b1)) A a B b

/-! ## The first arrangement end to end -/

/-- The mean of each column: the sum over the 10000 rows divided by 10000. -/
def colMean (x : Tab 10000 128) : Row 128 := fun j => Ideal.div (∑ i : Fin 10000, x i j) ((10000 : ℝ) : EReal)

def refResult (xr xi : Tab 10000 128) (Lr Li : Tab 10000 10000) (W0 : Tab 128 128) (b0 : Row 128)
    (W1 : Tab 128 128) (b1 : Row 128) (A : Tab 256 128) (a : Row 128) (B : Tab 128 10) (b : Row 10) : Row 10 :=
  let x1r := refOutRe Lr Li xr xi W0 b0
  let x1i := refOutIm Lr Li xr xi W0 b0
  let x2r := refOutRe Lr Li x1r x1i W1 b1
  let x2i := refOutIm Lr Li x1r x1i W1 b1
  head (catRow (colMean x2r) (colMean x2i)) A a B b

/-- A table, or a row, all of whose entries are real numbers. -/
def RealTab {a b : Nat} (x : Tab a b) : Prop := ∀ i j, ∃ r : ℝ, x i j = (r : EReal)
def RealRow {a : Nat} (x : Row a) : Prop := ∀ i, ∃ r : ℝ, x i = (r : EReal)

end Cert.Spec

end
-- ==== Proof.RefLayer.lean ====
/-
  The reference's two layers of complex propagation, its column means and their joining, each read at
  an index and identified with the plain-coordinate mathematics of the specification: the product of
  tables as a sum over the shared axis, Re z and Im z of a layer with the weight applied last, the
  0/1 indicator of Re z ≥ 0 as the mask, and the mean of a column as its sum divided by 10000.

  The second layer is the first layer's function applied to the first layer's two outputs (the same
  operations on different operands), so one set of stage lemmas serves both.
-/
import proofs.«163911_g13984413516055_cont_sun_m_56_12_alg».proof.Proof.Gen.ReferenceIdeal.Read
import proofs.«163911_g13984413516055_cont_sun_m_56_12_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.StableHlo
open Idealize.ShloMosaic.ValueIdx Cert.Spec

/-- A rank-2 index is determined by its two coordinates. -/
theorem idx_eq_ix2 {n0 n1 : Nat} (f : (⟨2, ![n0, n1]⟩ : Shape).Idx) (a : Fin n0) (b : Fin n1)
    (h0 : (f ⟨0, Nat.zero_lt_two⟩).val = a.val) (h1 : (f ⟨1, Nat.one_lt_two⟩).val = b.val) : f = ix2 a b :=
  funext fun d => Fin.ext (by match d with | ⟨0, _⟩ => exact h0 | ⟨1, _⟩ => exact h1)

/-- A rank-1 index is determined by its coordinate. -/
theorem idx_eq_ix1 {n : Nat} (f : (⟨1, ![n]⟩ : Shape).Idx) (a : Fin n)
    (h0 : (f ⟨0, Nat.one_pos⟩).val = a.val) : f = ix1 a :=
  funext fun d => Fin.ext (by match d with | ⟨0, _⟩ => exact h0)

/-- The propagation product L·x at (p, q). -/
theorem v0_ix2 (x : FVec Ideal S10000x128 .f32) (L : FVec Ideal S10000x10000 .f32) (p : Fin 10000) (q : Fin 128) :
    val_main_v0 (F := Ideal) x L (ix2 p q) = mm (fun p q => L (ix2 p q)) (fun p q => x (ix2 p q)) p q := by
  rw [val_main_v0_apply]
  refine Finset.sum_congr rfl fun k _ => ?_
  rw [idx_eq_ix2 (lidx_main_v0 (ix2 p q) k) p k rfl rfl, idx_eq_ix2 (ridx_main_v0 (ix2 p q) k) k q rfl rfl]

theorem v1_ix2 (x : FVec Ideal S10000x128 .f32) (L : FVec Ideal S10000x10000 .f32) (p : Fin 10000) (q : Fin 128) :
    val_main_v1 (F := Ideal) x L (ix2 p q) = mm (fun p q => L (ix2 p q)) (fun p q => x (ix2 p q)) p q := v0_ix2 x L p q
theorem v3_ix2 (x : FVec Ideal S10000x128 .f32) (L : FVec Ideal S10000x10000 .f32) (p : Fin 10000) (q : Fin 128) :
    val_main_v3 (F := Ideal) x L (ix2 p q) = mm (fun p q => L (ix2 p q)) (fun p q => x (ix2 p q)) p q := v0_ix2 x L p q
theorem v4_ix2 (x : FVec Ideal S10000x128 .f32) (L : FVec Ideal S10000x10000 .f32) (p : Fin 10000) (q : Fin 128) :
    val_main_v4 (F := Ideal) x L (ix2 p q) = mm (fun p q => L (ix2 p q)) (fun p q => x (ix2 p q)) p q := v0_ix2 x L p q

/-- The 0/1 word of "z ≥ 0" read back as a float is the indicator of z ≥ 0. -/
theorem mask_eq (z : EReal) :
    FloatOps.uitofp (F := Ideal) .f32 (FloatOps.cmpf (F := Ideal) (φ := .f32) .oge z (FloatOps.ofBits (F := Ideal) .f32 0x00000000#32)) = ind z := by
  rw [Ideal.ofBits_def, Ideal.ofBits_zero_f32, Ideal.cmpf_def]
  unfold ind Ideal.cmp
  show (((BitVec.ofBool (decide ((0 : EReal) ≤ z))).toNat : ℝ) : EReal) = _
  by_cases h : (0 : EReal) ≤ z
  · simp [h]
  · simp [h]

section Layer
variable (x0 x1 : FVec Ideal S10000x128 .f32) (x2 x3 : FVec Ideal S10000x10000 .f32) (x4 : FVec Ideal S128x128 .f32)
  (x5 : FVec Ideal S128 .f32)

theorem v2_ix2 (p : Fin 10000) (q : Fin 128) :
    val_main_v2 (F := Ideal) x0 x1 x2 x3 (ix2 p q)
      = mm (fun p q => x2 (ix2 p q)) (fun p q => x0 (ix2 p q)) p q - mm (fun p q => x3 (ix2 p q)) (fun p q => x1 (ix2 p q)) p q := by
  rw [val_main_v2_apply, Ideal.subf_def, v0_ix2, v1_ix2]

theorem v5_ix2 (p : Fin 10000) (q : Fin 128) :
    val_main_v5 (F := Ideal) x0 x1 x2 x3 (ix2 p q)
      = mm (fun p q => x2 (ix2 p q)) (fun p q => x1 (ix2 p q)) p q + mm (fun p q => x3 (ix2 p q)) (fun p q => x0 (ix2 p q)) p q := by
  rw [val_main_v5_apply, Ideal.addf_def, v3_ix2, v4_ix2]

theorem v6_ix2 (p : Fin 10000) (q : Fin 128) :
    val_main_v6 (F := Ideal) x0 x1 x2 x3 x4 (ix2 p q)
      = mm (fun p q => mm (fun p q => x2 (ix2 p q)) (fun p q => x0 (ix2 p q)) p q - mm (fun p q => x3 (ix2 p q)) (fun p q => x1 (ix2 p q)) p q) (fun p q => x4 (ix2 p q)) p q := by
  rw [val_main_v6_apply]
  refine Finset.sum_congr rfl fun k _ => ?_
  rw [idx_eq_ix2 (lidx_main_v6 (ix2 p q) k) p k rfl rfl, idx_eq_ix2 (ridx_main_v6 (ix2 p q) k) k q rfl rfl, v2_ix2]

theorem v10_ix2 (p : Fin 10000) (q : Fin 128) :
    val_main_v10 (F := Ideal) x0 x1 x2 x3 x4 (ix2 p q)
      = mm (fun p q => mm (fun p q => x2 (ix2 p q)) (fun p q => x1 (ix2 p q)) p q + mm (fun p q => x3 (ix2 p q)) (fun p q => x0 (ix2 p q)) p q) (fun p q => x4 (ix2 p q)) p q := by
  rw [val_main_v10_apply]
  refine Finset.sum_congr rfl fun k _ => ?_
  rw [idx_eq_ix2 (lidx_main_v10 (ix2 p q) k) p k rfl rfl, idx_eq_ix2 (ridx_main_v10 (ix2 p q) k) k q rfl rfl, v5_ix2]

/-- The bias vector spread over the rows, at (p, q), is its entry q. -/
theorem v8_ix2 (p : Fin 10000) (q : Fin 128) : val_main_v8 (F := Ideal) x5 (ix2 p q) = x5 (ix1 q) := by
  rw [val_main_v8_apply, val_main_v7_apply]
  exact congrArg x5 (idx_eq_ix1 _ q rfl)

theorem v12_ix2 (p : Fin 10000) (q : Fin 128) : val_main_v12 (F := Ideal) x5 (ix2 p q) = x5 (ix1 q) := by
  rw [val_main_v12_apply, val_main_v11_apply]
  exact congrArg x5 (idx_eq_ix1 _ q rfl)

/-- Re z of one layer at (p, q). -/
theorem v9_ix2 (p : Fin 10000) (q : Fin 128) :
    val_main_v9 (F := Ideal) x0 x1 x2 x3 x4 x5 (ix2 p q) = refRe (fun p q => x2 (ix2 p q)) (fun p q => x3 (ix2 p q)) (fun p q => x0 (ix2 p q)) (fun p q => x1 (ix2 p q)) (fun p q => x4 (ix2 p q)) (fun p => x5 (ix1 p)) p q := by
  rw [val_main_v9_apply, Ideal.addf_def, v6_ix2, v8_ix2]
  rfl

/-- Im z of one layer at (p, q). -/
theorem v13_ix2 (p : Fin 10000) (q : Fin 128) :
    val_main_v13 (F := Ideal) x0 x1 x2 x3 x4 x5 (ix2 p q) = refIm (fun p q => x2 (ix2 p q)) (fun p q => x3 (ix2 p q)) (fun p q => x0 (ix2 p q)) (fun p q => x1 (ix2 p q)) (fun p q => x4 (ix2 p q)) (fun p => x5 (ix1 p)) p q := by
  rw [val_main_v13_apply, Ideal.addf_def, v10_ix2, v12_ix2]
  rfl

/-- The mask of one layer at (p, q): the indicator of Re z ≥ 0. -/
theorem v16_ix2 (p : Fin 10000) (q : Fin 128) :
    val_main_v16 (F := Ideal) x0 x1 x2 x3 x4 x5 (ix2 p q) = ind (refRe (fun p q => x2 (ix2 p q)) (fun p q => x3 (ix2 p q)) (fun p q => x0 (ix2 p q)) (fun p q => x1 (ix2 p q)) (fun p q => x4 (ix2 p q)) (fun p => x5 (ix1 p)) p q) := by
  rw [val_main_v16_apply, val_main_v15_apply, val_main_v14_apply, val_main_cst_apply, v9_ix2]
  exact mask_eq _

/-- The masked real part of one layer at (p, q). -/
theorem v17_ix2 (p : Fin 10000) (q : Fin 128) :
    val_main_v17 (F := Ideal) x0 x1 x2 x3 x4 x5 (ix2 p q) = refOutRe (fun p q => x2 (ix2 p q)) (fun p q => x3 (ix2 p q)) (fun p q => x0 (ix2 p q)) (fun p q => x1 (ix2 p q)) (fun p q => x4 (ix2 p q)) (fun p => x5 (ix1 p)) p q := by
  rw [val_main_v17_apply, Ideal.mulf_def, v9_ix2, v16_ix2]
  rfl

/-- The masked imaginary part of one layer at (p, q). -/
theorem v18_ix2 (p : Fin 10000) (q : Fin 128) :
    val_main_v18 (F := Ideal) x0 x1 x2 x3 x4 x5 (ix2 p q) = refOutIm (fun p q => x2 (ix2 p q)) (fun p q => x3 (ix2 p q)) (fun p q => x0 (ix2 p q)) (fun p q => x1 (ix2 p q)) (fun p q => x4 (ix2 p q)) (fun p => x5 (ix1 p)) p q := by
  rw [val_main_v18_apply, Ideal.mulf_def, v13_ix2, v16_ix2]
  rfl

end Layer

/-- The float pattern of the divisor denotes the real 10000. -/
theorem ofBits_10000 : Ideal.ofBits .f32 0x461C4000#32 = ((10000 : ℝ) : EReal) := by
  simp [Ideal.ofBits, Ideal.ieee, -EReal.coe_mul]; norm_num

section Layer2
variable (x0 x1 : FVec Ideal S10000x128 .f32) (x2 x3 : FVec Ideal S10000x10000 .f32) (x4 : FVec Ideal S128x128 .f32)
  (x5 : FVec Ideal S128 .f32) (x6 : FVec Ideal S128x128 .f32) (x7 : FVec Ideal S128 .f32)

/-- The second layer is the first layer's function applied to the first layer's two outputs. -/
theorem v36_eq : val_main_v36 (F := Ideal) x0 x1 x2 x3 x4 x5 x6 x7
    = val_main_v17 (F := Ideal) (val_main_v17 (F := Ideal) x0 x1 x2 x3 x4 x5) (val_main_v18 (F := Ideal) x0 x1 x2 x3 x4 x5) x2 x3 x6 x7 := rfl
theorem v37_eq : val_main_v37 (F := Ideal) x0 x1 x2 x3 x4 x5 x6 x7
    = val_main_v18 (F := Ideal) (val_main_v17 (F := Ideal) x0 x1 x2 x3 x4 x5) (val_main_v18 (F := Ideal) x0 x1 x2 x3 x4 x5) x2 x3 x6 x7 := rfl

theorem v17_tab : (fun p q => val_main_v17 (F := Ideal) x0 x1 x2 x3 x4 x5 (ix2 p q)) = refOutRe (fun p q => x2 (ix2 p q)) (fun p q => x3 (ix2 p q)) (fun p q => x0 (ix2 p q)) (fun p q => x1 (ix2 p q)) (fun p q => x4 (ix2 p q)) (fun p => x5 (ix1 p)) :=
  funext fun p => funext fun q => v17_ix2 x0 x1 x2 x3 x4 x5 p q
theorem v18_tab : (fun p q => val_main_v18 (F := Ideal) x0 x1 x2 x3 x4 x5 (ix2 p q)) = refOutIm (fun p q => x2 (ix2 p q)) (fun p q => x3 (ix2 p q)) (fun p q => x0 (ix2 p q)) (fun p q => x1 (ix2 p q)) (fun p q => x4 (ix2 p q)) (fun p => x5 (ix1 p)) :=
  funext fun p => funext fun q => v18_ix2 x0 x1 x2 x3 x4 x5 p q

/-- The masked real part after two layers at (p, q). -/
theorem v36_ix2 (p : Fin 10000) (q : Fin 128) :
    val_main_v36 (F := Ideal) x0 x1 x2 x3 x4 x5 x6 x7 (ix2 p q) = refOutRe (fun p q => x2 (ix2 p q)) (fun p q => x3 (ix2 p q)) (refOutRe (fun p q => x2 (ix2 p q)) (fun p q => x3 (ix2 p q)) (fun p q => x0 (ix2 p q)) (fun p q => x1 (ix2 p q)) (fun p q => x4 (ix2 p q)) (fun p => x5 (ix1 p))) (refOutIm (fun p q => x2 (ix2 p q)) (fun p q => x3 (ix2 p q)) (fun p q => x0 (ix2 p q)) (fun p q => x1 (ix2 p q)) (fun p q => x4 (ix2 p q)) (fun p => x5 (ix1 p))) (fun p q => x6 (ix2 p q)) (fun p => x7 (ix1 p)) p q := by
  rw [v36_eq, v17_ix2, v17_tab, v18_tab]

/-- The masked imaginary part after two layers at (p, q). -/
theorem v37_ix2 (p : Fin 10000) (q : Fin 128) :
    val_main_v37 (F := Ideal) x0 x1 x2 x3 x4 x5 x6 x7 (ix2 p q) = refOutIm (fun p q => x2 (ix2 p q)) (fun p q => x3 (ix2 p q)) (refOutRe (fun p q => x2 (ix2 p q)) (fun p q => x3 (ix2 p q)) (fun p q => x0 (ix2 p q)) (fun p q => x1 (ix2 p q)) (fun p q => x4 (ix2 p q)) (fun p => x5 (ix1 p))) (refOutIm (fun p q => x2 (ix2 p q)) (fun p q => x3 (ix2 p q)) (fun p q => x0 (ix2 p q)) (fun p q => x1 (ix2 p q)) (fun p q => x4 (ix2 p q)) (fun p => x5 (ix1 p))) (fun p q => x6 (ix2 p q)) (fun p => x7 (ix1 p)) p q := by
  rw [v37_eq, v18_ix2, v17_tab, v18_tab]

/-- The column means of the real part. -/
theorem v40_ix1 (j : Fin 128) :
    val_main_v40 (F := Ideal) x0 x1 x2 x3 x4 x5 x6 x7 (ix1 j) = colMean (refOutRe (fun p q => x2 (ix2 p q)) (fun p q => x3 (ix2 p q)) (refOutRe (fun p q => x2 (ix2 p q)) (fun p q => x3 (ix2 p q)) (fun p q => x0 (ix2 p q)) (fun p q => x1 (ix2 p q)) (fun p q => x4 (ix2 p q)) (fun p => x5 (ix1 p))) (refOutIm (fun p q => x2 (ix2 p q)) (fun p q => x3 (ix2 p q)) (fun p q => x0 (ix2 p q)) (fun p q => x1 (ix2 p q)) (fun p q => x4 (ix2 p q)) (fun p => x5 (ix1 p))) (fun p q => x6 (ix2 p q)) (fun p => x7 (ix1 p))) j := by
  rw [val_main_v40_apply, Ideal.hostDivf_def, val_main_v38_apply, val_main_cst_1_apply, val_main_v39_apply, val_main_cst_2_apply,
    Ideal.ofBits_def, Ideal.ofBits_def, Ideal.ofBits_zero_f32, ofBits_10000, zero_add]
  refine congrArg (fun s => Ideal.div s _) (Finset.sum_congr rfl fun k _ => ?_)
  rw [idx_eq_ix2 (idx_main_v38 (ix1 j) k) k j rfl rfl, v36_ix2]

/-- The column means of the imaginary part. -/
theorem v43_ix1 (j : Fin 128) :
    val_main_v43 (F := Ideal) x0 x1 x2 x3 x4 x5 x6 x7 (ix1 j) = colMean (refOutIm (fun p q => x2 (ix2 p q)) (fun p q => x3 (ix2 p q)) (refOutRe (fun p q => x2 (ix2 p q)) (fun p q => x3 (ix2 p q)) (fun p q => x0 (ix2 p q)) (fun p q => x1 (ix2 p q)) (fun p q => x4 (ix2 p q)) (fun p => x5 (ix1 p))) (refOutIm (fun p q => x2 (ix2 p q)) (fun p q => x3 (ix2 p q)) (fun p q => x0 (ix2 p q)) (fun p q => x1 (ix2 p q)) (fun p q => x4 (ix2 p q)) (fun p => x5 (ix1 p))) (fun p q => x6 (ix2 p q)) (fun p => x7 (ix1 p))) j := by
  rw [val_main_v43_apply, Ideal.hostDivf_def, val_main_v41_apply, val_main_cst_3_apply, val_main_v42_apply, val_main_cst_4_apply,
    Ideal.ofBits_def, Ideal.ofBits_def, Ideal.ofBits_zero_f32, ofBits_10000, zero_add]
  refine congrArg (fun s => Ideal.div s _) (Finset.sum_congr rfl fun k _ => ?_)
  rw [idx_eq_ix2 (idx_main_v41 (ix1 j) k) k j rfl rfl, v37_ix2]

/-- The two rows of means end to end. -/
theorem v44_ix1 (t : Fin 256) :
    val_main_v44 (F := Ideal) x0 x1 x2 x3 x4 x5 x6 x7 (ix1 t)
      = catRow (colMean (refOutRe (fun p q => x2 (ix2 p q)) (fun p q => x3 (ix2 p q)) (refOutRe (fun p q => x2 (ix2 p q)) (fun p q => x3 (ix2 p q)) (fun p q => x0 (ix2 p q)) (fun p q => x1 (ix2 p q)) (fun p q => x4 (ix2 p q)) (fun p => x5 (ix1 p))) (refOutIm (fun p q => x2 (ix2 p q)) (fun p q => x3 (ix2 p q)) (fun p q => x0 (ix2 p q)) (fun p q => x1 (ix2 p q)) (fun p q => x4 (ix2 p q)) (fun p => x5 (ix1 p))) (fun p q => x6 (ix2 p q)) (fun p => x7 (ix1 p)))) (colMean (refOutIm (fun p q => x2 (ix2 p q)) (fun p q => x3 (ix2 p q)) (refOutRe (fun p q => x2 (ix2 p q)) (fun p q => x3 (ix2 p q)) (fun p q => x0 (ix2 p q)) (fun p q => x1 (ix2 p q)) (fun p q => x4 (ix2 p q)) (fun p => x5 (ix1 p))) (refOutIm (fun p q => x2 (ix2 p q)) (fun p q => x3 (ix2 p q)) (fun p q => x0 (ix2 p q)) (fun p q => x1 (ix2 p q)) (fun p q => x4 (ix2 p q)) (fun p => x5 (ix1 p))) (fun p q => x6 (ix2 p q)) (fun p => x7 (ix1 p)))) t := by
  unfold val_main_v44 catRow
  by_cases h : t.val < 128
  · rw [dif_pos h, ← v40_ix1]
    exact concatenate_pair_apply_left (0 : Fin S256.rank) _ _ concatenates_S128_S128_S256_d0 (ix1 t) rfl (ix1 ⟨t.val, h⟩)
      (fun b => by match b with | ⟨0, _⟩ => rfl)
  · rw [dif_neg h, ← v43_ix1]
    exact concatenate_pair_apply_right (0 : Fin S256.rank) _ _ concatenates_S128_S128_S256_d0 (ix1 t) rfl rfl
      (ix1 ⟨t.val - 128, by omega⟩) (fun b hb => by match b with | ⟨0, _⟩ => exact absurd rfl hb)
      (by show (t.val - 128) + 128 = t.val; omega)

end Layer2

end Cert.ReferenceIdeal.RefValue

end
-- ==== Proof.RefValue.lean ====
/-
  The reference's dense head read at an index and identified with the specification's head: a dense
  layer clipped at 0 from below, a second dense layer, the row's maximum as the fold of max from −∞,
  the exponentials of the entries less that maximum, and each divided by their sum. Then the reference's
  result end to end: the head applied to the joined column means of the two layers' masked outputs.
-/
import proofs.«163911_g13984413516055_cont_sun_m_56_12_alg».proof.Proof.Gen.ReferenceIdeal.Read
import proofs.«163911_g13984413516055_cont_sun_m_56_12_alg».proof.Proof.Spec
import proofs.«163911_g13984413516055_cont_sun_m_56_12_alg».proof.Proof.RefLayer
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.StableHlo
open Idealize.ShloMosaic.ValueIdx Cert.Spec

/-- The float pattern of the maximum's initial value denotes −∞. -/
theorem ofBits_neg_inf : Ideal.ofBits .f32 0xFF800000#32 = (⊥ : EReal) := by
  simp [Ideal.ofBits, Ideal.ieee]

/-- The head's three intermediate rows: the clipped dense layer, the second dense layer, and the
    exponentials of its entries less their maximum. -/
def hid (g : Row 256) (A : Tab 256 128) (a : Row 128) : Row 128 :=
  fun j => max ((∑ t : Fin 256, g t * A t j) + a j) 0
def logit (g : Row 256) (A : Tab 256 128) (a : Row 128) (B : Tab 128 10) (b : Row 10) : Row 10 :=
  fun k => (∑ t : Fin 128, hid g A a t * B t k) + b k
def expo (g : Row 256) (A : Tab 256 128) (a : Row 128) (B : Tab 128 10) (b : Row 10) : Row 10 :=
  fun k => Ideal.exp (logit g A a B b k - rowMax (logit g A a B b))

theorem head_eq_expo (g : Row 256) (A : Tab 256 128) (a : Row 128) (B : Tab 128 10) (b : Row 10) (k : Fin 10) :
    head g A a B b k = Ideal.div (expo g A a B b k) (∑ t : Fin 10, expo g A a B b t) := rfl

/-- The one reduced index of a [1,10] array with column k put back is (0, k). -/
theorem lift_row (h : S1x10.Reduces [1] S1) (k : Fin (S1x10.size 1)) :
    h.lift (ix1 (0 : Fin 1)) k = ix2 (0 : Fin 1) (⟨k.val, k.isLt⟩ : Fin 10) := by
  funext c; apply Fin.ext
  fin_cases c <;> rfl

section Head
variable (x0 x1 : FVec Ideal S10000x128 .f32) (x2 x3 : FVec Ideal S10000x10000 .f32) (x4 : FVec Ideal S128x128 .f32)
  (x5 : FVec Ideal S128 .f32) (x6 : FVec Ideal S128x128 .f32) (x7 : FVec Ideal S128 .f32)
  (x8 : FVec Ideal S256x128 .f32) (x9 : FVec Ideal S128 .f32) (x10 : FVec Ideal S128x10 .f32) (x11 : FVec Ideal S10 .f32)

theorem v45_ix2 (t : Fin 256) : val_main_v45 (F := Ideal) x0 x1 x2 x3 x4 x5 x6 x7 (ix2 (0 : Fin 1) t) = val_main_v44 (F := Ideal) x0 x1 x2 x3 x4 x5 x6 x7 (ix1 t) := by
  rw [val_main_v45_apply]
  exact congrArg (val_main_v44 (F := Ideal) x0 x1 x2 x3 x4 x5 x6 x7) (idx_eq_ix1 _ t rfl)

theorem v46_ix2 (j : Fin 128) :
    val_main_v46 (F := Ideal) x0 x1 x2 x3 x4 x5 x6 x7 x8 (ix2 (0 : Fin 1) j) = ∑ t : Fin 256, val_main_v44 (F := Ideal) x0 x1 x2 x3 x4 x5 x6 x7 (ix1 t) * x8 (ix2 t j) := by
  rw [val_main_v46_apply]
  refine Finset.sum_congr rfl fun k _ => ?_
  rw [idx_eq_ix2 (lidx_main_v46 (ix2 (0 : Fin 1) j) k) (0 : Fin 1) k rfl rfl, idx_eq_ix2 (ridx_main_v46 (ix2 (0 : Fin 1) j) k) k j rfl rfl, v45_ix2]

theorem v47_ix2 (j : Fin 128) : val_main_v47 (F := Ideal) x9 (ix2 (0 : Fin 1) j) = x9 (ix1 j) := by
  rw [val_main_v47_apply]
  exact congrArg x9 (idx_eq_ix1 _ j rfl)

/-- The first dense layer clipped at 0 from below. -/
theorem v49_ix2 (j : Fin 128) : val_main_v49 (F := Ideal) x0 x1 x2 x3 x4 x5 x6 x7 x8 x9 (ix2 (0 : Fin 1) j) = hid (fun t => val_main_v44 (F := Ideal) x0 x1 x2 x3 x4 x5 x6 x7 (ix1 t)) (fun p q => x8 (ix2 p q)) (fun p => x9 (ix1 p)) j := by
  rw [val_main_v49_apply, Ideal.maximumf_def, val_main_call0_v0_apply, val_main_call0_cst_apply, Ideal.ofBits_def,
    Ideal.ofBits_zero_f32, val_main_v48_apply, Ideal.addf_def, v46_ix2, v47_ix2]
  rfl

theorem v51_ix2 (k : Fin 10) : val_main_v51 (F := Ideal) x11 (ix2 (0 : Fin 1) k) = x11 (ix1 k) := by
  rw [val_main_v51_apply]
  exact congrArg x11 (idx_eq_ix1 _ k rfl)

/-- The second dense layer. -/
theorem v52_ix2 (k : Fin 10) : val_main_v52 (F := Ideal) x0 x1 x2 x3 x4 x5 x6 x7 x8 x9 x10 x11 (ix2 (0 : Fin 1) k) = logit (fun t => val_main_v44 (F := Ideal) x0 x1 x2 x3 x4 x5 x6 x7 (ix1 t)) (fun p q => x8 (ix2 p q)) (fun p => x9 (ix1 p)) (fun p q => x10 (ix2 p q)) (fun p => x11 (ix1 p)) k := by
  rw [val_main_v52_apply, Ideal.addf_def, val_main_v50_apply, v51_ix2]
  unfold logit
  refine congrArg (fun s => s + _) (Finset.sum_congr rfl fun t _ => ?_)
  rw [idx_eq_ix2 (lidx_main_v50 (ix2 (0 : Fin 1) k) t) (0 : Fin 1) t rfl rfl, idx_eq_ix2 (ridx_main_v50 (ix2 (0 : Fin 1) k) t) t k rfl rfl, v49_ix2]

theorem v52_row : (fun k : Fin 10 => val_main_v52 (F := Ideal) x0 x1 x2 x3 x4 x5 x6 x7 x8 x9 x10 x11 (ix2 (0 : Fin 1) k)) = logit (fun t => val_main_v44 (F := Ideal) x0 x1 x2 x3 x4 x5 x6 x7 (ix1 t)) (fun p q => x8 (ix2 p q)) (fun p => x9 (ix1 p)) (fun p q => x10 (ix2 p q)) (fun p => x11 (ix1 p)) :=
  funext fun k => v52_ix2 x0 x1 x2 x3 x4 x5 x6 x7 x8 x9 x10 x11 k

/-- The row's maximum: the fold of max from −∞ over its ten entries. -/
theorem v53_ix1 : val_main_v53 (F := Ideal) x0 x1 x2 x3 x4 x5 x6 x7 x8 x9 x10 x11 (ix1 (0 : Fin 1)) = rowMax (logit (fun t => val_main_v44 (F := Ideal) x0 x1 x2 x3 x4 x5 x6 x7 (ix1 t)) (fun p q => x8 (ix2 p q)) (fun p => x9 (ix1 p)) (fun p q => x10 (ix2 p q)) (fun p => x11 (ix1 p))) := by
  have h : S1x10.Reduces [1] S1 := by decide
  unfold val_main_v53
  rw [Host.reduce_eq_fold_single FloatOps.maximumf _ _ _ h _, val_main_cst_5_apply, Ideal.ofBits_def, ofBits_neg_inf, ← v52_row]
  have hf : ((val_main_v52 (F := Ideal) x0 x1 x2 x3 x4 x5 x6 x7 x8 x9 x10 x11) ∘ h.lift (ix1 (0 : Fin 1)))
      = fun k : Fin 10 => val_main_v52 (F := Ideal) x0 x1 x2 x3 x4 x5 x6 x7 x8 x9 x10 x11 (ix2 (0 : Fin 1) k) :=
    funext fun k => congrArg (val_main_v52 (F := Ideal) x0 x1 x2 x3 x4 x5 x6 x7 x8 x9 x10 x11) (lift_row h k)
  unfold rowMax
  exact congrArg (fun f => Finset.fold max (⊥ : EReal) f (Finset.univ : Finset (Fin 10))) hf

theorem v57_ix2 (k : Fin 10) : val_main_v57 (F := Ideal) x0 x1 x2 x3 x4 x5 x6 x7 x8 x9 x10 x11 (ix2 (0 : Fin 1) k) = rowMax (logit (fun t => val_main_v44 (F := Ideal) x0 x1 x2 x3 x4 x5 x6 x7 (ix1 t)) (fun p q => x8 (ix2 p q)) (fun p => x9 (ix1 p)) (fun p q => x10 (ix2 p q)) (fun p => x11 (ix1 p))) := by
  rw [val_main_v57_apply, val_main_v56_apply,
    idx_eq_ix1 (idx_main_v56 (idx_main_v57 (ix2 (0 : Fin 1) k))) (0 : Fin 1) rfl,
    val_main_v55_apply, Ideal.maximumf_def, val_main_v54_apply, val_main_cst_6_apply, Ideal.ofBits_def, ofBits_neg_inf, v53_ix1]
  exact max_eq_right bot_le

/-- The exponentials of the entries less their maximum. -/
theorem v59_ix2 (k : Fin 10) : val_main_v59 (F := Ideal) x0 x1 x2 x3 x4 x5 x6 x7 x8 x9 x10 x11 (ix2 (0 : Fin 1) k) = expo (fun t => val_main_v44 (F := Ideal) x0 x1 x2 x3 x4 x5 x6 x7 (ix1 t)) (fun p q => x8 (ix2 p q)) (fun p => x9 (ix1 p)) (fun p q => x10 (ix2 p q)) (fun p => x11 (ix1 p)) k := by
  rw [val_main_v59_apply, Ideal.hostUnary_exp_def, val_main_v58_apply, Ideal.subf_def, v52_ix2, v57_ix2]
  rfl

theorem v62_ix2 (k : Fin 10) : val_main_v62 (F := Ideal) x0 x1 x2 x3 x4 x5 x6 x7 x8 x9 x10 x11 (ix2 (0 : Fin 1) k) = ∑ t : Fin 10, expo (fun t => val_main_v44 (F := Ideal) x0 x1 x2 x3 x4 x5 x6 x7 (ix1 t)) (fun p q => x8 (ix2 p q)) (fun p => x9 (ix1 p)) (fun p q => x10 (ix2 p q)) (fun p => x11 (ix1 p)) t := by
  rw [val_main_v62_apply, val_main_v61_apply,
    idx_eq_ix1 (idx_main_v61 (idx_main_v62 (ix2 (0 : Fin 1) k))) (0 : Fin 1) rfl,
    val_main_v60_apply, val_main_cst_7_apply, Ideal.ofBits_def, Ideal.ofBits_zero_f32, zero_add]
  refine Finset.sum_congr rfl fun t _ => ?_
  rw [idx_eq_ix2 (idx_main_v60 (ix1 (0 : Fin 1)) t) (0 : Fin 1) t rfl rfl, v59_ix2]

/-- The softmax of the second dense layer's row. -/
theorem v63_ix2 (k : Fin 10) : val_main_v63 (F := Ideal) x0 x1 x2 x3 x4 x5 x6 x7 x8 x9 x10 x11 (ix2 (0 : Fin 1) k) = head (fun t => val_main_v44 (F := Ideal) x0 x1 x2 x3 x4 x5 x6 x7 (ix1 t)) (fun p q => x8 (ix2 p q)) (fun p => x9 (ix1 p)) (fun p q => x10 (ix2 p q)) (fun p => x11 (ix1 p)) k := by
  rw [val_main_v63_apply, Ideal.hostDivf_def, v59_ix2, v62_ix2, head_eq_expo]

end Head

/-- The reference's result, read at an index of its [1,10] array, is the specification's first arrangement
    end to end at that index's column: two layers with the weight last and the indicator mask, the column
    means joined, and the dense head with its softmax. -/
theorem ref_result (a0 a1 : FVec Ideal S10000x128 .f32) (a2 a3 : FVec Ideal S10000x10000 .f32) (a4 : FVec Ideal S128x128 .f32)
    (a5 : FVec Ideal S128 .f32) (a6 : FVec Ideal S128x128 .f32) (a7 : FVec Ideal S128 .f32) (a8 : FVec Ideal S256x128 .f32)
    (a9 : FVec Ideal S128 .f32) (a10 : FVec Ideal S128x10 .f32) (a11 : FVec Ideal S10 .f32) (i : S1x10.Idx) :
    val_main_v63 (F := Ideal) a0 a1 a2 a3 a4 a5 a6 a7 a8 a9 a10 a11 i
      = Cert.Spec.refResult (fun p q => a0 (ix2 p q)) (fun p q => a1 (ix2 p q)) (fun p q => a2 (ix2 p q)) (fun p q => a3 (ix2 p q)) (fun p q => a4 (ix2 p q)) (fun p => a5 (ix1 p)) (fun p q => a6 (ix2 p q)) (fun p => a7 (ix1 p)) (fun p q => a8 (ix2 p q)) (fun p => a9 (ix1 p)) (fun p q => a10 (ix2 p q)) (fun p => a11 (ix1 p)) (i 1) := by
  obtain ⟨a, b, rfl⟩ : ∃ (a : Fin 1) (b : Fin 10), i = ix2 a b := ⟨i 0, i 1, eq_ix2 i⟩
  obtain rfl : a = 0 := Subsingleton.elim _ _
  have hg : (fun t => val_main_v44 (F := Ideal) a0 a1 a2 a3 a4 a5 a6 a7 (ix1 t))
      = catRow (colMean (refOutRe (fun p q => a2 (ix2 p q)) (fun p q => a3 (ix2 p q)) (refOutRe (fun p q => a2 (ix2 p q)) (fun p q => a3 (ix2 p q)) (fun p q => a0 (ix2 p q)) (fun p q => a1 (ix2 p q)) (fun p q => a4 (ix2 p q)) (fun p => a5 (ix1 p))) (refOutIm (fun p q => a2 (ix2 p q)) (fun p q => a3 (ix2 p q)) (fun p q => a0 (ix2 p q)) (fun p q => a1 (ix2 p q)) (fun p q => a4 (ix2 p q)) (fun p => a5 (ix1 p))) (fun p q => a6 (ix2 p q)) (fun p => a7 (ix1 p)))) (colMean (refOutIm (fun p q => a2 (ix2 p q)) (fun p q => a3 (ix2 p q)) (refOutRe (fun p q => a2 (ix2 p q)) (fun p q => a3 (ix2 p q)) (fun p q => a0 (ix2 p q)) (fun p q => a1 (ix2 p q)) (fun p q => a4 (ix2 p q)) (fun p => a5 (ix1 p))) (refOutIm (fun p q => a2 (ix2 p q)) (fun p q => a3 (ix2 p q)) (fun p q => a0 (ix2 p q)) (fun p q => a1 (ix2 p q)) (fun p q => a4 (ix2 p q)) (fun p => a5 (ix1 p))) (fun p q => a6 (ix2 p q)) (fun p => a7 (ix1 p)))) :=
    funext fun t => v44_ix1 a0 a1 a2 a3 a4 a5 a6 a7 t
  rw [v63_ix2, hg]
  rfl

open Idealize.ShloMosaic.TcCoe Idealize.SL.Sem in
/-- The same, stated on the result term of the reference's run from a memory m on device c. -/
theorem ref_result_mem (m : (ℓ : Loc nD τ sig) → Buf (Elt Ideal) ℓ) (c : Dev nD) (i : S1x10.Idx) :
    Cert.ReferenceIdeal.Value.res_main_v63 (F := Ideal) m c i
      = Cert.Spec.refResult (fun p q => (m ((c.tc : Thread nD τ).loc main_arg0)) (ix2 p q)) (fun p q => (m ((c.tc : Thread nD τ).loc main_arg1)) (ix2 p q)) (fun p q => (m ((c.tc : Thread nD τ).loc main_arg2)) (ix2 p q)) (fun p q => (m ((c.tc : Thread nD τ).loc main_arg3)) (ix2 p q)) (fun p q => (m ((c.tc : Thread nD τ).loc main_arg4)) (ix2 p q)) (fun p => (m ((c.tc : Thread nD τ).loc main_arg5)) (ix1 p)) (fun p q => (m ((c.tc : Thread nD τ).loc main_arg6)) (ix2 p q)) (fun p => (m ((c.tc : Thread nD τ).loc main_arg7)) (ix1 p)) (fun p q => (m ((c.tc : Thread nD τ).loc main_arg8)) (ix2 p q)) (fun p => (m ((c.tc : Thread nD τ).loc main_arg9)) (ix1 p)) (fun p q => (m ((c.tc : Thread nD τ).loc main_arg10)) (ix2 p q)) (fun p => (m ((c.tc : Thread nD τ).loc main_arg11)) (ix1 p)) (i 1) := by
  rw [val_main_v63_eq]
  exact ref_result _ _ _ _ _ _ _ _ _ _ _ _ i

end Cert.ReferenceIdeal.RefValue

end
-- ==== Proof.SpecLayer.lean ====
/-
  Laws of the program-free specification, part one: the halves of a side-by-side join, the layer law
  (on real entries, multiplying by the weight before or after the propagation gives the same table,
  by associativity and distributivity of finite sums of real numbers), the two ways of masking, and
  the fact that a layer applied to real data leaves real data.
-/
import proofs.«163911_g13984413516055_cont_sun_m_56_12_alg».proof.Proof.Spec
import Mathlib

noncomputable section

open scoped BigOperators

namespace Cert.Spec

open Idealize.ShloMosaic

/-! ## The halves of a join -/

theorem lo_cat {n : Nat} (x y : Tab n 128) : lo (cat x y) = x := by
  funext i j
  unfold lo cat
  dsimp only
  split
  · rfl
  · rename_i h; exact absurd j.isLt h

theorem hi_cat {n : Nat} (x y : Tab n 128) : hi (cat x y) = y := by
  funext i j
  unfold hi cat
  dsimp only
  split
  · rename_i h; exact absurd h (by omega)
  · congr 1

theorem loRow_catRow (x y : Row 128) : loRow (catRow x y) = x := by
  funext j
  unfold loRow catRow
  dsimp only
  split
  · rfl
  · rename_i h; exact absurd j.isLt h

theorem hiRow_catRow (x y : Row 128) : hiRow (catRow x y) = y := by
  funext j
  unfold hiRow catRow
  dsimp only
  split
  · rename_i h; exact absurd h (by omega)
  · congr 1

/-! ## Real numbers inside the extended reals -/

/-- The inclusion of the reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A table of real numbers, read as a table of extended reals. -/
def cT {a b : Nat} (f : Fin a → Fin b → ℝ) : Tab a b := fun i j => (f i j : EReal)

theorem realTab_cT {a b : Nat} (f : Fin a → Fin b → ℝ) : RealTab (cT f) := fun _ _ => ⟨_, rfl⟩

/-- A table with real entries is the image of a table of real numbers. -/
theorem RealTab.exists_cT {a b : Nat} {x : Tab a b} (h : RealTab x) : ∃ f, x = cT f := by
  have h' : ∀ i j, ∃ r : ℝ, x i j = (r : EReal) := h
  choose f hf using h'
  exact ⟨f, funext fun i => funext fun j => hf i j⟩

/-- The product of two real tables is the real table of the real sums. -/
theorem mm_cT {a k b : Nat} (l : Fin a → Fin k → ℝ) (r : Fin k → Fin b → ℝ) :
    mm (cT l) (cT r) = cT (fun i j => ∑ t, l i t * r t j) := by
  funext i j
  simp only [mm, cT, coe_sum, EReal.coe_mul]

theorem realTab_mm {a k b : Nat} {x : Tab a k} {y : Tab k b} (hx : RealTab x) (hy : RealTab y) :
    RealTab (mm x y) := by
  obtain ⟨f, rfl⟩ := hx.exists_cT
  obtain ⟨g, rfl⟩ := hy.exists_cT
  rw [mm_cT]
  exact realTab_cT _

/-! ## The layer law -/

/-- Associativity of the triple product, entry by entry, over the reals. -/
theorem real_assoc {N C : Nat} (L : Fin N → Fin N → ℝ) (x : Fin N → Fin C → ℝ) (W : Fin C → Fin C → ℝ)
    (i : Fin N) (j : Fin C) :
    ∑ t, L i t * ∑ s, x t s * W s j = ∑ s, (∑ t, L i t * x t s) * W s j := by
  simp only [Finset.mul_sum, Finset.sum_mul]
  rw [Finset.sum_comm]
  simp only [mul_assoc]

section Layer
variable {N C : Nat} {Lr Li : Tab N N} {xr xi : Tab N C} {W : Tab C C}

/-- (L_r (x_r W) - L_i (x_i W)) + b = (L_r x_r - L_i x_i) W + b on real entries. -/
theorem kerRe_eq_refRe (hLr : RealTab Lr) (hLi : RealTab Li) (hxr : RealTab xr) (hxi : RealTab xi)
    (hW : RealTab W) (b : Row C) :
    kerRe Lr Li (mm xr W) (mm xi W) b = refRe Lr Li xr xi W b := by
  obtain ⟨fLr, rfl⟩ := hLr.exists_cT
  obtain ⟨fLi, rfl⟩ := hLi.exists_cT
  obtain ⟨fxr, rfl⟩ := hxr.exists_cT
  obtain ⟨fxi, rfl⟩ := hxi.exists_cT
  obtain ⟨fW, rfl⟩ := hW.exists_cT
  funext i j
  simp only [kerRe, refRe, mm, cT]
  simp only [← EReal.coe_mul, ← coe_sum, ← EReal.coe_sub]
  congr 1
  rw [EReal.coe_eq_coe_iff]
  simp only [sub_mul, Finset.sum_sub_distrib, real_assoc]

/-- (L_r (x_i W) + L_i (x_r W)) + b = (L_r x_i + L_i x_r) W + b on real entries. -/
theorem kerIm_eq_refIm (hLr : RealTab Lr) (hLi : RealTab Li) (hxr : RealTab xr) (hxi : RealTab xi)
    (hW : RealTab W) (b : Row C) :
    kerIm Lr Li (mm xr W) (mm xi W) b = refIm Lr Li xr xi W b := by
  obtain ⟨fLr, rfl⟩ := hLr.exists_cT
  obtain ⟨fLi, rfl⟩ := hLi.exists_cT
  obtain ⟨fxr, rfl⟩ := hxr.exists_cT
  obtain ⟨fxi, rfl⟩ := hxi.exists_cT
  obtain ⟨fW, rfl⟩ := hW.exists_cT
  funext i j
  simp only [kerIm, refIm, mm, cT]
  simp only [← EReal.coe_mul, ← coe_sum, ← EReal.coe_add]
  congr 1
  rw [EReal.coe_eq_coe_iff]
  simp only [add_mul, Finset.sum_add_distrib, real_assoc]

/-! ## The masks -/

/-- Multiplying a value by the indicator of its own sign keeps it where it is ≥ 0 and gives 0 elsewhere. -/
theorem mul_ind_self (z : EReal) : z * ind z = if 0 ≤ z then z else 0 := by
  unfold ind
  split
  · rw [mul_one]
  · rw [mul_zero]

/-- Multiplying by the indicator of another value selects. -/
theorem mul_ind (w z : EReal) : w * ind z = if 0 ≤ z then w else 0 := by
  unfold ind
  split
  · rw [mul_one]
  · rw [mul_zero]

theorem kerOutRe_eq_refOutRe (hLr : RealTab Lr) (hLi : RealTab Li) (hxr : RealTab xr) (hxi : RealTab xi)
    (hW : RealTab W) (b : Row C) :
    kerOutRe Lr Li (mm xr W) (mm xi W) b = refOutRe Lr Li xr xi W b := by
  funext i j
  unfold kerOutRe refOutRe
  rw [kerRe_eq_refRe hLr hLi hxr hxi hW b, mul_ind_self]

theorem kerOutIm_eq_refOutIm (hLr : RealTab Lr) (hLi : RealTab Li) (hxr : RealTab xr) (hxi : RealTab xi)
    (hW : RealTab W) (b : Row C) :
    kerOutIm Lr Li (mm xr W) (mm xi W) b b = refOutIm Lr Li xr xi W b := by
  funext i j
  unfold kerOutIm refOutIm
  rw [kerRe_eq_refRe hLr hLi hxr hxi hW b, kerIm_eq_refIm hLr hLi hxr hxi hW b, mul_ind]

/-! ## A layer of real data is real -/

theorem realTab_refRe (hLr : RealTab Lr) (hLi : RealTab Li) (hxr : RealTab xr) (hxi : RealTab xi)
    (hW : RealTab W) {b : Row C} (hb : RealRow b) : RealTab (refRe Lr Li xr xi W b) := by
  obtain ⟨fLr, rfl⟩ := hLr.exists_cT
  obtain ⟨fLi, rfl⟩ := hLi.exists_cT
  obtain ⟨fxr, rfl⟩ := hxr.exists_cT
  obtain ⟨fxi, rfl⟩ := hxi.exists_cT
  obtain ⟨fW, rfl⟩ := hW.exists_cT
  have hb' : ∀ j, ∃ r : ℝ, b j = (r : EReal) := hb
  choose fb hfb using hb'
  intro i j
  simp only [refRe, mm, cT, hfb j]
  simp only [← EReal.coe_mul, ← coe_sum, ← EReal.coe_sub, ← EReal.coe_add]
  exact ⟨_, rfl⟩

theorem realTab_refIm (hLr : RealTab Lr) (hLi : RealTab Li) (hxr : RealTab xr) (hxi : RealTab xi)
    (hW : RealTab W) {b : Row C} (hb : RealRow b) : RealTab (refIm Lr Li xr xi W b) := by
  obtain ⟨fLr, rfl⟩ := hLr.exists_cT
  obtain ⟨fLi, rfl⟩ := hLi.exists_cT
  obtain ⟨fxr, rfl⟩ := hxr.exists_cT
  obtain ⟨fxi, rfl⟩ := hxi.exists_cT
  obtain ⟨fW, rfl⟩ := hW.exists_cT
  have hb' : ∀ j, ∃ r : ℝ, b j = (r : EReal) := hb
  choose fb hfb using hb'
  intro i j
  simp only [refIm, mm, cT, hfb j]
  simp only [← EReal.coe_mul, ← coe_sum, ← EReal.coe_add]
  exact ⟨_, rfl⟩

/-- A real number times a 0/1 indicator is real. -/
theorem real_mul_ind {w : EReal} (z : EReal) (hw : ∃ r : ℝ, w = (r : EReal)) :
    ∃ r : ℝ, w * ind z = (r : EReal) := by
  obtain ⟨r, rfl⟩ := hw
  rw [mul_ind]
  split
  · exact ⟨r, rfl⟩
  · exact ⟨0, rfl⟩

theorem realTab_refOutRe (hLr : RealTab Lr) (hLi : RealTab Li) (hxr : RealTab xr) (hxi : RealTab xi)
    (hW : RealTab W) {b : Row C} (hb : RealRow b) : RealTab (refOutRe Lr Li xr xi W b) :=
  fun i j => real_mul_ind _ (realTab_refRe hLr hLi hxr hxi hW hb i j)

theorem realTab_refOutIm (hLr : RealTab Lr) (hLi : RealTab Li) (hxr : RealTab xr) (hxi : RealTab xi)
    (hW : RealTab W) {b : Row C} (hb : RealRow b) : RealTab (refOutIm Lr Li xr xi W b) :=
  fun i j => real_mul_ind _ (realTab_refIm hLr hLi hxr hxi hW hb i j)

end Layer

end Cert.Spec

end
-- ==== Proof.SpecRegroup.lean ====
/-
  Laws of the program-free specification, part two: the 10000 rows, counted as 50 blocks of 25
  groups of 8 residues (row 200 p + 8 a + s), are each counted exactly once; so a sum over residues,
  blocks and groups is the sum over all rows. Only associativity and commutativity of addition are used.
-/
import proofs.«163911_g13984413516055_cont_sun_m_56_12_alg».proof.Proof.Spec
import Mathlib

noncomputable section

open scoped BigOperators

namespace Cert.Spec

open Idealize.ShloMosaic

/-- (p, a, s) ↦ 200 p + 8 a + s is a bijection onto the 10000 rows; the inverse reads off
    p = i / 200, a = (i mod 200) / 8, s = i mod 8. -/
def rowEquiv : Fin 50 × Fin 25 × Fin 8 ≃ Fin 10000 where
  toFun x := rowOf x.1 x.2.1 x.2.2
  invFun i := (⟨i.val / 200, by omega⟩, ⟨i.val % 200 / 8, by omega⟩, ⟨i.val % 8, by omega⟩)
  left_inv := by
    rintro ⟨p, a, s⟩
    refine Prod.ext (Fin.ext ?_) (Prod.ext (Fin.ext ?_) (Fin.ext ?_))
    · show (200 * p.val + 8 * a.val + s.val) / 200 = p.val
      omega
    · show (200 * p.val + 8 * a.val + s.val) % 200 / 8 = a.val
      omega
    · show (200 * p.val + 8 * a.val + s.val) % 8 = s.val
      omega
  right_inv := by
    intro i
    apply Fin.ext
    show 200 * (i.val / 200) + 8 * (i.val % 200 / 8) + i.val % 8 = i.val
    omega

theorem rowEquiv_apply (p : Fin 50) (a : Fin 25) (s : Fin 8) : rowEquiv (p, a, s) = rowOf p a s := rfl

/-- Summing over residues, then blocks, then groups visits every row once. -/
theorem sum_regroup (X : Fin 10000 → EReal) :
    ∑ s : Fin 8, ∑ p : Fin 50, ∑ a : Fin 25, X (rowOf p a s) = ∑ i : Fin 10000, X i := by
  rw [← Equiv.sum_comp rowEquiv X, Fintype.sum_prod_type]
  simp only [Fintype.sum_prod_type, rowEquiv_apply]
  rw [Finset.sum_comm]
  refine Finset.sum_congr rfl fun p _ => ?_
  rw [Finset.sum_comm]

end Cert.Spec

end
-- ==== Proof.SpecLaws.lean ====
/-
  Laws of the program-free specification, assembled: the second arrangement end to end computes the
  same row as the first. The two layers agree on real data (the layer law, twice: the first layer's
  output is real again); the partial column sums taken block by block and residue by residue add up
  to the full column sums; dividing by 10000 is multiplying by 1/10000; and the head is one and the
  same function of the row of means.
-/
import proofs.«163911_g13984413516055_cont_sun_m_56_12_alg».proof.Proof.Spec
import proofs.«163911_g13984413516055_cont_sun_m_56_12_alg».proof.Proof.SpecLayer
import proofs.«163911_g13984413516055_cont_sun_m_56_12_alg».proof.Proof.SpecRegroup
import Mathlib

noncomputable section

open scoped BigOperators

namespace Cert.Spec

open Idealize.ShloMosaic

/-! ## The mean -/

/-- Dividing by 10000 is multiplying by its reciprocal, at the infinities too. -/
theorem div_tenthousand (y : EReal) : Ideal.div y ((10000 : ℝ) : EReal) = y * invN :=
  Ideal.div_coe (by norm_num) y

/-- The scaled column sums of a join are the means of the two halves end to end. -/
theorem mean_cat (x y : Tab 10000 128) (t : Fin 256) :
    (∑ i : Fin 10000, cat x y i t) * invN = catRow (colMean x) (colMean y) t := by
  unfold catRow colMean cat
  by_cases h : t.val < 128
  · simp only [dif_pos h, div_tenthousand]
  · simp only [dif_neg h, div_tenthousand]

/-! ## End to end -/

theorem kerResult_eq_refResult (xr xi : Tab 10000 128) (Lr Li : Tab 10000 10000) (W0 : Tab 128 128)
    (b0 : Row 128) (W1 : Tab 128 128) (b1 : Row 128) (A : Tab 256 128) (a : Row 128) (B : Tab 128 10)
    (b : Row 10)
    (hxr : RealTab xr) (hxi : RealTab xi) (hLr : RealTab Lr) (hLi : RealTab Li) (hW0 : RealTab W0)
    (hb0 : RealRow b0) (hW1 : RealTab W1) (hb1 : RealRow b1) :
    kerResult xr xi Lr Li W0 b0 W1 b1 A a B b = refResult xr xi Lr Li W0 b0 W1 b1 A a B b := by
  -- the first layer
  have h1r := kerOutRe_eq_refOutRe hLr hLi hxr hxi hW0 b0
  have h1i := kerOutIm_eq_refOutIm hLr hLi hxr hxi hW0 b0
  -- its output is real, so the layer law applies to the second layer as well
  have hx1r := realTab_refOutRe hLr hLi hxr hxi hW0 hb0
  have hx1i := realTab_refOutIm hLr hLi hxr hxi hW0 hb0
  have h2r := kerOutRe_eq_refOutRe hLr hLi hx1r hx1i hW1 b1
  have h2i := kerOutIm_eq_refOutIm hLr hLi hx1r hx1i hW1 b1
  unfold kerResult refResult stage3 stage2 stage1 stage0 layer2
  simp only [lo_cat, hi_cat, loRow_catRow, hiRow_catRow, h1r, h1i, h2r, h2i]
  refine congrArg (fun g => head g A a B b) ?_
  funext t
  simp only [part]
  rw [sum_regroup (fun i => cat (refOutRe Lr Li (refOutRe Lr Li xr xi W0 b0) (refOutIm Lr Li xr xi W0 b0) W1 b1)
    (refOutIm Lr Li (refOutRe Lr Li xr xi W0 b0) (refOutIm Lr Li xr xi W0 b0) W1 b1) i t), mean_cat]

end Cert.Spec

end
-- ==== Proof.RealInputs.lean ====
/-
  From the precondition to real entries. The precondition forms, for each of the twelve arguments x, the
  conjunction over all entries of |x| < +∞ and joins the twelve conjunctions; it is assumed to be 1. Over
  the extended reals |x| is max x (-x) and +∞ is the top element, so |x| < +∞ excludes both infinities:
  every entry of every argument is a real number. Stated here for the first eight arguments (the node
  features, the propagation matrices, and the two layers' weights and biases) as tables and rows.
-/
import proofs.«163911_g13984413516055_cont_sun_m_56_12_alg».proof.Pre_finite_inputs
import proofs.«163911_g13984413516055_cont_sun_m_56_12_alg».proof.Proof.Spec
import Idealize.ShloMosaic.Lib.ValueIdx
import Idealize.ShloMosaic.Lib.ReduceAll
import Idealize.ShloMosaic.PureOps.Ideal.Laws

noncomputable section

namespace Cert.Pre_finite_inputs.Hand

open Idealize.ShloMosaic Idealize.ShloMosaic.ValueIdx Cert.Pre_finite_inputs

/-- The scalar shape has one index. -/
instance : Subsingleton S_.Idx := ⟨fun a b => funext fun d => d.elim0⟩

/-- An extended real x with max x (-x) below the top element is a real number: the bottom element is
    excluded because its negation is the top, the top element because it is itself the maximum. -/
theorem real_of_abs_lt_top (x : EReal) (h : max x (-x) < ⊤) : ∃ r : ℝ, x = (r : EReal) := by
  induction x using EReal.rec with
  | bot => simp at h
  | coe r => exact ⟨r, rfl⟩
  | top => simp at h

/-- One entry: the comparison |x| < +∞, read as a condition that is 1, says x is a real number. -/
theorem real_of_elem (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  by_cases hlt : max (x : EReal) (-(x : EReal)) < ⊤
  · exact real_of_abs_lt_top x hlt
  · simp [hlt] at h

/-- One argument of any shape: if the conjunction over all entries of |x| < +∞ is 1, every entry is real. -/
theorem real_of_all {s : Shape} {axes : List (Fin s.rank)} (x : FVec Ideal s .f32)
    (dims : Fin S_.rank → Fin s.rank) (hb : S_.BroadcastsInDim s dims) (hr : s.ReducesTo axes S_) (hu : 0 < S_.numel)
    (h : Host.reduce IntOp.andi
        (cmpf .olt (Host.absf x) (broadcastInDim s dims hb (constant S_ .f32 0x7F800000#32)))
        (constantI S_ 1 1#1) hr hu ix0 = 1#1) (i : s.Idx) :
    ∃ r : ℝ, (x i : EReal) = (r : EReal) :=
  real_of_elem (x i) (Host.reduce_andi_all _ _ hr hu ix0 h i)

/-- A conjunction of two scalar conditions that is 1 has both conjuncts 1. -/
theorem split_andi (x y : IVec S_ 1) (h : andi x y ix0 = 1#1) : x ix0 = 1#1 ∧ y ix0 = 1#1 :=
  IntOp.andi_eq_one.1 h

/-- The precondition gives: the first eight arguments, read as tables and rows, have only real entries.
    The twelve-fold conjunction is nested to the left, so it is peeled from the last argument down. -/
theorem real_of_pre [Facts] (a0 a1 : FVec Ideal S10000x128 .f32) (a2 a3 : FVec Ideal S10000x10000 .f32) (a4 : FVec Ideal S128x128 .f32) (a5 : FVec Ideal S128 .f32) (a6 : FVec Ideal S128x128 .f32) (a7 : FVec Ideal S128 .f32) (a8 : FVec Ideal S256x128 .f32) (a9 : FVec Ideal S128 .f32) (a10 : FVec Ideal S128x10 .f32) (a11 : FVec Ideal S10 .f32)
      (h : Cert.Pre_finite_inputs.fn (F := Ideal) a0 a1 a2 a3 a4 a5 a6 a7 a8 a9 a10 a11 = fun _ => 1#1) :
      Cert.Spec.RealTab (fun p q => a0 (ix2 p q)) ∧ Cert.Spec.RealTab (fun p q => a1 (ix2 p q)) ∧ Cert.Spec.RealTab (fun p q => a2 (ix2 p q)) ∧ Cert.Spec.RealTab (fun p q => a3 (ix2 p q)) ∧ Cert.Spec.RealTab (fun p q => a4 (ix2 p q)) ∧ Cert.Spec.RealRow (fun p => a5 (ix1 p)) ∧ Cert.Spec.RealTab (fun p q => a6 (ix2 p q)) ∧ Cert.Spec.RealRow (fun p => a7 (ix1 p)) := by
  have h0 := congrFun h ix0
  dsimp only [fn] at h0
  dsimp only [fn_part1] at h0
  dsimp only [fn_part2] at h0
  dsimp only [fn_part3] at h0
  obtain ⟨h0, -⟩ := split_andi _ _ h0
  obtain ⟨h0, -⟩ := split_andi _ _ h0
  obtain ⟨h0, -⟩ := split_andi _ _ h0
  obtain ⟨h0, -⟩ := split_andi _ _ h0
  obtain ⟨h0, e7⟩ := split_andi _ _ h0
  obtain ⟨h0, e6⟩ := split_andi _ _ h0
  obtain ⟨h0, e5⟩ := split_andi _ _ h0
  obtain ⟨h0, e4⟩ := split_andi _ _ h0
  obtain ⟨h0, e3⟩ := split_andi _ _ h0
  obtain ⟨h0, e2⟩ := split_andi _ _ h0
  obtain ⟨e0, e1⟩ := split_andi _ _ h0
  exact ⟨fun p q => real_of_all a0 _ _ _ _ e0 (ix2 p q), fun p q => real_of_all a1 _ _ _ _ e1 (ix2 p q),
    fun p q => real_of_all a2 _ _ _ _ e2 (ix2 p q), fun p q => real_of_all a3 _ _ _ _ e3 (ix2 p q),
    fun p q => real_of_all a4 _ _ _ _ e4 (ix2 p q), fun p => real_of_all a5 _ _ _ _ e5 (ix1 p),
    fun p q => real_of_all a6 _ _ _ _ e6 (ix2 p q), fun p => real_of_all a7 _ _ _ _ e7 (ix1 p)⟩

end Cert.Pre_finite_inputs.Hand

end
-- ==== Proof.Region0Value.lean ====
/- Region 0 at the extended reals: what the region leaves in its output array, as one function of the three input
   arrays the region finds. The body's one store holds the two products x_r·W and x_i·W side by side; the single
   point's block is the whole array, so the array after the run is that value. -/
import proofs.«163911_g13984413516055_cont_sun_m_56_12_alg».proof.Proof.Region0
import proofs.«163911_g13984413516055_cont_sun_m_56_12_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 65536

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The product at an index -/

/-- The dimension numbers of the body's two products: [10000,128] by [128,128], contracting the shared axis. -/
abbrev D0 : DotDims S10000x128 S128x128 S10000x128 := dot_S10000x128_S128x128_S10000x128_1_0_0_1_n_n

/-- A product into the zero accumulator, at row p and column j, is the sum over the shared axis. -/
theorem mm0_apply (x : FVec Ideal S10000x128 .f32) (w : FVec Ideal S128x128 .f32) (p : Fin 10000) (j : Fin 128) :
    matmul D0 (some .fp32) x w (constant (F := Ideal) S10000x128 .f32 0x00000000#32) (ix2 p j)
      = ∑ t : Fin 128, x (ix2 p t) * w (ix2 t j) := by
  refine (Ideal.matmul_constant_zero_apply D0 (some .fp32) x w (ix2 p j)).trans ?_
  rw [← Equiv.sum_comp (contrEquiv1 D0 128 rfl rfl).symm]
  refine Finset.sum_congr rfl fun k _ => ?_
  have hk := contrEquiv1_symm_val D0 128 rfl rfl k
  have el : D0.lhsIdx (ix2 p j) ((contrEquiv1 D0 128 rfl rfl).symm k) = ix2 p k := funext fun a => Fin.ext (by
    match a with
    | ⟨0, _⟩ =>
      show (D0.lhsIdx (ix2 p j) ((contrEquiv1 D0 128 rfl rfl).symm k) 0).val = p.val
      unfold DotDims.lhsIdx
      rw [dif_neg (show ¬(0 : Fin S10000x128.rank) ∈ D0.lhsBatch by decide), dif_pos (show (0 : Fin S10000x128.rank) ∈ D0.lhsNonContracting by decide)]
      rfl
    | ⟨1, _⟩ => exact (D0.lhsIdx_val_of_single rfl _ _).trans hk)
  have er : D0.rhsIdx (ix2 p j) ((contrEquiv1 D0 128 rfl rfl).symm k) = ix2 k j := funext fun a => Fin.ext (by
    match a with
    | ⟨0, _⟩ => exact (D0.rhsIdx_val_of_single rfl _ _).trans hk
    | ⟨1, _⟩ =>
      show (D0.rhsIdx (ix2 p j) ((contrEquiv1 D0 128 rfl rfl).symm k) 1).val = j.val
      unfold DotDims.rhsIdx
      rw [dif_neg (show ¬(1 : Fin S128x128.rank) ∈ D0.rhsBatch by decide), dif_pos (show (1 : Fin S128x128.rank) ∈ D0.rhsNonContracting by decide)]
      rfl)
  rw [el, er]

/-! ## The payload at an index -/

/-- The stored value at row p and column q: the left 128 columns are x_r·W, the right 128 are x_i·W. -/
theorem pay0_apply (x0 x1 : FVec Ideal S10000x128 .f32) (w : FVec Ideal S128x128 .f32) (p : Fin 10000) (q : Fin 256) :
    k0_pay1 (F := Ideal) x0 w x1 w (ix2 p q)
      = Cert.Spec.stage0 (fun a b => x0 (ix2 a b)) (fun a b => x1 (ix2 a b)) (fun a b => w (ix2 a b)) p q := by
  unfold k0_pay1 Cert.Spec.stage0 Cert.Spec.cat Cert.Spec.mm
  by_cases h : q.val < 128
  · rw [dif_pos h]
    refine (concatenate_pair_apply_left (t := S10000x256) (s₁ := S10000x128) (s₂ := S10000x128) (1 : Fin 2) _ _ concatenates_S10000x128_S10000x128_S10000x256_d1 (ix2 p q) rfl
      (ix2 p (⟨q.val, h⟩ : Fin 128)) ?_).trans ?_
    · intro b
      match b with
      | ⟨0, _⟩ => rfl
      | ⟨1, _⟩ => rfl
    · exact mm0_apply x0 w p ⟨q.val, h⟩
  · rw [dif_neg h]
    have hq : q.val - 128 < 128 := by have := q.isLt; omega
    refine (concatenate_pair_apply_right (t := S10000x256) (s₁ := S10000x128) (s₂ := S10000x128) (1 : Fin 2) _ _ concatenates_S10000x128_S10000x128_S10000x256_d1 (ix2 p q) rfl rfl
      (ix2 p (⟨q.val - 128, hq⟩ : Fin 128)) ?_ ?_).trans ?_
    · intro b hb
      match b with
      | ⟨0, _⟩ => rfl
      | ⟨1, _⟩ => exact absurd rfl hb
    · show (q.val - 128) + 128 = q.val
      omega
    · exact mm0_apply x1 w p ⟨q.val - 128, hq⟩

/-! ## From the one block to the array -/

theorem hz0 : (![0, 0] : Fin 2 → Nat) = fun _ => 0 := funext fun a => by fin_cases a <;> rfl

/-- The region's output as one function of the three arrays the region finds. -/
def G0 (c : Dev nD) : S10000x256.Idx → EReal :=
  fun idx => Cert.Spec.stage0 (fun p q => V c main_arg0 (ix2 p q)) (fun p q => V c main_arg1 (ix2 p q))
    (fun p q => V c main_arg4 (ix2 p q)) (idx 0) (idx 1)

/-- The body's one store, over whole input blocks, is the closed form of those blocks. -/
theorem out0_3_eq (x0 x1 : Vec Ideal S10000x128 .f32) (w : Vec Ideal S128x128 .f32) :
    out0_3 (F := Ideal) x0 x1 w = fun idx : S10000x256.Idx =>
      Cert.Spec.stage0 (fun a b => x0 (ix2 a b)) (fun a b => x1 (ix2 a b)) (fun a b => w (ix2 a b)) (idx 0) (idx 1) := by
  unfold out0_3
  rw [View.canon_unit_zero hz0]
  simp only [View.ld_unit_zero (S := S10000x128) hz0, View.ld_unit_zero (S := S128x128) hz0]
  funext idx
  obtain ⟨p, q, rfl⟩ : ∃ (p : Fin 10000) (q : Fin 256), idx = ix2 p q := ⟨idx 0, idx 1, eq_ix2 idx⟩
  exact pay0_apply x0 x1 w p q

/-- Each input window's one block is its whole array. -/
theorem iblk0_0_eq (c : Dev nD) (t : Fin cfg0.N) : iblk0 V c 0 t = V c main_arg0 := by
  funext j
  show V c main_arg0 (((cfg0.win 0).blk t).view.emb j) = V c main_arg0 j
  refine congrArg _ (funext fun a => Fin.ext ?_)
  match a with
  | ⟨0, _⟩ => show 0 * 10000 + 1 * (j 0).val = (j 0).val; omega
  | ⟨1, _⟩ => show 0 * 128 + 1 * (j 1).val = (j 1).val; omega
theorem iblk0_1_eq (c : Dev nD) (t : Fin cfg0.N) : iblk0 V c 1 t = V c main_arg1 := by
  funext j
  show V c main_arg1 (((cfg0.win 1).blk t).view.emb j) = V c main_arg1 j
  refine congrArg _ (funext fun a => Fin.ext ?_)
  match a with
  | ⟨0, _⟩ => show 0 * 10000 + 1 * (j 0).val = (j 0).val; omega
  | ⟨1, _⟩ => show 0 * 128 + 1 * (j 1).val = (j 1).val; omega
theorem iblk0_2_eq (c : Dev nD) (t : Fin cfg0.N) : iblk0 V c 2 t = V c main_arg4 := by
  funext j
  show V c main_arg4 (((cfg0.win 2).blk t).view.emb j) = V c main_arg4 j
  refine congrArg _ (funext fun a => Fin.ext ?_)
  match a with
  | ⟨0, _⟩ => show 0 * 128 + 1 * (j 0).val = (j 0).val; omega
  | ⟨1, _⟩ => show 0 * 128 + 1 * (j 1).val = (j 1).val; omega

/-- What the one point writes back is the closed form, read through the point's block. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3, iblk0_0_eq, iblk0_1_eq, iblk0_2_eq, out0_3_eq]
  funext j
  show G0 V c j = G0 V c (((cfg0.win 3).blk t).view.emb j)
  refine congrArg _ (funext fun a => Fin.ext ?_)
  match a with
  | ⟨0, _⟩ => show (j 0).val = 0 * 10000 + 1 * (j 0).val; omega
  | ⟨1, _⟩ => show (j 1).val = 0 * 256 + 1 * (j 1).val; omega

/-- Every index of the output array is in the one point's block. -/
theorem cover0 (i : S10000x256.Idx) :
    ∃ t : Fin cfg0.N, (cfg0.win 3).flush t = true ∧ i ∈ ((cfg0.win 3).blk t).view.set := by
  refine ⟨t0_0, flush0_3 t0_0, ?_⟩
  show i ∈ ((View.whole main_v0).slice (win0_3.rect t0_0)).set
  rw [View.set_slice_whole, Rect.mem_set_unit]
  intro a
  match a with
  | ⟨0, _⟩ => exact ⟨Nat.zero_le _, by have := idx2_lt0 i; show (i 0).val < 0 * 10000 + 10000; omega⟩
  | ⟨1, _⟩ => exact ⟨Nat.zero_le _, by have := idx2_lt1 i; show (i 1).val < 0 * 256 + 256; omega⟩

/-- THE ARRAY after the region: [x_r·W | x_i·W] of the arrays the region finds. -/
theorem value0 (c : Dev nD) : (dat0 (F := Ideal) V c).arrAt 3 cfg0.N = (fun idx : S10000x256.Idx =>
    Cert.Spec.stage0 (fun p q => V c main_arg0 (ix2 p q)) (fun p q => V c main_arg1 (ix2 p q))
      (fun p q => V c main_arg4 (ix2 p q)) (idx 0) (idx 1)) :=
  (dat0 (F := Ideal) V c).arrAt_eq_of_cover 3 (G0 V c) (fun t _ => flushed0_eq V c t) cover0

end Cert.KernelIdeal.Hand

end
-- ==== Proof.PayloadBlock.lean ====
/-
  The propagation block that the second and third kernels share, read at an index.

  A block of 200 rows of the complex propagation matrix, L0 + i L1 (each 200 by 10000), meets the
  features u = [u_r | u_i] (10000 by 256) and the two halves of the bias row:
    Re z = (L0 u_r - L1 u_i) + b_lo,      Im z = (L0 u_i + L1 u_r) + b_hi,
  and both parts of an entry are kept where Re z ≥ 0 and replaced by 0 elsewhere. The products are
  plain finite sums over the shared axis; the kernel's narrowing of the operands is the identity on
  extended reals, its column halves are slices at offsets 0 and 128, its bias a one-row broadcast,
  and its mask a selection on the comparison with zero.
-/
import proofs.«163911_g13984413516055_cont_sun_m_56_12_alg».proof.Proof.Gen.KernelIdeal.Skeleton
import proofs.«163911_g13984413516055_cont_sun_m_56_12_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.ValueIdx Cert.KernelIdeal Cert.KernelIdeal.Gen
open Cert.Spec (Tab Row)

/-- A rank-2 array read as a table, and a one-row array read as a row. -/
abbrev tab2 {a b : Nat} (x : (⟨2, ![a, b]⟩ : Shape).Idx → EReal) : Tab a b := fun p q => x (ix2 p q)
abbrev row2 {b : Nat} (x : (⟨2, ![1, b]⟩ : Shape).Idx → EReal) : Row b := fun q => x (ix2 (0 : Fin 1) q)

/-! ## The block's mathematics -/

section Block
variable {n : Nat} (L0 L1 : Tab n 10000) (u : Tab 10000 256)

/-- The real part of the propagated block with its bias. -/
def blkRe (bl : Row 128) : Tab n 128 := fun r j =>
  (∑ t : Fin 10000, L0 r t * u t ⟨j.val, by omega⟩ - ∑ t : Fin 10000, L1 r t * u t ⟨j.val + 128, by omega⟩) + bl j
/-- The imaginary part of the propagated block with its bias. -/
def blkIm (bh : Row 128) : Tab n 128 := fun r j =>
  (∑ t : Fin 10000, L0 r t * u t ⟨j.val + 128, by omega⟩ + ∑ t : Fin 10000, L1 r t * u t ⟨j.val, by omega⟩) + bh j
/-- The masked real part: kept where it is at least zero. -/
def blkOutRe (bl : Row 128) : Tab n 128 := fun r j => if 0 ≤ blkRe L0 L1 u bl r j then blkRe L0 L1 u bl r j else 0
/-- The masked imaginary part: kept where the REAL part is at least zero. -/
def blkOutIm (bl bh : Row 128) : Tab n 128 := fun r j => if 0 ≤ blkRe L0 L1 u bl r j then blkIm L0 L1 u bh r j else 0
end Block

/-- The block made of the rows f(0), f(1), … of the whole matrices is those rows of the whole masked layer. -/
theorem blkOutRe_rows {n : Nat} (Lr Li : Tab 10000 10000) (u : Tab 10000 256) (bl : Row 128) (f : Fin n → Fin 10000)
    (r : Fin n) (j : Fin 128) :
    blkOutRe (fun r t => Lr (f r) t) (fun r t => Li (f r) t) u bl r j
      = Cert.Spec.kerOutRe Lr Li (Cert.Spec.lo u) (Cert.Spec.hi u) bl (f r) j := rfl
theorem blkOutIm_rows {n : Nat} (Lr Li : Tab 10000 10000) (u : Tab 10000 256) (bl bh : Row 128) (f : Fin n → Fin 10000)
    (r : Fin n) (j : Fin 128) :
    blkOutIm (fun r t => Lr (f r) t) (fun r t => Li (f r) t) u bl bh r j
      = Cert.Spec.kerOutIm Lr Li (Cert.Spec.lo u) (Cert.Spec.hi u) bl bh (f r) j := rfl

/-! ## A plain product of two rank-2 arrays read at an index -/

section Plain
variable {a k b : Nat} (D : DotDims ⟨2, ![a, k]⟩ ⟨2, ![k, b]⟩ ⟨2, ![a, b]⟩)

theorem plain_lhs0 (hlb : D.lhsBatch = []) (hln : D.lhsNonContracting = [0])
    (i : (⟨2, ![a, b]⟩ : Shape).Idx) (q : D.contr.Idx) : (D.lhsIdx i q 0).val = (i 0).val := by
  unfold DotDims.lhsIdx
  rw [dif_neg (by rw [hlb]; exact List.not_mem_nil), dif_pos (by rw [hln]; exact List.mem_singleton.mpr rfl)]
  simp only [Fin.val_cast]
  have key : ∀ (x y : Nat) (hx : x < 2) (hy : y < 2), x = y → (i ⟨x, hx⟩).val = (i ⟨y, hy⟩).val :=
    fun x y hx hy h => by subst h; rfl
  exact key _ _ _ _ (by simp [hlb, hln])

theorem plain_rhs1 (hlb : D.lhsBatch = []) (hln : D.lhsNonContracting = [0]) (hrb : D.rhsBatch = [])
    (hrn : D.rhsNonContracting = [1])
    (i : (⟨2, ![a, b]⟩ : Shape).Idx) (q : D.contr.Idx) : (D.rhsIdx i q 1).val = (i 1).val := by
  unfold DotDims.rhsIdx
  rw [dif_neg (by rw [hrb]; exact List.not_mem_nil), dif_pos (by rw [hrn]; exact List.mem_singleton.mpr rfl)]
  simp only [Fin.val_cast]
  have key : ∀ (x y : Nat) (hx : x < 2) (hy : y < 2), x = y → (i ⟨x, hx⟩).val = (i ⟨y, hy⟩).val :=
    fun x y hx hy h => by subst h; rfl
  exact key _ _ _ _ (by simp [hlb, hln, hrn])

/-- A product contracting the left operand's columns with the right operand's rows, into the zero
    accumulator, is at (p, q) the sum over the shared axis of left (p, t) times right (t, q). -/
theorem matmul_plain_apply (hlb : D.lhsBatch = []) (hln : D.lhsNonContracting = [0]) (hlc : D.lhsContracting = [1])
    (hrb : D.rhsBatch = []) (hrn : D.rhsNonContracting = [1]) (hrc : D.rhsContracting = [0])
    {φ₁ φ₂ : FTy} (prec : Option ContractPrecision) (lhs : FVec Ideal ⟨2, ![a, k]⟩ φ₁) (rhs : FVec Ideal ⟨2, ![k, b]⟩ φ₂)
    (p : Fin a) (q : Fin b) :
    matmul D prec lhs rhs (constant (F := Ideal) ⟨2, ![a, b]⟩ .f32 0x00000000#32) (ix2 p q)
      = ∑ t : Fin k, lhs (ix2 p t) * rhs (ix2 t q) := by
  have hr : D.contr.rank = 1 := by rw [D.rank_contr, hlc]; rfl
  have hs : D.contr.size ⟨0, by omega⟩ = k :=
    (D.size_contr 0 (by rw [hlc]; exact Nat.one_pos)).trans (by rw [List.getElem_of_eq hlc]; rfl)
  refine (Ideal.matmul_constant_zero_apply D prec lhs rhs (ix2 p q)).trans ?_
  rw [← Equiv.sum_comp (contrEquiv1 D k hr hs).symm]
  refine Finset.sum_congr rfl fun t _ => ?_
  have hk := contrEquiv1_symm_val D k hr hs t
  have el : D.lhsIdx (ix2 p q) ((contrEquiv1 D k hr hs).symm t) = ix2 p t := funext fun c => Fin.ext (by
    match c with
    | ⟨0, _⟩ => exact plain_lhs0 D hlb hln _ _
    | ⟨1, _⟩ => exact (D.lhsIdx_val_of_single hlc _ _).trans hk)
  have er : D.rhsIdx (ix2 p q) ((contrEquiv1 D k hr hs).symm t) = ix2 t q := funext fun c => Fin.ext (by
    match c with
    | ⟨0, _⟩ => exact (D.rhsIdx_val_of_single hrc _ _).trans hk
    | ⟨1, _⟩ => exact plain_rhs1 D hlb hln hrb hrn _ _)
  rw [el, er]

end Plain

/-! ## The pieces of the block, read at an index -/

/-- The f32 zero word is the extended real 0. -/
theorem scalar_zero_f32 : (Scalar.ofBits (F := Ideal) .f32 0x00000000#32 : EReal) = 0 := Ideal.ofBits_zero_f32

/-- A selection on "z is at least zero", with 0 as the other value, is the conditional. -/
theorem select_ge_zero (z x : EReal) : Scalar.select (Ideal.cmp .oge z 0) x 0 = if 0 ≤ z then x else 0 := by
  by_cases h : (0 : EReal) ≤ z
  · rw [if_pos h]
    show Scalar.select (BitVec.ofBool (decide ((0 : EReal) ≤ z))) x 0 = x
    rw [decide_eq_true h]; exact select_one x 0
  · rw [if_neg h]
    show Scalar.select (BitVec.ofBool (decide ((0 : EReal) ≤ z))) x 0 = 0
    rw [decide_eq_false h]; exact select_zero x 0

section Pieces
variable (v0 v6 : Vec Ideal S200x10000 .f32) (v2 v8 : Vec Ideal S10000x256 .f32) (v15 v23 : Vec Ideal S1x128 .f32)

/-- The first product: row block times features. -/
theorem k1_pay2_apply (r : Fin 200) (q : Fin 256) :
    k1_pay2 (F := Ideal) v0 v2 (ix2 r q) = ∑ t : Fin 10000, v0 (ix2 r t) * v2 (ix2 t q) := by
  unfold k1_pay2
  refine (matmul_plain_apply dot_S200x10000_S10000x256_S200x256_1_0_0_1_n_n rfl rfl rfl rfl rfl rfl none _ _ r q).trans ?_
  refine Finset.sum_congr rfl fun t _ => ?_
  show v0 (ix2 r t) * (shapeCast S10000x256 v2 shapeCasts_S10000x256_S10000x256) (ix2 t q) = _
  rw [shapeCast_self]

/-- The second product, of the same form. -/
theorem k1_pay3_apply (r : Fin 200) (q : Fin 256) :
    k1_pay3 (F := Ideal) v6 v8 (ix2 r q) = ∑ t : Fin 10000, v6 (ix2 r t) * v8 (ix2 t q) := by
  unfold k1_pay3
  refine (matmul_plain_apply dot_S200x10000_S10000x256_S200x256_1_0_0_1_n_n rfl rfl rfl rfl rfl rfl none _ _ r q).trans ?_
  refine Finset.sum_congr rfl fun t _ => ?_
  show v6 (ix2 r t) * (shapeCast S10000x256 v8 shapeCasts_S10000x256_S10000x256) (ix2 t q) = _
  rw [shapeCast_self]

/-- A bias half, cast to a vector and back and broadcast over the rows, reads its one row. -/
theorem bias_apply (b : Vec Ideal S1x128 .f32) (r : Fin 200) (j : Fin 128) :
    broadcastTo S200x128 (shapeCast S1x128 (shapeCast S128 b shapeCasts_S1x128_S128) shapeCasts_S128_S1x128)
      broadcasts_S1x128_S200x128 (ix2 r j) = b (ix2 (0 : Fin 1) j) := by
  rw [shapeCast_shapeCast]
  exact broadcastTo_1b_ab_apply b _ r j

/-- The real part with its bias. -/
theorem k1_pay4_apply (r : Fin 200) (j : Fin 128) :
    k1_pay4 (F := Ideal) v0 v2 v6 v8 v15 (ix2 r j)
      = (∑ t : Fin 10000, v0 (ix2 r t) * v2 (ix2 t ⟨j.val, by omega⟩)
          - ∑ t : Fin 10000, v6 (ix2 r t) * v8 (ix2 t ⟨j.val + 128, by omega⟩)) + v15 (ix2 (0 : Fin 1) j) := by
  unfold k1_pay4
  have e1 := (slice2_axis1_apply 0 (k1_pay2 (F := Ideal) v0 v2) slices_S200x256_o0_0_S200x128 r j ⟨j.val, by omega⟩
    (Nat.zero_add _).symm).trans (k1_pay2_apply v0 v2 r _)
  have e2 := (slice2_axis1_apply 128 (k1_pay3 (F := Ideal) v6 v8) slices_S200x256_o0_128_S200x128 r j ⟨j.val + 128, by omega⟩
    (Nat.add_comm _ _)).trans (k1_pay3_apply v6 v8 r _)
  exact congrArg₂ (· + ·) (congrArg₂ (· - ·) e1 e2) (bias_apply v15 r j)

/-- The imaginary part with its bias. -/
theorem im_apply (r : Fin 200) (j : Fin 128) :
    addf (addf (extractStridedSlice S200x128 ![0, 128] (k1_pay2 (F := Ideal) v0 v2) slices_S200x256_o0_128_S200x128)
          (extractStridedSlice S200x128 ![0, 0] (k1_pay3 (F := Ideal) v6 v8) slices_S200x256_o0_0_S200x128))
        (broadcastTo S200x128 (shapeCast S1x128 (shapeCast S128 v23 shapeCasts_S1x128_S128) shapeCasts_S128_S1x128)
          broadcasts_S1x128_S200x128) (ix2 r j)
      = (∑ t : Fin 10000, v0 (ix2 r t) * v2 (ix2 t ⟨j.val + 128, by omega⟩)
          + ∑ t : Fin 10000, v6 (ix2 r t) * v8 (ix2 t ⟨j.val, by omega⟩)) + v23 (ix2 (0 : Fin 1) j) := by
  have e1 := (slice2_axis1_apply 128 (k1_pay2 (F := Ideal) v0 v2) slices_S200x256_o0_128_S200x128 r j ⟨j.val + 128, by omega⟩
    (Nat.add_comm _ _)).trans (k1_pay2_apply v0 v2 r _)
  have e2 := (slice2_axis1_apply 0 (k1_pay3 (F := Ideal) v6 v8) slices_S200x256_o0_0_S200x128 r j ⟨j.val, by omega⟩
    (Nat.zero_add _).symm).trans (k1_pay3_apply v6 v8 r _)
  exact congrArg₂ (· + ·) (congrArg₂ (· + ·) e1 e2) (bias_apply v23 r j)

/-- The mask bit: the comparison of the real part with zero. -/
theorem k1_pay5_apply (r : Fin 200) (j : Fin 128) :
    k1_pay5 (F := Ideal) v0 v2 v6 v8 v15 (ix2 r j) = Ideal.cmp .oge (k1_pay4 (F := Ideal) v0 v2 v6 v8 v15 (ix2 r j)) 0 := by
  unfold k1_pay5
  show Ideal.cmp .oge (k1_pay4 (F := Ideal) v0 v2 v6 v8 v15 (ix2 r j)) (Scalar.ofBits (F := Ideal) .f32 0x00000000#32) = _
  rw [scalar_zero_f32]

end Pieces

/-! ## Two arrays of 128 columns side by side -/

/-- A concatenation of two [R, 128] arrays along the columns reads the first below column 128 and the second,
    128 columns to the left, from there on. -/
theorem concat_cols_apply {α : Type} {R : Nat} (x y : (⟨2, ![R, 128]⟩ : Shape).Idx → α)
    (h : Shape.Concatenates [(⟨2, ![R, 128]⟩ : Shape), ⟨2, ![R, 128]⟩] ⟨2, ![R, 256]⟩ 1) (p : Fin R) (q : Fin 256) :
    concatenate ⟨2, ![R, 256]⟩ 1 [⟨⟨2, ![R, 128]⟩, x⟩, ⟨⟨2, ![R, 128]⟩, y⟩] h (ix2 p q)
      = if hq : q.val < 128 then x (ix2 p ⟨q.val, hq⟩) else y (ix2 p ⟨q.val - 128, by omega⟩) := by
  by_cases hq : q.val < 128
  · rw [dif_pos hq]
    exact concatenate_pair_apply_left 1 x y h (ix2 p q) rfl (ix2 p ⟨q.val, hq⟩)
      (fun c => match c with | ⟨0, _⟩ => rfl | ⟨1, _⟩ => rfl)
  · rw [dif_neg hq]
    refine concatenate_pair_apply_right 1 x y h (ix2 p q) rfl rfl (ix2 p ⟨q.val - 128, by omega⟩) ?_ ?_
    · intro c hc
      match c, hc with
      | ⟨0, _⟩, _ => rfl
      | ⟨1, _⟩, hc => exact absurd rfl hc
    · show (q.val - 128) + 128 = q.val
      omega

/-! ## The masked block, read at an index -/

section Masked
variable (L0 L1 : Vec Ideal S200x10000 .f32) (u : Vec Ideal S10000x256 .f32) (bl bh : Vec Ideal S1x128 .f32)

/-- The kernel's real part is the block's. -/
theorem re_eq (r : Fin 200) (j : Fin 128) :
    k1_pay4 (F := Ideal) L0 u L1 u bl (ix2 r j) = blkRe (tab2 L0) (tab2 L1) (tab2 u) (row2 bl) r j :=
  k1_pay4_apply L0 L1 u u bl r j

/-- The masked real part, as both kernels select it. -/
theorem maskedRe_apply (r : Fin 200) (j : Fin 128) :
    select (k1_pay5 (F := Ideal) L0 u L1 u bl) (k1_pay4 (F := Ideal) L0 u L1 u bl)
        (broadcast S200x128 (Scalar.ofBits (F := Ideal) .f32 0x00000000#32)) (ix2 r j)
      = blkOutRe (tab2 L0) (tab2 L1) (tab2 u) (row2 bl) r j := by
  show Scalar.select (k1_pay5 (F := Ideal) L0 u L1 u bl (ix2 r j)) (k1_pay4 (F := Ideal) L0 u L1 u bl (ix2 r j))
    (Scalar.ofBits (F := Ideal) .f32 0x00000000#32) = _
  rw [k1_pay5_apply, scalar_zero_f32, select_ge_zero, re_eq]
  rfl

/-- The masked imaginary part. -/
theorem k1_pay6_apply (r : Fin 200) (j : Fin 128) :
    k1_pay6 (F := Ideal) L0 u L1 u bl bh (ix2 r j) = blkOutIm (tab2 L0) (tab2 L1) (tab2 u) (row2 bl) (row2 bh) r j := by
  unfold k1_pay6
  show Scalar.select (k1_pay5 (F := Ideal) L0 u L1 u bl (ix2 r j)) _ (Scalar.ofBits (F := Ideal) .f32 0x00000000#32) = _
  rw [k1_pay5_apply, scalar_zero_f32, select_ge_zero, re_eq]
  exact congrArg (fun x => if 0 ≤ blkRe (tab2 L0) (tab2 L1) (tab2 u) (row2 bl) r j then x else 0) (im_apply L0 L1 u u bh r j)

/-- The two masked parts side by side. -/
theorem masked_cat_apply (r : Fin 200) (q : Fin 256) :
    concatenate S200x256 1
        [⟨S200x128, select (k1_pay5 (F := Ideal) L0 u L1 u bl) (k1_pay4 (F := Ideal) L0 u L1 u bl)
            (broadcast S200x128 (Scalar.ofBits (F := Ideal) .f32 0x00000000#32))⟩,
          ⟨S200x128, k1_pay6 (F := Ideal) L0 u L1 u bl bh⟩]
        concatenates_S200x128_S200x128_S200x256_d1 (ix2 r q)
      = Cert.Spec.cat (blkOutRe (tab2 L0) (tab2 L1) (tab2 u) (row2 bl))
          (blkOutIm (tab2 L0) (tab2 L1) (tab2 u) (row2 bl) (row2 bh)) r q := by
  refine (concat_cols_apply _ _ concatenates_S200x128_S200x128_S200x256_d1 r q).trans ?_
  unfold Cert.Spec.cat
  by_cases hq : q.val < 128
  · rw [dif_pos hq, dif_pos hq]; exact maskedRe_apply L0 L1 u bl r _
  · rw [dif_neg hq, dif_neg hq]; exact k1_pay6_apply L0 L1 u bl bh r _

end Masked

end Cert.KernelIdeal.Hand

end
-- ==== Proof.Payload1.lean ====
/-
  The value the second kernel stores, read at an index: the masked block of the first layer, both parts
  multiplied by the next weight, side by side.
-/
import proofs.«163911_g13984413516055_cont_sun_m_56_12_alg».proof.Proof.PayloadBlock

noncomputable section

open scoped BigOperators

namespace Cert.KernelIdeal.Hand

open Idealize.ShloMosaic Idealize.ShloMosaic.ValueIdx Cert.KernelIdeal Cert.KernelIdeal.Gen
open Cert.Spec (Tab Row)

section
variable (L0 L1 : Vec Ideal S200x10000 .f32) (u : Vec Ideal S10000x256 .f32) (bl bh : Vec Ideal S1x128 .f32)
  (w : Vec Ideal S128x128 .f32)

/-- The masked real part times the weight. -/
theorem k1_pay7_apply (r : Fin 200) (c : Fin 128) :
    k1_pay7 (F := Ideal) L0 u L1 u bl w (ix2 r c)
      = Cert.Spec.mm (blkOutRe (tab2 L0) (tab2 L1) (tab2 u) (row2 bl)) (tab2 w) r c := by
  unfold k1_pay7
  refine (matmul_plain_apply dot_S200x128_S128x128_S200x128_1_0_0_1_n_n rfl rfl rfl rfl rfl rfl (some .fp32) _ _ r c).trans ?_
  refine Finset.sum_congr rfl fun t _ => ?_
  exact congrArg (· * w (ix2 t c)) (maskedRe_apply L0 L1 u bl r t)

/-- THE STORED VALUE of the second kernel at (r, q): [ (masked Re) W | (masked Im) W ] of the block. -/
theorem k1_value (r : Fin 200) (q : Fin 256) :
    k1_pay1 (F := Ideal) (k1_pay6 L0 u L1 u bl bh) (k1_pay7 L0 u L1 u bl w) w (ix2 r q)
      = Cert.Spec.cat (Cert.Spec.mm (blkOutRe (tab2 L0) (tab2 L1) (tab2 u) (row2 bl)) (tab2 w))
          (Cert.Spec.mm (blkOutIm (tab2 L0) (tab2 L1) (tab2 u) (row2 bl) (row2 bh)) (tab2 w)) r q := by
  unfold k1_pay1
  refine (concat_cols_apply _ _ concatenates_S200x128_S200x128_S200x256_d1 r q).trans ?_
  unfold Cert.Spec.cat
  by_cases hq : q.val < 128
  · rw [dif_pos hq, dif_pos hq]; exact k1_pay7_apply L0 L1 u bl w r _
  · rw [dif_neg hq, dif_neg hq]
    refine (matmul_plain_apply dot_S200x128_S128x128_S200x128_1_0_0_1_n_n rfl rfl rfl rfl rfl rfl (some .fp32) _ _ r _).trans ?_
    refine Finset.sum_congr rfl fun t _ => ?_
    exact congrArg (· * w (ix2 t _)) (k1_pay6_apply L0 L1 u bl bh r t)

end

end Cert.KernelIdeal.Hand

end
-- ==== Proof.Region1Value.lean ====
/- The value of region 1 (the middle layer) at the ideal instance: after its 50 points the region's output array
   holds, index by index, the first stage of the weight-first arrangement (the masked layer of the whole propagation,
   real and imaginary parts each times the next weight, side by side) of the arrays the region reads. Each point
   writes back the block of that one whole-array function at its 200 rows: the stored payload at an index is the
   block's masked layer times the weight, a block's row r at point t is row 200·t + r of the propagation matrices,
   and the other three loads are whole arrays; the 50 blocks cover the array. -/
import proofs.«163911_g13984413516055_cont_sun_m_56_12_alg».proof.Proof.Region1
import proofs.«163911_g13984413516055_cont_sun_m_56_12_alg».proof.Proof.Spec
import proofs.«163911_g13984413516055_cont_sun_m_56_12_alg».proof.Proof.PayloadBlock
import proofs.«163911_g13984413516055_cont_sun_m_56_12_alg».proof.Proof.Payload1
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx Cert.Spec

variable (V : (c : Dev nD) → (b : Ref sig .tc) → Buf (Elt Ideal) ((c : Thread nD τ).loc b))

/-- The two zero offsets as the constant zero. -/
theorem zero_off1 : (![0, 0] : Fin 2 → Nat) = fun _ => 0 := funext fun a => by fin_cases a <;> rfl

/-- A rank-2 index is determined by its two coordinates. -/
theorem idx2_eq1 {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

/-! ## The array the region leaves -/

/-- The region's output array as one function of the arrays it reads: the masked layer of the whole
    propagation, times the next weight, real and imaginary parts side by side. -/
abbrev arr1 (c : Dev nD) : S10000x256.Idx → Elt Ideal .f32 := fun idx =>
  Cert.Spec.stage1 (fun p q => V c main_arg2 (ix2 p q)) (fun p q => V c main_arg3 (ix2 p q))
    (fun p q => V c main_v0 (ix2 p q)) (fun q => V c main_v2 (ix2 0 q)) (fun p q => V c main_arg6 (ix2 p q)) (idx 0) (idx 1)

/-! ## One entry of what a point stores -/

/-- The bias row's left half, loaded through the rectangle at column 0, is the row's first 128 entries; -/
theorem bias_lo1 (x3 : Vec Ideal S1x256 .f32) : row2 (View.ld x3 r1_2) = loRow (row2 x3) := by
  funext j
  show x3 (r1_2.idx (ix2 (0 : Fin 1) j)) = x3 (ix2 (0 : Fin 1) ⟨j.val, _⟩)
  congr 1
  refine idx2_eq1 _ _ _ ?_ ?_
  · rw [LoadRect.idx_apply]; show 0 + 1 * 0 = 0; rfl
  · rw [LoadRect.idx_apply]; show 0 + 1 * j.val = j.val; omega

/-- and its right half, loaded through the rectangle at column 128, the last 128. -/
theorem bias_hi1 (x3 : Vec Ideal S1x256 .f32) : row2 (View.ld x3 r1_3) = hiRow (row2 x3) := by
  funext j
  show x3 (r1_3.idx (ix2 (0 : Fin 1) j)) = x3 (ix2 (0 : Fin 1) ⟨j.val + 128, _⟩)
  congr 1
  refine idx2_eq1 _ _ _ ?_ ?_
  · rw [LoadRect.idx_apply]; show 0 + 1 * 0 = 0; rfl
  · rw [LoadRect.idx_apply]; show 128 + 1 * j.val = j.val + 128; omega

/-- One entry of the payload a point stores, when its two propagation blocks are the rows `f 0, f 1, …` of the
    whole matrices and its other loads the whole arrays: the whole layer's entry at row `f r`. -/
theorem block_entry1 (A2 A3 : S10000x10000.Idx → EReal) (x0 x1 : Vec Ideal S200x10000 .f32) (x2 : Vec Ideal S10000x256 .f32)
    (x3 : Vec Ideal S1x256 .f32) (x4 : Vec Ideal S128x128 .f32) (f : Fin 200 → Fin 10000)
    (h0 : ∀ r k, x0 (ix2 r k) = A2 (ix2 (f r) k)) (h1 : ∀ r k, x1 (ix2 r k) = A3 (ix2 (f r) k))
    (r : Fin 200) (q : Fin 256) :
    k1_pay1 (F := Ideal) (k1_pay6 x0 x2 x1 x2 (View.ld x3 r1_2) (View.ld x3 r1_3)) (k1_pay7 x0 x2 x1 x2 (View.ld x3 r1_2) x4) x4 (ix2 r q)
      = stage1 (tab2 A2) (tab2 A3) (tab2 x2) (row2 x3) (tab2 x4) (f r) q := by
  refine (k1_value x0 x1 x2 (View.ld x3 r1_2) (View.ld x3 r1_3) x4 r q).trans ?_
  have e0 : tab2 x0 = fun r t => tab2 A2 (f r) t := funext fun r => funext fun k => h0 r k
  have e1 : tab2 x1 = fun r t => tab2 A3 (f r) t := funext fun r => funext fun k => h1 r k
  rw [e0, e1, bias_lo1, bias_hi1]
  unfold stage1 cat
  split
  · unfold mm
    exact Finset.sum_congr rfl fun s _ => by rw [blkOutRe_rows]
  · unfold mm
    exact Finset.sum_congr rfl fun s _ => by rw [blkOutIm_rows]

/-! ## The index maps, decided over the grid -/

/-- The two propagation windows and the output window move down one block of 200 rows per point; the other three
    windows stay at their whole arrays. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Each input block, read in the array -/

/-- A propagation block's entry (r, k) at point `t` is the matrix's entry (200·t + r, k). -/
theorem iblk1_0_apply (c : Dev nD) (t : Fin cfg1.N) (y : S200x10000.Idx) (k : S10000x10000.Idx)
    (hk0 : (k 0).val = 200 * t.val + (y 0).val) (hk1 : (k 1).val = (y 1).val) :
    (iblk1 V c 0 t : Vec Ideal S200x10000 .f32) y = (V c main_arg2 : S10000x10000.Idx → EReal) k := by
  obtain ⟨e0, e1, -⟩ := idx_facts1 t
  unfold iblk1
  rw [View.read_apply]
  show V c main_arg2 _ = V c main_arg2 _
  congr 1
  funext a
  apply Fin.ext
  match a with
  | ⟨0, _⟩ => show win1_0.index t (0 : Fin 2) * 200 + 1 * (y 0).val = (k 0).val; rw [e0, hk0]; omega
  | ⟨1, _⟩ => show win1_0.index t (1 : Fin 2) * 10000 + 1 * (y 1).val = (k 1).val; rw [e1, hk1]; omega

theorem iblk1_1_apply (c : Dev nD) (t : Fin cfg1.N) (y : S200x10000.Idx) (k : S10000x10000.Idx)
    (hk0 : (k 0).val = 200 * t.val + (y 0).val) (hk1 : (k 1).val = (y 1).val) :
    (iblk1 V c 1 t : Vec Ideal S200x10000 .f32) y = (V c main_arg3 : S10000x10000.Idx → EReal) k := by
  obtain ⟨-, -, e0, e1, -⟩ := idx_facts1 t
  unfold iblk1
  rw [View.read_apply]
  show V c main_arg3 _ = V c main_arg3 _
  congr 1
  funext a
  apply Fin.ext
  match a with
  | ⟨0, _⟩ => show win1_1.index t (0 : Fin 2) * 200 + 1 * (y 0).val = (k 0).val; rw [e0, hk0]; omega
  | ⟨1, _⟩ => show win1_1.index t (1 : Fin 2) * 10000 + 1 * (y 1).val = (k 1).val; rw [e1, hk1]; omega

/-- The three whole-array windows' blocks are their arrays. -/
theorem iblk1_2_eq (c : Dev nD) (t : Fin cfg1.N) :
    (iblk1 V c 2 t : Vec Ideal S10000x256 .f32) = (V c main_v0 : S10000x256.Idx → EReal) := by
  obtain ⟨-, -, -, -, e0, e1, -⟩ := idx_facts1 t
  funext y
  unfold iblk1
  rw [View.read_apply]
  show V c main_v0 _ = V c main_v0 _
  congr 1
  funext a
  apply Fin.ext
  match a with
  | ⟨0, _⟩ => show win1_2.index t (0 : Fin 2) * 10000 + 1 * (y 0).val = (y 0).val; rw [e0]; omega
  | ⟨1, _⟩ => show win1_2.index t (1 : Fin 2) * 256 + 1 * (y 1).val = (y 1).val; rw [e1]; omega

theorem iblk1_3_eq (c : Dev nD) (t : Fin cfg1.N) :
    (iblk1 V c 3 t : Vec Ideal S1x256 .f32) = (V c main_v2 : S1x256.Idx → EReal) := by
  obtain ⟨-, -, -, -, -, -, e0, e1, -⟩ := idx_facts1 t
  funext y
  unfold iblk1
  rw [View.read_apply]
  show V c main_v2 _ = V c main_v2 _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 256 + 1 * (y 1).val = (y 1).val; rw [e1]; omega

theorem iblk1_4_eq (c : Dev nD) (t : Fin cfg1.N) :
    (iblk1 V c 4 t : Vec Ideal S128x128 .f32) = (V c main_arg6 : S128x128.Idx → EReal) := by
  obtain ⟨-, -, -, -, -, -, -, -, e0, e1, -⟩ := idx_facts1 t
  funext y
  unfold iblk1
  rw [View.read_apply]
  show V c main_arg6 _ = V c main_arg6 _
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-! ## What a point writes back -/

/-- Row `r` of point `t`'s block is row 200·t + r of the array. -/
def rowAt1 (t : Fin cfg1.N) (r : Fin 200) : Fin 10000 :=
  ⟨200 * t.val + r.val, by have h1 := t.isLt; have h2 : cfg1.N = 50 := N_1; omega⟩

/-- What point `t` writes back is block `t` of `arr1`. -/
theorem flushed1_eq (c : Dev nD) (t : Fin cfg1.N) :
    (dat1 V c).flushed 5 t = ((cfg1.win 5).blk t).view.read (Elt Ideal) (arr1 V c) := by
  show (cfg1.win 5).cut (grid1.coords t) ((dat1 V c).after 5 t) = _
  rw [after1_5]
  unfold out1_5
  rw [View.canon_unit_zero zero_off1]
  simp only [View.ld_unit_zero (S := S200x10000) zero_off1, View.ld_unit_zero (S := S10000x256) zero_off1, View.ld_unit_zero (S := S128x128) zero_off1]
  rw [iblk1_2_eq, iblk1_3_eq, iblk1_4_eq]
  obtain ⟨-, -, -, -, -, -, -, -, -, -, e0, e1⟩ := idx_facts1 t
  funext j
  rw [View.read_apply]
  have hj : (j : S200x256.Idx) = ix2 (j 0) (j 1) := eq_ix2 j
  show k1_pay1 (F := Ideal) _ _ _ (j : S200x256.Idx) = _
  rw [hj]
  refine (block_entry1 (V c main_arg2) (V c main_arg3) (iblk1 V c 0 t) (iblk1 V c 1 t) (V c main_v0) (V c main_v2) (V c main_arg6)
    (rowAt1 t) (fun r k => iblk1_0_apply V c t _ _ rfl rfl) (fun r k => iblk1_1_apply V c t _ _ rfl rfl) (j 0) (j 1)).trans ?_
  show stage1 _ _ _ _ _ (rowAt1 t (j 0)) (j 1) = stage1 _ _ _ _ _ _ _
  congr 1
  · apply Fin.ext
    show 200 * t.val + (j 0).val = win1_5.index t (0 : Fin 2) * 200 + 1 * (j 0).val
    rw [e0]; omega
  · apply Fin.ext
    show (j 1).val = win1_5.index t (1 : Fin 2) * 256 + 1 * (j 1).val
    rw [e1]; omega

/-! ## The cover, and the array after the region -/

/-- An index of the array is in point `t`'s block iff each coordinate is in the block's range on its axis. -/
theorem mem_blk1 (t : Fin cfg1.N) (i : S10000x256.Idx) :
    i ∈ ((cfg1.win 5).blk t).view.set ↔ ∀ a : Fin 2, win1_5.index t a * S200x256.size a ≤ (i a).val ∧ (i a).val < win1_5.index t a * S200x256.size a + S200x256.size a := by
  show i ∈ ((View.whole main_v5).slice (win1_5.rect t)).set ↔ _
  rw [View.set_slice_whole, Rect.mem_set_unit]
  exact Iff.rfl

/-- Row `p` of the array is in the block of point `p / 200`. -/
theorem cover1 (i : S10000x256.Idx) : ∃ t : Fin cfg1.N, (cfg1.win 5).flush t = true ∧ i ∈ ((cfg1.win 5).blk t).view.set := by
  have hi0 : (i 0).val < 10000 := (i 0).isLt
  have hi1 : (i 1).val < 256 := (i 1).isLt
  have hN : cfg1.N = 50 := N_1
  let t : Fin cfg1.N := ⟨(i 0).val / 200, by rw [hN]; omega⟩
  obtain ⟨-, -, -, -, -, -, -, -, -, -, e0, e1⟩ := idx_facts1 t
  refine ⟨t, flush1_5 t, ?_⟩
  rw [mem_blk1]
  intro a
  match a with
  | ⟨0, _⟩ => show win1_5.index t (0 : Fin 2) * 200 ≤ (i 0).val ∧ (i 0).val < win1_5.index t (0 : Fin 2) * 200 + 200; rw [e0]; show (i 0).val / 200 * 200 ≤ _ ∧ _ < (i 0).val / 200 * 200 + 200; omega
  | ⟨1, _⟩ => show win1_5.index t (1 : Fin 2) * 256 ≤ (i 1).val ∧ (i 1).val < win1_5.index t (1 : Fin 2) * 256 + 256; rw [e1]; omega

/-- The region's output array after its 50 points: the second arrangement's first stage of the arrays the region
    reads. -/
theorem value1 (c : Dev nD) : (dat1 (F := Ideal) V c).arrAt 5 cfg1.N
    = (fun idx : S10000x256.Idx => Cert.Spec.stage1 (fun p q => V c main_arg2 (ix2 p q)) (fun p q => V c main_arg3 (ix2 p q))
        (fun p q => V c main_v0 (ix2 p q)) (fun q => V c main_v2 (ix2 0 q)) (fun p q => V c main_arg6 (ix2 p q)) (idx 0) (idx 1)) :=
  (dat1 V c).arrAt_eq_of_cover 5 (arr1 V c) (fun t _ => flushed1_eq V c t) cover1

end Cert.KernelIdeal.Hand

end
-- ==== Proof.Payload2.lean ====
/-
  The value the third kernel accumulates, read at an index: the masked block of the second layer, both
  parts side by side, its 200 rows added in 25 groups of 8 — row 8a + s goes to residue s.
-/
import proofs.«163911_g13984413516055_cont_sun_m_56_12_alg».proof.Proof.PayloadBlock

noncomputable section

open scoped BigOperators

namespace Cert.KernelIdeal.Hand

open Idealize.ShloMosaic Idealize.ShloMosaic.ValueIdx Cert.KernelIdeal Cert.KernelIdeal.Gen
open Cert.Spec (Tab Row)

section
variable (L0 L1 : Vec Ideal S200x10000 .f32) (u : Vec Ideal S10000x256 .f32) (bl bh : Vec Ideal S1x128 .f32)

/-- The third kernel's partial sums are the group sums of the two masked parts side by side: the same
    operations as the second kernel's, written out in one piece. -/
theorem k2_pay2_eq :
    k2_pay2 (F := Ideal) L0 u L1 u bl bh
      = multiReduction .add [0] S8x256
          (shapeCast S25x8x256
            (concatenate S200x256 1
              [⟨S200x128, select (k1_pay5 (F := Ideal) L0 u L1 u bl) (k1_pay4 (F := Ideal) L0 u L1 u bl)
                  (broadcast S200x128 (Scalar.ofBits (F := Ideal) .f32 0x00000000#32))⟩,
                ⟨S200x128, k1_pay6 (F := Ideal) L0 u L1 u bl bh⟩]
              concatenates_S200x128_S200x128_S200x256_d1)
            shapeCasts_S200x256_S25x8x256)
          0x00000000#32 reduces_S25x8x256_S8x256 (.inl rfl) rfl := rfl

/-- A [200, 256] array viewed as [25, 8, 256] reads, at (a, s, t), row 8a + s. -/
theorem group_apply {α : Type} (x : S200x256.Idx → α) (a : Fin 25) (s : Fin 8) (t : Fin 256) :
    shapeCast S25x8x256 x shapeCasts_S200x256_S25x8x256 (ix3 a s t) = x (ix2 ⟨8 * a.val + s.val, by omega⟩ t) :=
  shapeCast_apply x _ (ix3 a s t) (ix2 ⟨8 * a.val + s.val, by omega⟩ t) (by
    rw [Shape.rowMajor_val_two, Shape.rowMajor_val_three]
    show (8 * a.val + s.val) * 256 + t.val = (a.val * 8 + s.val) * 256 + t.val
    omega)

/-- THE PARTIAL SUMS of the third kernel at (s, t): over the 25 groups, row 8a + s of [masked Re | masked Im]. -/
theorem k2_value (s : Fin 8) (t : Fin 256) :
    k2_pay2 (F := Ideal) L0 u L1 u bl bh (ix2 s t)
      = ∑ a : Fin 25, Cert.Spec.cat (blkOutRe (tab2 L0) (tab2 L1) (tab2 u) (row2 bl))
          (blkOutIm (tab2 L0) (tab2 L1) (tab2 u) (row2 bl) (row2 bh)) ⟨8 * a.val + s.val, by omega⟩ t := by
  rw [k2_pay2_eq]
  refine (Ideal.multiReduction_add_single _ _ reduces_S25x8x256_S8x256 _ _ (ix2 s t)).trans ?_
  refine Finset.sum_congr rfl fun a _ => ?_
  have hl : reduces_S25x8x256_S8x256.lift (ix2 s t) a = ix3 a s t := funext fun c => Fin.ext (by
    match c with
    | ⟨0, _⟩ => rfl
    | ⟨1, _⟩ => rfl
    | ⟨2, _⟩ => rfl)
  rw [hl]
  exact (group_apply _ a s t).trans (masked_cat_apply L0 L1 u bl bh _ t)

end

end Cert.KernelIdeal.Hand

end
-- ==== Proof.Region2Value.lean ====
import proofs.«163911_g13984413516055_cont_sun_m_56_12_alg».proof.Proof.Region2
import proofs.«163911_g13984413516055_cont_sun_m_56_12_alg».proof.Proof.Spec
import proofs.«163911_g13984413516055_cont_sun_m_56_12_alg».proof.Proof.Payload2
import Idealize.ShloMosaic.Lib.ValueIdx
import Idealize.ShloMosaic.Lib.Pipeline.Value
import Idealize.ShloMosaic.Lib.ValueLayout
import Idealize.ShloMosaic.PureOps.Ideal.Laws

/-! # Region 2's value: the partial column sums of the 50 blocks, added up

What the region leaves in its result array is the running sum after the last point; at extended reals
the running sum is the plain sum of the blocks' partial sums, and each block's partial sums are those of
the block's rows of the masked layer. -/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec (Tab Row)

theorem zeroOff2 : (![0, 0] : Fin 2 → Nat) = fun _ => 0 := funext fun a => by fin_cases a <;> rfl

section Exit

variable {F : FTy → Type} [FloatOps F] [Named F]
variable (V : (c : Dev nD) → (b : Ref sig .tc) → Buf (Elt F) ((c : Thread nD τ).loc b))

/-- The last point of the grid. -/
def t2_last : Fin cfg2.N := ⟨49, by rw [show cfg2.N = 50 from N_2]; decide⟩

/-- The result: the running sum after the last point, as contents of the result array (its one block is the array). -/
abbrev result2 (c : Dev nD) : Buf (Elt F) ((c : Thread nD τ).loc main_v6) := acc2 V c t2_last

/-- The one write-back, at the last point, writes it: block (0, 0) of the [8,256] array at zero offsets is the array. -/
theorem flushed2_4_eq (c : Dev nD) (t : Fin cfg2.N) (hf : (cfg2.win 4).flush t = true) :
    (dat2 V c).flushed 4 t = ((cfg2.win 4).blk t).view.read (Elt F) (result2 V c) := by
  have hN : cfg2.N = 50 := N_2
  have h49 : t.val = 49 := by have := (flush2_4 t).mp hf; have := t.isLt; omega
  obtain rfl : t = t2_last := Fin.ext h49
  show (cfg2.win 4).cut (grid2.coords t2_last) ((dat2 V c).after 4 t2_last) = _
  rw [after2_4]
  have hz' : (fun a => win2_4.index t2_last a * main_v6.ty.shape.size a) = fun _ => 0 := funext fun a => by fin_cases a <;> decide
  exact (Memref.read_access_unit_zero (Elt F) main_v6 hz' (fun a => by rw [congrFun hz' a]; simp) (result2 V c)).symm

/-- So the result array ends holding the running sum after the last point: that point's block covers it. -/
theorem final2_4 (c : Dev nD) : (dat2 V c).arrAt 4 cfg2.N = result2 V c :=
  (dat2 V c).arrAt_eq_of_cover 4 (result2 V c) (flushed2_4_eq V c) fun i =>
    ⟨t2_last, (flush2_4 t2_last).mpr rfl, by
      show i ∈ ((View.whole main_v6).slice (win2_4.rect t2_last)).set
      rw [View.set_slice_whole, Rect.mem_set_unit]
      intro a
      have h0 : (i 0 : Nat) < 8 := (i 0).isLt
      have h1 : (i 1 : Nat) < 256 := (i 1).isLt
      match a with
      | ⟨0, _⟩ => show win2_4.index t2_last 0 * win2_4.size 0 ≤ (i 0 : Nat) ∧ (i 0 : Nat) < win2_4.index t2_last 0 * win2_4.size 0 + win2_4.xsize (grid2.coords t2_last) 0
                  rw [show win2_4.index t2_last 0 * win2_4.size 0 = 0 from by decide +kernel, show win2_4.xsize (grid2.coords t2_last) 0 = 8 from by decide +kernel]; omega
      | ⟨1, _⟩ => show win2_4.index t2_last 1 * win2_4.size 1 ≤ (i 1 : Nat) ∧ (i 1 : Nat) < win2_4.index t2_last 1 * win2_4.size 1 + win2_4.xsize (grid2.coords t2_last) 1
                  rw [show win2_4.index t2_last 1 * win2_4.size 1 = 0 from by decide +kernel, show win2_4.xsize (grid2.coords t2_last) 1 = 256 from by decide +kernel]; omega⟩

end Exit

section Value

variable (V : (c : Dev nD) → (b : Ref sig .tc) → Buf (Elt Ideal) ((c : Thread nD τ).loc b))

/-! ## The running sum is the sum -/

/-- At extended reals a later point adds its block's partial sums to what the buffer held, index by index. -/
theorem acc2_succ_apply (c : Dev nD) (n : ℕ) (h : n + 1 < cfg2.N) (i : S8x256.Idx) :
    acc2 V c ⟨n + 1, h⟩ i = acc2 V c ⟨n, Nat.lt_of_succ_lt h⟩ i + part2 V c ⟨n + 1, h⟩ i := by
  rw [acc2_succ]; unfold k2_pay1; rw [shapeCast_self]; rfl

/-- So the running sum after point `n` is the sum of the partial sums of the points up to `n`. -/
theorem acc2_sum (c : Dev nD) : ∀ (n : ℕ) (h : n < cfg2.N) (i : S8x256.Idx),
    acc2 V c ⟨n, h⟩ i = ∑ p : Fin (n + 1), part2 V c ⟨p.val, lt_of_lt_of_le p.isLt (Nat.succ_le_of_lt h)⟩ i
  | 0, h, i => by
    show acc2 V c ⟨0, h⟩ i = ∑ p : Fin 1, part2 V c ⟨p.val, lt_of_lt_of_le p.isLt (Nat.succ_le_of_lt h)⟩ i
    rw [Fin.sum_univ_one, acc2_zero]; rfl
  | n + 1, h, i => by
    rw [Fin.sum_univ_castSucc, acc2_succ_apply, acc2_sum c n _ i]; rfl

/-! ## One block's partial sums -/

/-- The region's arrays as tables: the two propagation matrices, the features, the doubled bias row. -/
abbrev Lr2 (c : Dev nD) : Tab 10000 10000 := fun p q => (V c main_arg2 : S10000x10000.Idx → EReal) (ix2 p q)
abbrev Li2 (c : Dev nD) : Tab 10000 10000 := fun p q => (V c main_arg3 : S10000x10000.Idx → EReal) (ix2 p q)
abbrev u2 (c : Dev nD) : Tab 10000 256 := fun p q => (V c main_v5 : S10000x256.Idx → EReal) (ix2 p q)
abbrev bc2 (c : Dev nD) : Row 256 := fun q => (V c main_v4 : S1x256.Idx → EReal) (ix2 (0 : Fin 1) q)

/-- The printed index maps over the grid: the two matrix windows move down by one block of rows per point, the
    features and the bias are whole. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- Row `r` of the block at point `t` is row 200·t + r of the matrix. -/
def rowAt2 (t : Fin cfg2.N) (r : Fin 200) : Fin 10000 :=
  ⟨200 * t.val + r.val, by have hN : t.val < 50 := lt_of_lt_of_eq t.isLt N_2; have := r.isLt; omega⟩

theorem blk2_0_eq (c : Dev nD) (t : Fin cfg2.N) :
    tab2 (iblk2 V c 0 t : Vec Ideal S200x10000 .f32) = fun r k => Lr2 V c (rowAt2 t r) k := by
  funext r k
  obtain ⟨e0, e1, e2, e3, e4, e5, e6, e7⟩ := idx_facts2 t
  show (V c main_arg2 : S10000x10000.Idx → EReal) (((cfg2.win 0).blk t).view.emb (ix2 r k)) = (V c main_arg2 : S10000x10000.Idx → EReal) (ix2 (rowAt2 t r) k)
  refine congrArg _ ?_
  funext a; apply Fin.ext
  match a with
  | ⟨0, _⟩ => show win2_0.index t (0 : Fin 2) * 200 + 1 * r.val = 200 * t.val + r.val; omega
  | ⟨1, _⟩ => show win2_0.index t (1 : Fin 2) * 10000 + 1 * k.val = k.val; omega

theorem blk2_1_eq (c : Dev nD) (t : Fin cfg2.N) :
    tab2 (iblk2 V c 1 t : Vec Ideal S200x10000 .f32) = fun r k => Li2 V c (rowAt2 t r) k := by
  funext r k
  obtain ⟨e0, e1, e2, e3, e4, e5, e6, e7⟩ := idx_facts2 t
  show (V c main_arg3 : S10000x10000.Idx → EReal) (((cfg2.win 1).blk t).view.emb (ix2 r k)) = (V c main_arg3 : S10000x10000.Idx → EReal) (ix2 (rowAt2 t r) k)
  refine congrArg _ ?_
  funext a; apply Fin.ext
  match a with
  | ⟨0, _⟩ => show win2_1.index t (0 : Fin 2) * 200 + 1 * r.val = 200 * t.val + r.val; omega
  | ⟨1, _⟩ => show win2_1.index t (1 : Fin 2) * 10000 + 1 * k.val = k.val; omega

theorem blk2_2_eq (c : Dev nD) (t : Fin cfg2.N) :
    tab2 (iblk2 V c 2 t : Vec Ideal S10000x256 .f32) = u2 V c := by
  funext r k
  obtain ⟨e0, e1, e2, e3, e4, e5, e6, e7⟩ := idx_facts2 t
  show (V c main_v5 : S10000x256.Idx → EReal) (((cfg2.win 2).blk t).view.emb (ix2 r k)) = (V c main_v5 : S10000x256.Idx → EReal) (ix2 r k)
  refine congrArg _ ?_
  funext a; apply Fin.ext
  match a with
  | ⟨0, _⟩ => show win2_2.index t (0 : Fin 2) * 10000 + 1 * r.val = r.val; omega
  | ⟨1, _⟩ => show win2_2.index t (1 : Fin 2) * 256 + 1 * k.val = k.val; omega

theorem blk2_3_lo (c : Dev nD) (t : Fin cfg2.N) :
    row2 (View.ld (iblk2 V c 3 t : Vec Ideal S1x256 .f32) r2_2) = Cert.Spec.loRow (bc2 V c) := by
  funext q
  obtain ⟨e0, e1, e2, e3, e4, e5, e6, e7⟩ := idx_facts2 t
  show (V c main_v4 : S1x256.Idx → EReal) (((cfg2.win 3).blk t).view.emb (r2_2.idx (ix2 (0 : Fin 1) q))) = (V c main_v4 : S1x256.Idx → EReal) (ix2 (0 : Fin 1) ⟨q.val, by omega⟩)
  refine congrArg _ ?_
  funext a; apply Fin.ext
  match a with
  | ⟨0, _⟩ => show win2_3.index t (0 : Fin 2) * 1 + 1 * (0 + 1 * 0) = 0; omega
  | ⟨1, _⟩ => show win2_3.index t (1 : Fin 2) * 256 + 1 * (0 + 1 * q.val) = q.val; omega

theorem blk2_3_hi (c : Dev nD) (t : Fin cfg2.N) :
    row2 (View.ld (iblk2 V c 3 t : Vec Ideal S1x256 .f32) r2_3) = Cert.Spec.hiRow (bc2 V c) := by
  funext q
  obtain ⟨e0, e1, e2, e3, e4, e5, e6, e7⟩ := idx_facts2 t
  show (V c main_v4 : S1x256.Idx → EReal) (((cfg2.win 3).blk t).view.emb (r2_3.idx (ix2 (0 : Fin 1) q))) = (V c main_v4 : S1x256.Idx → EReal) (ix2 (0 : Fin 1) ⟨q.val + 128, by omega⟩)
  refine congrArg _ ?_
  funext a; apply Fin.ext
  match a with
  | ⟨0, _⟩ => show win2_3.index t (0 : Fin 2) * 1 + 1 * (0 + 1 * 0) = 0; omega
  | ⟨1, _⟩ => show win2_3.index t (1 : Fin 2) * 256 + 1 * (128 + 1 * q.val) = q.val + 128; omega

/-- Row 8a + s of the block at point `t` is the spec's row of block `t`, group `a`, residue `s`. -/
theorem rowAt2_eq (t : Fin cfg2.N) (a : Fin 25) (s : Fin 8) (h : 8 * a.val + s.val < 200) (ht : t.val < 50) :
    rowAt2 t ⟨8 * a.val + s.val, h⟩ = Cert.Spec.rowOf ⟨t.val, ht⟩ a s := by
  apply Fin.ext; show 200 * t.val + (8 * a.val + s.val) = 200 * t.val + 8 * a.val + s.val; omega

/-- The partial sums of the block at point `t` are those of block `t` of the masked layer over the region's arrays. -/
theorem part2_value (c : Dev nD) (t : Fin cfg2.N) (ht : t.val < 50) (s : Fin 8) (q : Fin 256) :
    part2 V c t (ix2 s q) = Cert.Spec.part (Cert.Spec.layer2 (Lr2 V c) (Li2 V c) (u2 V c) (bc2 V c)) ⟨t.val, ht⟩ s q := by
  unfold part2 part2f
  rw [View.ld_unit_zero (S := S200x10000) zeroOff2, View.ld_unit_zero (S := S200x10000) zeroOff2, View.ld_unit_zero (S := S10000x256) zeroOff2]
  rw [k2_value, blk2_0_eq, blk2_1_eq, blk2_2_eq, blk2_3_lo, blk2_3_hi]
  unfold Cert.Spec.part Cert.Spec.layer2
  refine Finset.sum_congr rfl fun a _ => ?_
  unfold Cert.Spec.cat
  rw [← rowAt2_eq t a s (by have := a.isLt; have := s.isLt; omega) ht]
  split
  · exact blkOutRe_rows _ _ _ _ (rowAt2 t) _ _
  · exact blkOutIm_rows _ _ _ _ _ (rowAt2 t) _ _

/-! ## The region's result -/

/-- What region 2 leaves in its result array: the partial column sums of the 50 blocks of the masked layer, added up. -/
theorem value2 (c : Dev nD) : (dat2 (F := Ideal) V c).arrAt 4 cfg2.N
    = (fun idx : S8x256.Idx => Cert.Spec.stage2 (fun p q => (V c main_arg2 : S10000x10000.Idx → EReal) (ix2 p q))
        (fun p q => (V c main_arg3 : S10000x10000.Idx → EReal) (ix2 p q))
        (fun p q => (V c main_v5 : S10000x256.Idx → EReal) (ix2 p q))
        (fun q => (V c main_v4 : S1x256.Idx → EReal) (ix2 (0 : Fin 1) q)) (idx 0) (idx 1)) := by
  rw [final2_4]
  funext idx
  rw [eq_ix2 idx]
  show acc2 V c t2_last (ix2 (idx 0) (idx 1)) = Cert.Spec.stage2 (Lr2 V c) (Li2 V c) (u2 V c) (bc2 V c) (idx 0) (idx 1)
  unfold Cert.Spec.stage2
  have h49 : (49 : ℕ) < cfg2.N := t2_last.isLt
  show acc2 V c ⟨49, h49⟩ (ix2 (idx 0) (idx 1)) = _
  rw [acc2_sum V c 49 h49]
  exact Finset.sum_congr rfl fun p _ => part2_value V c _ p.isLt _ _

end Value

end Cert.KernelIdeal.Hand

end
-- ==== Proof.Region3Value.lean ====
/- Region 3 at the extended reals: what the region leaves in its output array, as one function of the five input
   arrays the region finds. The body's one store holds the head: the eight residues of the column sums added and
   scaled by 1/10000, a dense layer clipped at 0 from below, a second dense layer, and the softmax of its row. The
   single point's block is the whole array, so the array after the run is that value. -/
import proofs.«163911_g13984413516055_cont_sun_m_56_12_alg».proof.Proof.Region3
import proofs.«163911_g13984413516055_cont_sun_m_56_12_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 65536

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The two products at an index -/

theorem mm3a_apply (x : FVec Ideal S1x256 .f32) (w : FVec Ideal S256x128 .f32) (p : Fin 1) (j : Fin 128) :
    matmul dot_S1x256_S256x128_S1x128_1_0_0_1_n_n (some .fp32) x w (constant (F := Ideal) S1x128 .f32 0x00000000#32) (ix2 p j)
      = ∑ t : Fin 256, x (ix2 p t) * w (ix2 t j) := by
  refine (Ideal.matmul_constant_zero_apply dot_S1x256_S256x128_S1x128_1_0_0_1_n_n (some .fp32) x w (ix2 p j)).trans ?_
  rw [← Equiv.sum_comp (contrEquiv1 dot_S1x256_S256x128_S1x128_1_0_0_1_n_n 256 rfl rfl).symm]
  refine Finset.sum_congr rfl fun k _ => ?_
  have hk := contrEquiv1_symm_val dot_S1x256_S256x128_S1x128_1_0_0_1_n_n 256 rfl rfl k
  have el : dot_S1x256_S256x128_S1x128_1_0_0_1_n_n.lhsIdx (ix2 p j) ((contrEquiv1 dot_S1x256_S256x128_S1x128_1_0_0_1_n_n 256 rfl rfl).symm k) = ix2 p k := funext fun a => Fin.ext (by
    match a with
    | ⟨0, _⟩ =>
      show (dot_S1x256_S256x128_S1x128_1_0_0_1_n_n.lhsIdx (ix2 p j) ((contrEquiv1 dot_S1x256_S256x128_S1x128_1_0_0_1_n_n 256 rfl rfl).symm k) 0).val = p.val
      unfold DotDims.lhsIdx
      rw [dif_neg (show ¬(0 : Fin S1x256.rank) ∈ dot_S1x256_S256x128_S1x128_1_0_0_1_n_n.lhsBatch by decide), dif_pos (show (0 : Fin S1x256.rank) ∈ dot_S1x256_S256x128_S1x128_1_0_0_1_n_n.lhsNonContracting by decide)]
      rfl
    | ⟨1, _⟩ => exact (dot_S1x256_S256x128_S1x128_1_0_0_1_n_n.lhsIdx_val_of_single rfl _ _).trans hk)
  have er : dot_S1x256_S256x128_S1x128_1_0_0_1_n_n.rhsIdx (ix2 p j) ((contrEquiv1 dot_S1x256_S256x128_S1x128_1_0_0_1_n_n 256 rfl rfl).symm k) = ix2 k j := funext fun a => Fin.ext (by
    match a with
    | ⟨0, _⟩ => exact (dot_S1x256_S256x128_S1x128_1_0_0_1_n_n.rhsIdx_val_of_single rfl _ _).trans hk
    | ⟨1, _⟩ =>
      show (dot_S1x256_S256x128_S1x128_1_0_0_1_n_n.rhsIdx (ix2 p j) ((contrEquiv1 dot_S1x256_S256x128_S1x128_1_0_0_1_n_n 256 rfl rfl).symm k) 1).val = j.val
      unfold DotDims.rhsIdx
      rw [dif_neg (show ¬(1 : Fin S256x128.rank) ∈ dot_S1x256_S256x128_S1x128_1_0_0_1_n_n.rhsBatch by decide), dif_pos (show (1 : Fin S256x128.rank) ∈ dot_S1x256_S256x128_S1x128_1_0_0_1_n_n.rhsNonContracting by decide)]
      rfl)
  rw [el, er]

theorem mm3b_apply (x : FVec Ideal S1x128 .f32) (w : FVec Ideal S128x10 .f32) (p : Fin 1) (j : Fin 10) :
    matmul dot_S1x128_S128x10_S1x10_1_0_0_1_n_n (some .fp32) x w (constant (F := Ideal) S1x10 .f32 0x00000000#32) (ix2 p j)
      = ∑ t : Fin 128, x (ix2 p t) * w (ix2 t j) := by
  refine (Ideal.matmul_constant_zero_apply dot_S1x128_S128x10_S1x10_1_0_0_1_n_n (some .fp32) x w (ix2 p j)).trans ?_
  rw [← Equiv.sum_comp (contrEquiv1 dot_S1x128_S128x10_S1x10_1_0_0_1_n_n 128 rfl rfl).symm]
  refine Finset.sum_congr rfl fun k _ => ?_
  have hk := contrEquiv1_symm_val dot_S1x128_S128x10_S1x10_1_0_0_1_n_n 128 rfl rfl k
  have el : dot_S1x128_S128x10_S1x10_1_0_0_1_n_n.lhsIdx (ix2 p j) ((contrEquiv1 dot_S1x128_S128x10_S1x10_1_0_0_1_n_n 128 rfl rfl).symm k) = ix2 p k := funext fun a => Fin.ext (by
    match a with
    | ⟨0, _⟩ =>
      show (dot_S1x128_S128x10_S1x10_1_0_0_1_n_n.lhsIdx (ix2 p j) ((contrEquiv1 dot_S1x128_S128x10_S1x10_1_0_0_1_n_n 128 rfl rfl).symm k) 0).val = p.val
      unfold DotDims.lhsIdx
      rw [dif_neg (show ¬(0 : Fin S1x128.rank) ∈ dot_S1x128_S128x10_S1x10_1_0_0_1_n_n.lhsBatch by decide), dif_pos (show (0 : Fin S1x128.rank) ∈ dot_S1x128_S128x10_S1x10_1_0_0_1_n_n.lhsNonContracting by decide)]
      rfl
    | ⟨1, _⟩ => exact (dot_S1x128_S128x10_S1x10_1_0_0_1_n_n.lhsIdx_val_of_single rfl _ _).trans hk)
  have er : dot_S1x128_S128x10_S1x10_1_0_0_1_n_n.rhsIdx (ix2 p j) ((contrEquiv1 dot_S1x128_S128x10_S1x10_1_0_0_1_n_n 128 rfl rfl).symm k) = ix2 k j := funext fun a => Fin.ext (by
    match a with
    | ⟨0, _⟩ => exact (dot_S1x128_S128x10_S1x10_1_0_0_1_n_n.rhsIdx_val_of_single rfl _ _).trans hk
    | ⟨1, _⟩ =>
      show (dot_S1x128_S128x10_S1x10_1_0_0_1_n_n.rhsIdx (ix2 p j) ((contrEquiv1 dot_S1x128_S128x10_S1x10_1_0_0_1_n_n 128 rfl rfl).symm k) 1).val = j.val
      unfold DotDims.rhsIdx
      rw [dif_neg (show ¬(1 : Fin S128x10.rank) ∈ dot_S1x128_S128x10_S1x10_1_0_0_1_n_n.rhsBatch by decide), dif_pos (show (1 : Fin S128x10.rank) ∈ dot_S1x128_S128x10_S1x10_1_0_0_1_n_n.rhsNonContracting by decide)]
      rfl)
  rw [el, er]

/-! ## The reductions at an index -/

/-- Over a [m,n] table reduced along its rows, the reduced index t with row k put back is (k, t). -/
theorem lift0_ix2 {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- Reduced along its columns, the reduced index r with column k put back is (r, k). -/
theorem lift1_ix2 {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- The sum of the eight rows, column by column. -/
theorem colsum_apply (v : FVec Ideal S8x256 .f32) (t : Fin 256) :
    multiReduction (F := Ideal) .add [0] S256 v 0x00000000#32 reduces_S8x256_S256 (.inl rfl) rfl (ix1 t)
      = ∑ s : Fin 8, v (ix2 s t) := by
  refine (Ideal.multiReduction_add_single v 0x00000000#32 reduces_S8x256_S256 (.inl rfl) rfl (ix1 t)).trans ?_
  exact Finset.sum_congr rfl fun k _ => congrArg v (lift0_ix2 reduces_S8x256_S256 t k)

/-- The sum of the one row's ten entries. -/
theorem rowsum_apply (v : FVec Ideal S1x10 .f32) (r : Fin 1) :
    multiReduction (F := Ideal) .add [1] S1 v 0x00000000#32 reduces_S1x10_S1 (.inl rfl) rfl (ix1 r)
      = ∑ k : Fin 10, v (ix2 r k) := by
  refine (Ideal.multiReduction_add_single v 0x00000000#32 reduces_S1x10_S1 (.inl rfl) rfl (ix1 r)).trans ?_
  exact Finset.sum_congr rfl fun k _ => congrArg v (lift1_ix2 reduces_S1x10_S1 r k)

/-- The accumulator of the maximum is the bottom element. -/
theorem ofBits_neg_inf : Ideal.ofBits .f32 0xFF800000#32 = (⊥ : EReal) := by simp [Ideal.ofBits, Ideal.ieee]

/-- The maximum of the one row's ten entries, from the bottom element. -/
theorem rowmax_apply (v : FVec Ideal S1x10 .f32) (r : Fin 1) :
    multiReduction (F := Ideal) .maximumf [1] S1 v 0xFF800000#32 reduces_S1x10_S1 (.inl rfl) rfl (ix1 r)
      = Cert.Spec.rowMax (fun k : Fin 10 => v (ix2 r k)) := by
  refine (Ideal.multiReduction_maximumf_single v 0xFF800000#32 reduces_S1x10_S1 (.inl rfl) rfl (ix1 r)).trans ?_
  unfold Cert.Spec.rowMax
  show (Finset.univ : Finset (Fin 10)).fold max (Ideal.ofBits .f32 0xFF800000#32) (v ∘ reduces_S1x10_S1.lift (ix1 r)) = _
  rw [ofBits_neg_inf]
  exact congrArg (fun f : Fin 10 → EReal => (Finset.univ : Finset (Fin 10)).fold max ⊥ f)
    (funext fun k => congrArg v (lift1_ix2 reduces_S1x10_S1 r k))

/-! ## The layout operations at an index -/

/-- A row of 256 viewed as a [1,256] table. -/
theorem cast_row256 (v : FVec Ideal S256 .f32) (r : Fin 1) (t : Fin 256) :
    shapeCast S1x256 v shapeCasts_S256_S1x256 (ix2 r t) = v (ix1 t) := by
  refine (shapeCast_addUnit_apply (![256] : Fin 1 → Nat) v shapeCasts_S256_S1x256 (ix2 r t)).trans ?_
  exact congrArg v (funext fun a => by match a with | ⟨0, _⟩ => rfl)

/-- A single entry viewed as a [1,1] table. -/
theorem cast_one (v : FVec Ideal S1 .f32) (r s : Fin 1) :
    shapeCast S1x1 v shapeCasts_S1_S1x1 (ix2 r s) = v (ix1 0) := by
  refine (shapeCast_addUnit_apply (![1] : Fin 1 → Nat) v shapeCasts_S1_S1x1 (ix2 r s)).trans ?_
  exact congrArg v (funext fun a => by match a with | ⟨0, _⟩ => exact Fin.ext (by show s.val = 0; omega))

/-- A [1,1] table spread along the row. -/
theorem spread_one (v : FVec Ideal S1x1 .f32) (r : Fin 1) (k : Fin 10) :
    broadcastTo S1x10 v broadcasts_S1x1_S1x10 (ix2 r k) = v (ix2 0 0) := by
  refine broadcastTo_apply v broadcasts_S1x1_S1x10 (ix2 r k) (ix2 0 0) fun a => ?_
  match a with
  | ⟨0, _⟩ => rfl
  | ⟨1, _⟩ => rfl

/-! ## The named constant -/

/-- The scale denotes the rational 1/10000. -/
theorem inv_const : Named.named (F := Ideal) Cert.KernelIdeal.κ "inv_10000" (φ := .f32) 0x38D1B717#32 = Cert.Spec.invN :=
  IdealRules.named_const.ideal_named_scalar _ _ _ _ rfl

/-! ## The payload at an index -/

/-- The stored value at column k: the head of the scaled column sums. -/
theorem pay3_apply (x0 : FVec Ideal S8x256 .f32) (A : FVec Ideal S256x128 .f32) (a : FVec Ideal S1x128 .f32)
    (B : FVec Ideal S128x10 .f32) (b : FVec Ideal S1x10 .f32) (k : Fin 10) :
    k3_pay1 (F := Ideal) x0 A a B b (ix2 0 k)
      = Cert.Spec.stage3 (fun p q => x0 (ix2 p q)) (fun p q => A (ix2 p q)) (fun q => a (ix2 0 q))
          (fun p q => B (ix2 p q)) (fun q => b (ix2 0 q)) k := by
  -- the mathematics' intermediate rows
  let g : Fin 256 → EReal := fun t => (∑ s : Fin 8, x0 (ix2 s t)) * Cert.Spec.invN
  let h : Fin 128 → EReal := fun j => max ((∑ t : Fin 256, g t * A (ix2 t j)) + a (ix2 0 j)) 0
  let z : Fin 10 → EReal := fun k => (∑ t : Fin 128, h t * B (ix2 t k)) + b (ix2 0 k)
  let e : Fin 10 → EReal := fun k => Ideal.exp (z k - Cert.Spec.rowMax z)
  -- the payload's intermediate vectors
  let v2 : FVec Ideal S256 .f32 := multiReduction (F := Ideal) .add [0] S256 (shapeCast S8x256 x0 shapeCasts_S8x256_S8x256) 0x00000000#32 reduces_S8x256_S256 (.inl rfl) rfl
  let v5 : FVec Ideal S1x256 .f32 := mulf (shapeCast S1x256 v2 shapeCasts_S256_S1x256) (broadcast S1x256 (Named.named (F := Ideal) κ "inv_10000" (φ := .f32) 0x38D1B717#32))
  let v12 : FVec Ideal S1x128 .f32 := maximumf (addf (matmul dot_S1x256_S256x128_S1x128_1_0_0_1_n_n (some .fp32) v5 A (constant (F := Ideal) S1x128 .f32 0x00000000#32)) (shapeCast S1x128 a shapeCasts_S1x128_S1x128)) (broadcast S1x128 (Scalar.ofBits (F := Ideal) .f32 0x00000000#32))
  let v17 : FVec Ideal S1x10 .f32 := addf (matmul dot_S1x128_S128x10_S1x10_1_0_0_1_n_n (some .fp32) v12 B (constant (F := Ideal) S1x10 .f32 0x00000000#32)) (shapeCast S1x10 b shapeCasts_S1x10_S1x10)
  let v18 : FVec Ideal S1 .f32 := multiReduction (F := Ideal) .maximumf [1] S1 v17 0xFF800000#32 reduces_S1x10_S1 (.inl rfl) rfl
  let v22 : FVec Ideal S1x10 .f32 := exp (subf v17 (broadcastTo S1x10 (shapeCast S1x1 v18 shapeCasts_S1_S1x1) broadcasts_S1x1_S1x10))
  let v23 : FVec Ideal S1 .f32 := multiReduction (F := Ideal) .add [1] S1 v22 0x00000000#32 reduces_S1x10_S1 (.inl rfl) rfl
  show Ideal.div (v22 (ix2 0 k)) (broadcastTo S1x10 (shapeCast S1x1 v23 shapeCasts_S1_S1x1) broadcasts_S1x1_S1x10 (ix2 0 k))
    = Ideal.div (e k) (∑ t : Fin 10, e t)
  have h2 : ∀ t : Fin 256, v2 (ix1 t) = ∑ s : Fin 8, x0 (ix2 s t) := fun t =>
    (colsum_apply (shapeCast S8x256 x0 shapeCasts_S8x256_S8x256) t).trans (by rw [shapeCast_self])
  have h5 : ∀ t : Fin 256, v5 (ix2 0 t) = g t := fun t => by
    show shapeCast S1x256 v2 shapeCasts_S256_S1x256 (ix2 0 t) * Named.named (F := Ideal) κ "inv_10000" (φ := .f32) 0x38D1B717#32
      = (∑ s : Fin 8, x0 (ix2 s t)) * Cert.Spec.invN
    rw [cast_row256 v2 0 t, h2 t, inv_const]
  have h12 : ∀ j : Fin 128, v12 (ix2 0 j) = h j := fun j => by
    show max (matmul dot_S1x256_S256x128_S1x128_1_0_0_1_n_n (some .fp32) v5 A (constant (F := Ideal) S1x128 .f32 0x00000000#32) (ix2 0 j)
        + shapeCast S1x128 a shapeCasts_S1x128_S1x128 (ix2 0 j)) (Ideal.ofBits .f32 0x00000000#32)
      = max ((∑ t : Fin 256, g t * A (ix2 t j)) + a (ix2 0 j)) 0
    rw [mm3a_apply v5 A 0 j, shapeCast_self, Ideal.ofBits_zero_f32]
    simp only [h5]
  have h17 : ∀ k : Fin 10, v17 (ix2 0 k) = z k := fun k => by
    show matmul dot_S1x128_S128x10_S1x10_1_0_0_1_n_n (some .fp32) v12 B (constant (F := Ideal) S1x10 .f32 0x00000000#32) (ix2 0 k)
        + shapeCast S1x10 b shapeCasts_S1x10_S1x10 (ix2 0 k)
      = (∑ t : Fin 128, h t * B (ix2 t k)) + b (ix2 0 k)
    rw [mm3b_apply v12 B 0 k, shapeCast_self]
    simp only [h12]
  have h18 : v18 (ix1 0) = Cert.Spec.rowMax z :=
    (rowmax_apply v17 0).trans (congrArg Cert.Spec.rowMax (funext h17))
  have h22 : ∀ k : Fin 10, v22 (ix2 0 k) = e k := fun k => by
    show Ideal.exp (v17 (ix2 0 k) - broadcastTo S1x10 (shapeCast S1x1 v18 shapeCasts_S1_S1x1) broadcasts_S1x1_S1x10 (ix2 0 k))
      = Ideal.exp (z k - Cert.Spec.rowMax z)
    rw [spread_one _ 0 k, cast_one v18 0 0, h18, h17 k]
  have h23 : v23 (ix1 0) = ∑ t : Fin 10, e t :=
    (rowsum_apply v22 0).trans (Finset.sum_congr rfl fun t _ => h22 t)
  rw [spread_one _ 0 k, cast_one v23 0 0, h23, h22 k]

/-! ## From the one block to the array -/

theorem hz3 : (![0, 0] : Fin 2 → Nat) = fun _ => 0 := funext fun a => by fin_cases a <;> rfl

/-- The region's output as one function of the five arrays the region finds. -/
def G3 (c : Dev nD) : S1x10.Idx → EReal :=
  fun idx => Cert.Spec.stage3 (fun p q => V c main_v6 (ix2 p q)) (fun p q => V c main_arg8 (ix2 p q))
    (fun q => V c main_v7 (ix2 0 q)) (fun p q => V c main_arg10 (ix2 p q)) (fun q => V c main_v8 (ix2 0 q)) (idx 1)

/-- The body's one store, over whole input blocks, is the closed form of those blocks. -/
theorem out3_5_eq (x0 : Vec Ideal S8x256 .f32) (A : Vec Ideal S256x128 .f32) (a : Vec Ideal S1x128 .f32)
    (B : Vec Ideal S128x10 .f32) (b : Vec Ideal S1x10 .f32) :
    out3_5 (F := Ideal) x0 A a B b = fun idx : S1x10.Idx =>
      Cert.Spec.stage3 (fun p q => x0 (ix2 p q)) (fun p q => A (ix2 p q)) (fun q => a (ix2 0 q))
        (fun p q => B (ix2 p q)) (fun q => b (ix2 0 q)) (idx 1) := by
  unfold out3_5
  rw [View.canon_unit_zero hz3]
  simp only [View.ld_unit_zero (S := S8x256) hz3, View.ld_unit_zero (S := S256x128) hz3, View.ld_unit_zero (S := S1x128) hz3,
    View.ld_unit_zero (S := S128x10) hz3, View.ld_unit_zero (S := S1x10) hz3]
  funext idx
  obtain ⟨p, q, rfl⟩ : ∃ (p : Fin 1) (q : Fin 10), idx = ix2 p q := ⟨idx 0, idx 1, eq_ix2 idx⟩
  obtain rfl : p = 0 := Subsingleton.elim _ _
  exact pay3_apply x0 A a B b q

/-- Each input window's one block is its whole array. -/
theorem iblk3_0_eq (c : Dev nD) (t : Fin cfg3.N) : iblk3 V c 0 t = V c main_v6 := by
  funext j
  show V c main_v6 (((cfg3.win 0).blk t).view.emb j) = V c main_v6 j
  refine congrArg _ (funext fun a => Fin.ext ?_)
  match a with
  | ⟨0, _⟩ => show 0 * 8 + 1 * (j 0).val = (j 0).val; omega
  | ⟨1, _⟩ => show 0 * 256 + 1 * (j 1).val = (j 1).val; omega
theorem iblk3_1_eq (c : Dev nD) (t : Fin cfg3.N) : iblk3 V c 1 t = V c main_arg8 := by
  funext j
  show V c main_arg8 (((cfg3.win 1).blk t).view.emb j) = V c main_arg8 j
  refine congrArg _ (funext fun a => Fin.ext ?_)
  match a with
  | ⟨0, _⟩ => show 0 * 256 + 1 * (j 0).val = (j 0).val; omega
  | ⟨1, _⟩ => show 0 * 128 + 1 * (j 1).val = (j 1).val; omega
theorem iblk3_2_eq (c : Dev nD) (t : Fin cfg3.N) : iblk3 V c 2 t = V c main_v7 := by
  funext j
  show V c main_v7 (((cfg3.win 2).blk t).view.emb j) = V c main_v7 j
  refine congrArg _ (funext fun a => Fin.ext ?_)
  match a with
  | ⟨0, _⟩ => show 0 * 1 + 1 * (j 0).val = (j 0).val; omega
  | ⟨1, _⟩ => show 0 * 128 + 1 * (j 1).val = (j 1).val; omega
theorem iblk3_3_eq (c : Dev nD) (t : Fin cfg3.N) : iblk3 V c 3 t = V c main_arg10 := by
  funext j
  show V c main_arg10 (((cfg3.win 3).blk t).view.emb j) = V c main_arg10 j
  refine congrArg _ (funext fun a => Fin.ext ?_)
  match a with
  | ⟨0, _⟩ => show 0 * 128 + 1 * (j 0).val = (j 0).val; omega
  | ⟨1, _⟩ => show 0 * 10 + 1 * (j 1).val = (j 1).val; omega
theorem iblk3_4_eq (c : Dev nD) (t : Fin cfg3.N) : iblk3 V c 4 t = V c main_v8 := by
  funext j
  show V c main_v8 (((cfg3.win 4).blk t).view.emb j) = V c main_v8 j
  refine congrArg _ (funext fun a => Fin.ext ?_)
  match a with
  | ⟨0, _⟩ => show 0 * 1 + 1 * (j 0).val = (j 0).val; omega
  | ⟨1, _⟩ => show 0 * 10 + 1 * (j 1).val = (j 1).val; omega

/-- What the one point writes back is the closed form, read through the point's block. -/
theorem flushed3_eq (c : Dev nD) (t : Fin cfg3.N) :
    (dat3 (F := Ideal) V c).flushed 5 t = ((cfg3.win 5).blk t).view.read (Elt Ideal) (G3 V c) := by
  show (cfg3.win 5).cut (grid3.coords t) ((dat3 V c).after 5 t) = _
  rw [after3_5, iblk3_0_eq, iblk3_1_eq, iblk3_2_eq, iblk3_3_eq, iblk3_4_eq, out3_5_eq]
  funext j
  show G3 V c j = G3 V c (((cfg3.win 5).blk t).view.emb j)
  refine congrArg _ (funext fun a => Fin.ext ?_)
  match a with
  | ⟨0, _⟩ => show (j 0).val = 0 * 1 + 1 * (j 0).val; omega
  | ⟨1, _⟩ => show (j 1).val = 0 * 10 + 1 * (j 1).val; omega

/-- Every index of the output array is in the one point's block. -/
theorem cover3 (i : S1x10.Idx) :
    ∃ t : Fin cfg3.N, (cfg3.win 5).flush t = true ∧ i ∈ ((cfg3.win 5).blk t).view.set := by
  refine ⟨t3_0, flush3_5 t3_0, ?_⟩
  show i ∈ ((View.whole main_v9).slice (win3_5.rect t3_0)).set
  rw [View.set_slice_whole, Rect.mem_set_unit]
  intro a
  match a with
  | ⟨0, _⟩ => exact ⟨Nat.zero_le _, by have := idx2_lt0 i; show (i 0).val < 0 * 1 + 1; omega⟩
  | ⟨1, _⟩ => exact ⟨Nat.zero_le _, by have := idx2_lt1 i; show (i 1).val < 0 * 10 + 10; omega⟩

/-- THE ARRAY after the region: the head of the arrays the region finds. -/
theorem value3 (c : Dev nD) : (dat3 (F := Ideal) V c).arrAt 5 cfg3.N = (fun idx : S1x10.Idx =>
    Cert.Spec.stage3 (fun p q => V c main_v6 (ix2 p q)) (fun p q => V c main_arg8 (ix2 p q))
      (fun q => V c main_v7 (ix2 0 q)) (fun p q => V c main_arg10 (ix2 p q)) (fun q => V c main_v8 (ix2 0 q)) (idx 1)) :=
  (dat3 (F := Ideal) V c).arrAt_eq_of_cover 5 (G3 V c) (fun t _ => flushed3_eq V c t) cover3

end Cert.KernelIdeal.Hand

end
-- ==== Proof.HostGlue.lean ====
/-
  The host operations between the regions, read at an index. Before the first layer's region the two layer
  biases are each joined with themselves end to end (a row of 256 whose two halves are the bias) and laid
  out as a [1,256] table; before the head's region its two biases are laid out as [1,128] and [1,10]
  tables. None of these operations, and no region before them, writes an argument array, so the entries
  are those of the launch memory.
-/
import proofs.«163911_g13984413516055_cont_sun_m_56_12_alg».proof.Proof.Run
import proofs.«163911_g13984413516055_cont_sun_m_56_12_alg».proof.Proof.Spec
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx

/-! ## The operations' results as array expressions, from any contents `V` before them -/

/-- Two rows of 128 joined end to end and laid out as the one row of a [1,256] table: entry (0, q) is the
    q-th entry of the joined row (the first row below 128, the second from 128 on). -/
theorem cast_concat_apply (x y : S128.Idx → EReal) (q : Fin 256) :
    shapeCast S1x256 (concatenate S256 0 [⟨S128, x⟩, ⟨S128, y⟩] concatenates_S128_S128_S256_d0) shapeCasts_S256_S1x256 (ix2 0 q)
      = Cert.Spec.catRow (fun p => x (ix1 p)) (fun p => y (ix1 p)) q := by
  rw [shapeCast_a_1a_apply]
  unfold Cert.Spec.catRow
  by_cases h : q.val < 128
  · rw [dif_pos h]
    exact concatenate_pair_apply_left (0 : Fin S256.rank) x y concatenates_S128_S128_S256_d0 (ix1 q) rfl (ix1 ⟨q.val, h⟩)
      (fun b => by match b with | ⟨0, _⟩ => rfl)
  · rw [dif_neg h]
    exact concatenate_pair_apply_right (0 : Fin S256.rank) x y concatenates_S128_S128_S256_d0 (ix1 q) rfl rfl (ix1 ⟨q.val - 128, by omega⟩)
      (fun b hb => by match b, hb with | ⟨0, _⟩, hb => exact absurd rfl hb)
      (by show q.val - 128 + 128 = q.val; omega)

/-- After the first host stretch the first doubled bias is the first-layer bias joined with itself, as a [1,256] table. -/
theorem after1_v2_eq (V : Valuation τ sig (Elt Ideal)) :
    (StableHlo.after (hostOps1 (F := Ideal)) V (Proc.devRef .tc main_v2) : S1x256.Idx → EReal)
      = shapeCast S1x256 (concatenate S256 0 [⟨S128, (V (Proc.devRef .tc main_arg5) : S128.Idx → EReal)⟩, ⟨S128, (V (Proc.devRef .tc main_arg5) : S128.Idx → EReal)⟩] concatenates_S128_S128_S256_d0) shapeCasts_S256_S1x256 := by
  dsimp only [hostOps1]
  after_results
  rfl

/-- After the first host stretch the second doubled bias is the second-layer bias joined with itself, as a [1,256] table. -/
theorem after1_v4_eq (V : Valuation τ sig (Elt Ideal)) :
    (StableHlo.after (hostOps1 (F := Ideal)) V (Proc.devRef .tc main_v4) : S1x256.Idx → EReal)
      = shapeCast S1x256 (concatenate S256 0 [⟨S128, (V (Proc.devRef .tc main_arg7) : S128.Idx → EReal)⟩, ⟨S128, (V (Proc.devRef .tc main_arg7) : S128.Idx → EReal)⟩] concatenates_S128_S128_S256_d0) shapeCasts_S256_S1x256 := by
  dsimp only [hostOps1]
  after_results
  rfl

/-- After the second host stretch the head's first bias is laid out as a [1,128] table. -/
theorem after3_v7_eq (V : Valuation τ sig (Elt Ideal)) :
    (StableHlo.after (hostOps3 (F := Ideal)) V (Proc.devRef .tc main_v7) : S1x128.Idx → EReal)
      = shapeCast S1x128 (V (Proc.devRef .tc main_arg9) : S128.Idx → EReal) shapeCasts_S128_S1x128 := by
  dsimp only [hostOps3]
  after_results
  rfl

/-- After the second host stretch the head's second bias is laid out as a [1,10] table. -/
theorem after3_v8_eq (V : Valuation τ sig (Elt Ideal)) :
    (StableHlo.after (hostOps3 (F := Ideal)) V (Proc.devRef .tc main_v8) : S1x10.Idx → EReal)
      = shapeCast S1x10 (V (Proc.devRef .tc main_arg11) : S10.Idx → EReal) shapeCasts_S10_S1x10 := by
  dsimp only [hostOps3]
  after_results
  rfl

/-! ## The same in the fold of the run, in terms of the launch memory -/

variable (m : (ℓ : Loc nD τ sig) → Buf (Elt Ideal) ℓ) (ρ : Dev nD → PrngReg)

/-- An argument array that no region puts out and no host operation writes is, before region 1, as launched. -/
theorem Wh1_arg5 (c : Dev nD) :
    (Wh1 (F := Ideal) m ρ c (Proc.devRef .tc main_arg5) : S128.Idx → EReal) = m ((c : Thread nD τ).loc main_arg5) :=
  (Wh1_keep m ρ c main_arg5 (by decide)).trans rfl
theorem Wh1_arg7 (c : Dev nD) :
    (Wh1 (F := Ideal) m ρ c (Proc.devRef .tc main_arg7) : S128.Idx → EReal) = m ((c : Thread nD τ).loc main_arg7) :=
  (Wh1_keep m ρ c main_arg7 (by decide)).trans rfl
/-- … and before region 3. -/
theorem Wh4_arg9 (c : Dev nD) :
    (Wh4 (F := Ideal) m ρ c (Proc.devRef .tc main_arg9) : S128.Idx → EReal) = m ((c : Thread nD τ).loc main_arg9) :=
  (Wh4_keep m ρ c main_arg9 (by decide)).trans ((Wh3_keep m ρ c main_arg9 (by decide)).trans
    ((Wh2_keep m ρ c main_arg9 (by decide)).trans ((Wh1_keep m ρ c main_arg9 (by decide)).trans rfl)))
theorem Wh4_arg11 (c : Dev nD) :
    (Wh4 (F := Ideal) m ρ c (Proc.devRef .tc main_arg11) : S10.Idx → EReal) = m ((c : Thread nD τ).loc main_arg11) :=
  (Wh4_keep m ρ c main_arg11 (by decide)).trans ((Wh3_keep m ρ c main_arg11 (by decide)).trans
    ((Wh2_keep m ρ c main_arg11 (by decide)).trans ((Wh1_keep m ρ c main_arg11 (by decide)).trans rfl)))

/-- The first layer's doubled bias, entry by entry: the launch bias joined with itself. -/
theorem Wh2_bias0 (c : Dev nD) (q : Fin 256) :
    Wh2 (F := Ideal) m ρ c (Proc.devRef .tc main_v2) (ix2 0 q)
      = Cert.Spec.catRow (fun p => m ((c : Thread nD τ).loc main_arg5) (ix1 p)) (fun p => m ((c : Thread nD τ).loc main_arg5) (ix1 p)) q := by
  refine (congrFun (after1_v2_eq (Wh1 (F := Ideal) m ρ c)) (ix2 0 q)).trans ?_
  rw [cast_concat_apply, Wh1_arg5]

/-- The second layer's doubled bias, entry by entry: the launch bias joined with itself. -/
theorem Wh2_bias1 (c : Dev nD) (q : Fin 256) :
    Wh2 (F := Ideal) m ρ c (Proc.devRef .tc main_v4) (ix2 0 q)
      = Cert.Spec.catRow (fun p => m ((c : Thread nD τ).loc main_arg7) (ix1 p)) (fun p => m ((c : Thread nD τ).loc main_arg7) (ix1 p)) q := by
  refine (congrFun (after1_v4_eq (Wh1 (F := Ideal) m ρ c)) (ix2 0 q)).trans ?_
  rw [cast_concat_apply, Wh1_arg7]

/-- The head's first bias as a row of the [1,128] table: the launch bias. -/
theorem Wh5_bias2 (c : Dev nD) (q : Fin 128) :
    Wh5 (F := Ideal) m ρ c (Proc.devRef .tc main_v7) (ix2 0 q) = m ((c : Thread nD τ).loc main_arg9) (ix1 q) := by
  refine (congrFun (after3_v7_eq (Wh4 (F := Ideal) m ρ c)) (ix2 0 q)).trans ?_
  rw [shapeCast_a_1a_apply, Wh4_arg9]

/-- The head's second bias as a row of the [1,10] table: the launch bias. -/
theorem Wh5_bias3 (c : Dev nD) (q : Fin 10) :
    Wh5 (F := Ideal) m ρ c (Proc.devRef .tc main_v8) (ix2 0 q) = m ((c : Thread nD τ).loc main_arg11) (ix1 q) := by
  refine (congrFun (after3_v8_eq (Wh4 (F := Ideal) m ρ c)) (ix2 0 q)).trans ?_
  rw [shapeCast_a_1a_apply, Wh4_arg11]

end Cert.KernelIdeal.Hand

end
-- ==== Proof.KernelValue.lean ====
/- The value the program leaves in its result buffer, read off the fold of buffer contents through @main: the
   result array is what the last region's write-back leaves, which is the head applied to the array the third
   region left, which is the sum of the partial column sums of the second layer applied to the array the second
   region left, and so on back to the launch memory. Every array met on the way is either the output of exactly one
   region (and then it is that region's value, a stage of the specification's second arrangement), a bias row laid
   out by a host operation, or an argument nothing has written, which is as launched. Composing the four stages
   gives the second arrangement end to end, applied to the twelve argument arrays of the launch memory. -/
import proofs.«163911_g13984413516055_cont_sun_m_56_12_alg».proof.Proof.Run
import proofs.«163911_g13984413516055_cont_sun_m_56_12_alg».proof.Proof.Spec
import proofs.«163911_g13984413516055_cont_sun_m_56_12_alg».proof.Proof.Region0Value
import proofs.«163911_g13984413516055_cont_sun_m_56_12_alg».proof.Proof.Region1Value
import proofs.«163911_g13984413516055_cont_sun_m_56_12_alg».proof.Proof.Region2Value
import proofs.«163911_g13984413516055_cont_sun_m_56_12_alg».proof.Proof.Region3Value
import proofs.«163911_g13984413516055_cont_sun_m_56_12_alg».proof.Proof.HostGlue
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

/-! ## Each stage is a function of its arguments only -/

theorem stage0_congr {xr xr' xi xi' : Cert.Spec.Tab 10000 128} {W W' : Cert.Spec.Tab 128 128}
    (h1 : xr = xr') (h2 : xi = xi') (h3 : W = W') :
    Cert.Spec.stage0 xr xi W = Cert.Spec.stage0 xr' xi' W' := by rw [h1, h2, h3]

theorem stage1_congr {Lr Lr' Li Li' : Cert.Spec.Tab 10000 10000} {u u' : Cert.Spec.Tab 10000 256}
    {bc bc' : Cert.Spec.Row 256} {W W' : Cert.Spec.Tab 128 128}
    (h1 : Lr = Lr') (h2 : Li = Li') (h3 : u = u') (h4 : bc = bc') (h5 : W = W') :
    Cert.Spec.stage1 Lr Li u bc W = Cert.Spec.stage1 Lr' Li' u' bc' W' := by rw [h1, h2, h3, h4, h5]

theorem stage2_congr {Lr Lr' Li Li' : Cert.Spec.Tab 10000 10000} {u u' : Cert.Spec.Tab 10000 256}
    {bc bc' : Cert.Spec.Row 256}
    (h1 : Lr = Lr') (h2 : Li = Li') (h3 : u = u') (h4 : bc = bc') :
    Cert.Spec.stage2 Lr Li u bc = Cert.Spec.stage2 Lr' Li' u' bc' := by rw [h1, h2, h3, h4]

theorem stage3_congr {G G' : Cert.Spec.Tab 8 256} {A A' : Cert.Spec.Tab 256 128} {a a' : Cert.Spec.Row 128}
    {B B' : Cert.Spec.Tab 128 10} {b b' : Cert.Spec.Row 10}
    (h1 : G = G') (h2 : A = A') (h3 : a = a') (h4 : B = B') (h5 : b = b') :
    Cert.Spec.stage3 G A a B b = Cert.Spec.stage3 G' A' a' B' b' := by rw [h1, h2, h3, h4, h5]

/-! ## A buffer nothing has written yet is as launched, at every point of the fold -/

section Chain
set_option quotPrecheck false
variable (m : (ℓ : Loc nD τ sig) → Buf (Elt Ideal) ℓ) (ρ : Dev nD → PrngReg) (c : Dev nD)

local notation "vAll" => ([main_v0, main_v1, main_v2, main_v3, main_v4, main_v5, main_v6, main_v7, main_v8, main_v9] : List (Ref sig .tc))

theorem Wh5_launch (b : Ref sig .tc) (hb : b ∉ vAll) :
    Wh5 m ρ c (Proc.devRef .tc b) = m ((c : Thread nD τ).loc b) := by
  have hb' := hb
  simp only [List.mem_cons, List.not_mem_nil, or_false, not_or] at hb'
  exact (Wh6_keep m ρ c b hb'.2.2.2.2.2.2.2.2.2).symm.trans (Wh6_launch m ρ c b hb)

theorem Wh3_launch (b : Ref sig .tc) (hb : b ∉ vAll) :
    Wh3 m ρ c (Proc.devRef .tc b) = m ((c : Thread nD τ).loc b) := by
  have hb' := hb
  simp only [List.mem_cons, List.not_mem_nil, or_false, not_or] at hb'
  obtain ⟨h0, h1, h2, h3, h4, h5, h6, h7, h8, h9⟩ := hb'
  have h53 : b ∉ hostOps3_W := by
    simp only [hostOps3_W, List.mem_cons, List.not_mem_nil, or_false, not_or]; exact ⟨h7, h8⟩
  exact ((Wh4_keep m ρ c b h6).symm.trans (Wh5_keep m ρ c b h53).symm).trans (Wh5_launch m ρ c b hb)

theorem Wh2_launch (b : Ref sig .tc) (hb : b ∉ vAll) :
    Wh2 m ρ c (Proc.devRef .tc b) = m ((c : Thread nD τ).loc b) := by
  have hb' := hb
  simp only [List.mem_cons, List.not_mem_nil, or_false, not_or] at hb'
  exact (Wh3_keep m ρ c b hb'.2.2.2.2.2.1).symm.trans (Wh3_launch m ρ c b hb)

/-! ## The launch memory's arrays as tables and rows -/

local notation "Xr" => (fun (p : Fin 10000) (q : Fin 128) => m ((c : Thread nD τ).loc main_arg0) (ix2 p q))
local notation "Xi" => (fun (p : Fin 10000) (q : Fin 128) => m ((c : Thread nD τ).loc main_arg1) (ix2 p q))
local notation "LR" => (fun (p : Fin 10000) (q : Fin 10000) => m ((c : Thread nD τ).loc main_arg2) (ix2 p q))
local notation "LI" => (fun (p : Fin 10000) (q : Fin 10000) => m ((c : Thread nD τ).loc main_arg3) (ix2 p q))
local notation "W0" => (fun (p : Fin 128) (q : Fin 128) => m ((c : Thread nD τ).loc main_arg4) (ix2 p q))
local notation "B0" => (fun (p : Fin 128) => m ((c : Thread nD τ).loc main_arg5) (ix1 p))
local notation "W1" => (fun (p : Fin 128) (q : Fin 128) => m ((c : Thread nD τ).loc main_arg6) (ix2 p q))
local notation "B1" => (fun (p : Fin 128) => m ((c : Thread nD τ).loc main_arg7) (ix1 p))
local notation "FA" => (fun (p : Fin 256) (q : Fin 128) => m ((c : Thread nD τ).loc main_arg8) (ix2 p q))
local notation "Fa" => (fun (p : Fin 128) => m ((c : Thread nD τ).loc main_arg9) (ix1 p))
local notation "FB" => (fun (p : Fin 128) (q : Fin 10) => m ((c : Thread nD τ).loc main_arg10) (ix2 p q))
local notation "Fb" => (fun (p : Fin 10) => m ((c : Thread nD τ).loc main_arg11) (ix1 p))

/-! ## The chain, stage by stage -/

/-- What region 0 left in its output array, as the next region finds it. -/
theorem v0_value : (fun (p : Fin 10000) (q : Fin 256) => Wh2 m ρ c (Proc.devRef .tc main_v0) (ix2 p q))
    = Cert.Spec.stage0 Xr Xi W0 := by
  funext p q
  exact congrFun (((Wh2_keep m ρ c main_v0 (by decide)).trans (Wh1_arr m ρ c 3)).trans (value0 (Vh0 m ρ) c)) (ix2 p q)

/-- What region 1 left in its output array. -/
theorem v5_value : (fun (p : Fin 10000) (q : Fin 256) => Wh3 m ρ c (Proc.devRef .tc main_v5) (ix2 p q))
    = Cert.Spec.stage1 LR LI (Cert.Spec.stage0 Xr Xi W0) (Cert.Spec.catRow B0 B0) W1 := by
  funext p q
  refine (congrFun ((Wh3_arr m ρ c 5).trans (value1 (Vh2 m ρ) c)) (ix2 p q)).trans ?_
  refine congrFun (congrFun (stage1_congr ?_ ?_ (v0_value m ρ c) ?_ ?_) p) q
  · exact funext fun p => funext fun q => congrFun (Wh2_launch m ρ c main_arg2 (by decide)) (ix2 p q)
  · exact funext fun p => funext fun q => congrFun (Wh2_launch m ρ c main_arg3 (by decide)) (ix2 p q)
  · exact funext fun q => Wh2_bias0 m ρ c q
  · exact funext fun p => funext fun q => congrFun (Wh2_launch m ρ c main_arg6 (by decide)) (ix2 p q)

/-- What region 2 left in its output array, as region 3 finds it. -/
theorem v6_value : (fun (p : Fin 8) (q : Fin 256) => Wh5 m ρ c (Proc.devRef .tc main_v6) (ix2 p q))
    = Cert.Spec.stage2 LR LI (Cert.Spec.stage1 LR LI (Cert.Spec.stage0 Xr Xi W0) (Cert.Spec.catRow B0 B0) W1)
        (Cert.Spec.catRow B1 B1) := by
  funext p q
  refine (congrFun (((Wh5_keep m ρ c main_v6 (by decide)).trans (Wh4_arr m ρ c 4)).trans (value2 (Vh3 m ρ) c)) (ix2 p q)).trans ?_
  refine congrFun (congrFun (stage2_congr ?_ ?_ (v5_value m ρ c) ?_) p) q
  · exact funext fun p => funext fun q => congrFun (Wh3_launch m ρ c main_arg2 (by decide)) (ix2 p q)
  · exact funext fun p => funext fun q => congrFun (Wh3_launch m ρ c main_arg3 (by decide)) (ix2 p q)
  · exact funext fun q => (congrFun (Wh3_keep m ρ c main_v4 (by decide)) (ix2 (0 : Fin 1) q)).trans (Wh2_bias1 m ρ c q)

/-- THE RESULT BUFFER at the end of the fold is the second arrangement of the specification, applied to the
    launch memory's twelve argument arrays. -/
theorem result_value (i : S1x10.Idx) :
    Wh6 (F := Ideal) m ρ c (Proc.devRef .tc main_v9) i
      = Cert.Spec.kerResult Xr Xi LR LI W0 B0 W1 B1 FA Fa FB Fb (i 1) := by
  refine (congrFun ((Wh6_result m ρ c).trans (value3 (Vh5 m ρ) c)) i).trans ?_
  unfold Cert.Spec.kerResult
  refine congrFun (stage3_congr (v6_value m ρ c) ?_ ?_ ?_ ?_) (i 1)
  · exact funext fun p => funext fun q => congrFun (Wh5_launch m ρ c main_arg8 (by decide)) (ix2 p q)
  · exact funext fun q => Wh5_bias2 m ρ c q
  · exact funext fun p => funext fun q => congrFun (Wh5_launch m ρ c main_arg10 (by decide)) (ix2 p q)
  · exact funext fun q => Wh5_bias3 m ρ c q

end Chain

end Cert.KernelIdeal.Hand

end
-- ==== Proof.Algebraic.lean ====
/- The value claim. Both idealized programs are run from memories that agree on the twelve arguments. The kernel
   program's run ends with its result buffer at the last contents of the fold through its four regions, which, read
   at an index, is the second arrangement of the specification (the weight applied before the propagation, the mask
   by selection, the column sums regrouped by blocks and residues, times 1/10000) at the launch arrays. The
   reference's run ends with its result at the composed term of its operations, which read at an index is the first
   arrangement (the weight applied last, the mask by the indicator, the column means). On real inputs — which is
   what the precondition says of every argument — the two arrangements are one function: associativity and
   distributivity of finite sums of reals for the layers, commutativity and associativity of addition alone for the
   regrouped column sums, and a quotient by 10000 is the product with 1/10000 on every extended real. -/
import proofs.«163911_g13984413516055_cont_sun_m_56_12_alg».proof.Defs
import proofs.«163911_g13984413516055_cont_sun_m_56_12_alg».proof.Proof.Gen.Kernel
import proofs.«163911_g13984413516055_cont_sun_m_56_12_alg».proof.Proof.Gen.KernelIdeal
import proofs.«163911_g13984413516055_cont_sun_m_56_12_alg».proof.Proof.Gen.ReferenceIdeal
import proofs.«163911_g13984413516055_cont_sun_m_56_12_alg».proof.Proof.Gen.Pre_finite_inputs
import proofs.«163911_g13984413516055_cont_sun_m_56_12_alg».proof.Proof.Gen.ReferenceIdeal.Run
import proofs.«163911_g13984413516055_cont_sun_m_56_12_alg».proof.Proof.Gen.ReferenceIdeal.Read
import proofs.«163911_g13984413516055_cont_sun_m_56_12_alg».proof.Proof.Run
import proofs.«163911_g13984413516055_cont_sun_m_56_12_alg».proof.Proof.RefValue
import proofs.«163911_g13984413516055_cont_sun_m_56_12_alg».proof.Proof.SpecLaws
import proofs.«163911_g13984413516055_cont_sun_m_56_12_alg».proof.Proof.RealInputs
import proofs.«163911_g13984413516055_cont_sun_m_56_12_alg».proof.Proof.KernelValue
set_option maxRecDepth 16384

noncomputable section

namespace Cert.Proof.Claims

open Idealize.ShloMosaic Idealize.ShloMosaic.TcCoe Idealize.SL.Sem Idealize.ShloMosaic.ValueIdx

/-- The two idealized programs, run from memories that agree on the arguments, end with equal results: the kernel
    program's result buffer is the second arrangement of the specification at the launch memory (the value chain
    through its four regions), the reference's result the first arrangement (its run read operation by operation),
    and the two arrangements agree on real inputs, which the precondition provides. -/
theorem algebraic : Cert.algebraic_KernelIdeal_ReferenceIdeal := by
  intro m ρ m' ρ' hpre hagree
  refine ⟨fun c => Cert.KernelIdeal.Hand.Wh6 (F := Ideal) m ρ c (Proc.devRef .tc Cert.KernelIdeal.main_v9), ?_, ?_⟩
  · exact (θ_run (Cert.KernelIdeal.defs (F := Ideal)) _ _).mono (fun r h c =>
      ⟨h c _ (Cert.KernelIdeal.Hand.hmem_uc Cert.KernelIdeal.main_v9 (by decide)),
        (h c _ (Cert.KernelIdeal.Hand.hmem_uc Cert.KernelIdeal.main_arg0 (by decide))).trans (Cert.KernelIdeal.Hand.Wh6_launch m ρ c Cert.KernelIdeal.main_arg0 (by decide)),
        (h c _ (Cert.KernelIdeal.Hand.hmem_uc Cert.KernelIdeal.main_arg1 (by decide))).trans (Cert.KernelIdeal.Hand.Wh6_launch m ρ c Cert.KernelIdeal.main_arg1 (by decide)),
        (h c _ (Cert.KernelIdeal.Hand.hmem_uc Cert.KernelIdeal.main_arg2 (by decide))).trans (Cert.KernelIdeal.Hand.Wh6_launch m ρ c Cert.KernelIdeal.main_arg2 (by decide)),
        (h c _ (Cert.KernelIdeal.Hand.hmem_uc Cert.KernelIdeal.main_arg3 (by decide))).trans (Cert.KernelIdeal.Hand.Wh6_launch m ρ c Cert.KernelIdeal.main_arg3 (by decide)),
        (h c _ (Cert.KernelIdeal.Hand.hmem_uc Cert.KernelIdeal.main_arg4 (by decide))).trans (Cert.KernelIdeal.Hand.Wh6_launch m ρ c Cert.KernelIdeal.main_arg4 (by decide)),
        (h c _ (Cert.KernelIdeal.Hand.hmem_uc Cert.KernelIdeal.main_arg5 (by decide))).trans (Cert.KernelIdeal.Hand.Wh6_launch m ρ c Cert.KernelIdeal.main_arg5 (by decide)),
        (h c _ (Cert.KernelIdeal.Hand.hmem_uc Cert.KernelIdeal.main_arg6 (by decide))).trans (Cert.KernelIdeal.Hand.Wh6_launch m ρ c Cert.KernelIdeal.main_arg6 (by decide)),
        (h c _ (Cert.KernelIdeal.Hand.hmem_uc Cert.KernelIdeal.main_arg7 (by decide))).trans (Cert.KernelIdeal.Hand.Wh6_launch m ρ c Cert.KernelIdeal.main_arg7 (by decide)),
        (h c _ (Cert.KernelIdeal.Hand.hmem_uc Cert.KernelIdeal.main_arg8 (by decide))).trans (Cert.KernelIdeal.Hand.Wh6_launch m ρ c Cert.KernelIdeal.main_arg8 (by decide)),
        (h c _ (Cert.KernelIdeal.Hand.hmem_uc Cert.KernelIdeal.main_arg9 (by decide))).trans (Cert.KernelIdeal.Hand.Wh6_launch m ρ c Cert.KernelIdeal.main_arg9 (by decide)),
        (h c _ (Cert.KernelIdeal.Hand.hmem_uc Cert.KernelIdeal.main_arg10 (by decide))).trans (Cert.KernelIdeal.Hand.Wh6_launch m ρ c Cert.KernelIdeal.main_arg10 (by decide)),
        (h c _ (Cert.KernelIdeal.Hand.hmem_uc Cert.KernelIdeal.main_arg11 (by decide))).trans (Cert.KernelIdeal.Hand.Wh6_launch m ρ c Cert.KernelIdeal.main_arg11 (by decide))⟩)
      (Cert.KernelIdeal.Hand.run_all (F := Ideal) m ρ)
  · refine (θ_run Cert.ReferenceIdeal.defs _ _).mono (fun r h c => ⟨(h c).1.trans ?_, (h c).2⟩)
      (Cert.ReferenceIdeal.Value.run (F := Ideal) m' ρ')
    funext i
    obtain ⟨e0, e1, e2, e3, e4, e5, e6, e7, e8, e9, e10, e11⟩ := hagree c
    obtain ⟨r0, r1, r2, r3, r4, r5, r6, r7⟩ := Cert.Pre_finite_inputs.Hand.real_of_pre _ _ _ _ _ _ _ _ _ _ _ _ (hpre c)
    refine (Cert.ReferenceIdeal.RefValue.ref_result_mem m' c i).trans ?_
    rw [e0, e1, e2, e3, e4, e5, e6, e7, e8, e9, e10, e11]
    refine Eq.trans ?_ (Cert.KernelIdeal.Hand.result_value m ρ c i).symm
    exact congrFun (Cert.Spec.kerResult_eq_refResult _ _ _ _ _ _ _ _ _ _ _ _ r0 r1 r2 r3 r4 r5 r6 r7).symm (i 1)

end Cert.Proof.Claims

end
-- ==== Proof.lean ====
/- The certificate of a two-layer complex graph convolution with a mean readout and a softmax head, computed by four
   kernel regions (the first weight transform; the first propagation with its bias, mask and the second weight
   transform fused; the second propagation reduced to per-block column sums accumulated over the grid; the head),
   against the plain formulation that propagates first and multiplies by the weight last.
   Five claims: each of the three programs runs to the end, faults nowhere and leaves its argument arrays as
   launched (Proof/Claims.lean, from the runs of Proof/Run.lean, Proof/Word/Run.lean and the reference's run); the
   idealized kernel program differs from the word-level one by naming one literal, the reciprocal of the number
   of nodes, as the rational 1/10000 (Proof/Claims.lean); and at the ideal instance the idealized kernel program and
   the idealized reference end with equal results on finite inputs (Proof/Algebraic.lean, over the specification of
   Proof/Spec.lean and its laws in Proof/SpecLaws.lean). -/
import proofs.«163911_g13984413516055_cont_sun_m_56_12_alg».proof.Defs
import proofs.«163911_g13984413516055_cont_sun_m_56_12_alg».proof.Proof.Gen.Kernel
import proofs.«163911_g13984413516055_cont_sun_m_56_12_alg».proof.Proof.Gen.Kernel.Skeleton
import proofs.«163911_g13984413516055_cont_sun_m_56_12_alg».proof.Proof.Gen.Kernel.Launch
import proofs.«163911_g13984413516055_cont_sun_m_56_12_alg».proof.Proof.Gen.Kernel.Regions
import proofs.«163911_g13984413516055_cont_sun_m_56_12_alg».proof.Proof.Gen.Kernel.Points
import proofs.«163911_g13984413516055_cont_sun_m_56_12_alg».proof.Proof.Gen.KernelIdeal
import proofs.«163911_g13984413516055_cont_sun_m_56_12_alg».proof.Proof.Gen.KernelIdeal.Skeleton
import proofs.«163911_g13984413516055_cont_sun_m_56_12_alg».proof.Proof.Gen.KernelIdeal.Launch
import proofs.«163911_g13984413516055_cont_sun_m_56_12_alg».proof.Proof.Gen.KernelIdeal.Regions
import proofs.«163911_g13984413516055_cont_sun_m_56_12_alg».proof.Proof.Gen.KernelIdeal.Points
import proofs.«163911_g13984413516055_cont_sun_m_56_12_alg».proof.Proof.Gen.ReferenceIdeal
import proofs.«163911_g13984413516055_cont_sun_m_56_12_alg».proof.Proof.Gen.Pre_finite_inputs
import proofs.«163911_g13984413516055_cont_sun_m_56_12_alg».proof.Proof.Claims
import proofs.«163911_g13984413516055_cont_sun_m_56_12_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
